-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32 : Shape := ⟨2, ![8192, 32]⟩
abbrev S8192x8192 : Shape := ⟨2, ![8192, 8192]⟩
abbrev S32x8192 : Shape := ⟨2, ![32, 8192]⟩
abbrev S_ : Shape := ⟨0, ![]⟩

class Facts : Prop where
  bcast_S_S8192x32 : S_.BroadcastsInDim S8192x32 (![] : Fin 0 → Fin S8192x32.rank)
  reducesTo_S8192x32_S_d0_1 : S8192x32.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S32x8192 : S_.BroadcastsInDim S32x8192 (![] : Fin 0 → Fin S32x8192.rank)
  reducesTo_S32x8192_S_d0_1 : S32x8192.ReducesTo [0, 1] S_

variable [Facts]

def fn {F : FTy → Type} [FloatOps F] (main_arg0 : FVec F S8192x32 .f32) (main_arg1 : FVec F S8192x8192 .f32) (main_arg2 : FVec F S32x8192 .f32) : IVec S_ 1 :=
  let main_v0 : FVec F S8192x32 .f32 := Host.absf main_arg0
  let main_cst : FVec F S_ .f32 := constant S_ .f32 0x7F800000#32
  let main_v1 : FVec F S8192x32 .f32 := broadcastInDim S8192x32 ![] bcast_S_S8192x32 main_cst
  let main_v2 : IVec S8192x32 1 := cmpf .olt main_v0 main_v1
  let main_c : IVec S_ 1 := constantI S_ 1 1#1
  let main_v3 : IVec S_ 1 := (fun x v => Host.reduce IntOp.andi x v reducesTo_S8192x32_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S32x8192 .f32 := Host.absf main_arg2
  let main_cst_2 : FVec F S_ .f32 := constant S_ .f32 0x7F800000#32
  let main_v10 : FVec F S32x8192 .f32 := broadcastInDim S32x8192 ![] bcast_S_S32x8192 main_cst_2
  let main_v11 : IVec S32x8192 1 := cmpf .olt main_v9 main_v10
  let main_c_3 : IVec S_ 1 := constantI S_ 1 1#1
  let main_v12 : IVec S_ 1 := (fun x v => Host.reduce IntOp.andi x v reducesTo_S32x8192_S_d0_1 h_S_) main_v11 main_c_3
  let main_v13 : IVec S_ 1 := andi main_v8 main_v12
  main_v13
-- ==== Kernel.lean ====
abbrev S8192x32 : Shape := ⟨2, ![8192, 32]⟩
abbrev S8192x8192 : Shape := ⟨2, ![8192, 8192]⟩
abbrev S32x8192 : Shape := ⟨2, ![32, 8192]⟩
abbrev S2048x1024 : Shape := ⟨2, ![2048, 1024]⟩
abbrev S2048x32 : Shape := ⟨2, ![2048, 32]⟩
abbrev S1024x32 : Shape := ⟨2, ![1024, 32]⟩
abbrev S1024x2048 : Shape := ⟨2, ![1024, 2048]⟩

abbrev nBuf : Space → Nat
  | .hbm => 6
  | .vmem => 16
  | .smem => 0
  | _ => 0

abbrev bufTy : (tb : Table) → Fin (tcTables nBuf tb) → BufTy
  | .hbm, ⟨0, _⟩ => ⟨S8192x32, .f32⟩
  | .hbm, ⟨1, _⟩ => ⟨S8192x8192, .f32⟩
  | .hbm, ⟨2, _⟩ => ⟨S32x8192, .f32⟩
  | .hbm, ⟨3, _⟩ => ⟨S8192x32, .f32⟩
  | .hbm, ⟨4, _⟩ => ⟨S8192x32, .bf16⟩
  | .hbm, ⟨5, _⟩ => ⟨S8192x32, .f32⟩
  | .local _ .vmem, ⟨0, _⟩ => ⟨S2048x1024, .f32⟩
  | .local _ .vmem, ⟨1, _⟩ => ⟨S2048x1024, .f32⟩
  | .local _ .vmem, ⟨2, _⟩ => ⟨S2048x32, .f32⟩
  | .local _ .vmem, ⟨3, _⟩ => ⟨S2048x32, .f32⟩
  | .local _ .vmem, ⟨4, _⟩ => ⟨S1024x32, .f32⟩
  | .local _ .vmem, ⟨5, _⟩ => ⟨S1024x32, .f32⟩
  | .local _ .vmem, ⟨6, _⟩ => ⟨S1024x32, .bf16⟩
  | .local _ .vmem, ⟨7, _⟩ => ⟨S1024x32, .bf16⟩
  | .local _ .vmem, ⟨8, _⟩ => ⟨S1024x32, .f32⟩
  | .local _ .vmem, ⟨9, _⟩ => ⟨S1024x2048, .f32⟩
  | .local _ .vmem, ⟨10, _⟩ => ⟨S1024x2048, .f32⟩
  | .local _ .vmem, ⟨11, _⟩ => ⟨S2048x32, .bf16⟩
  | .local _ .vmem, ⟨12, _⟩ => ⟨S2048x32, .bf16⟩
  | .local _ .vmem, ⟨13, _⟩ => ⟨S1024x32, .f32⟩
  | .local _ .vmem, ⟨14, _⟩ => ⟨S1024x32, .f32⟩
  | .local _ .vmem, ⟨15, _⟩ => ⟨S1024x32, .f32⟩
  | _, _ => ⟨S8192x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x32 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x32 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  transposes_S32x8192_S8192x32_1_0 : S32x8192.Transposes [1, 0] S8192x32
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S2048x32_S2048x32_0_0 : ∀ a, (![0, 0] : Fin 2 → Nat) a + S2048x32.size a ≤ S2048x32.size a
  h_S2048x32 : 0 < S2048x32.numel
  packedbf16_S1024x32_S1024x32_0_0 : (Rect.unit (s := S1024x32) ![0, 0] S1024x32.size inb_S1024x32_S1024x32_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S2048x32_S2048x32 : S2048x32.ShapeCasts S2048x32
  dot_S2048x1024_S2048x32_S1024x32_0_0_1_1_n_n_wf : DotDims.WF S2048x1024 S2048x32 S1024x32 [0] [0] [1] [1] [] []
  dot_S1024x2048_S2048x32_S1024x32_1_0_0_1_n_n_wf : DotDims.WF S1024x2048 S2048x32 S1024x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x8192.size a
  hwx0_0 : ∀ i : grid0.Coords, EltTy.bits .f32 = 32 ∨ (Rect.block (s := S8192x8192) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x32.size a ≤ S8192x32.size a
  hwx0_1 : ∀ i : grid0.Coords, EltTy.bits .f32 = 32 ∨ (Rect.block (s := S8192x32) S2048x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x32.size a ≤ S8192x32.size a
  hwx0_2 : ∀ i : grid0.Coords, EltTy.bits .f32 = 32 ∨ (Rect.block (s := S8192x32) S1024x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x32.size a ≤ S8192x32.size a
  hwx0_3 : ∀ i : grid0.Coords, EltTy.bits .bf16 = 32 ∨ (Rect.block (s := S8192x32) S1024x32.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x32.size a ≤ S8192x32.size a
  hwx1_1 : ∀ i : grid1.Coords, EltTy.bits .bf16 = 32 ∨ (Rect.block (s := S8192x32) S2048x32.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x32.size a ≤ S8192x32.size a
  hwx1_2 : ∀ i : grid1.Coords, EltTy.bits .f32 = 32 ∨ (Rect.block (s := S8192x32) S1024x32.size (cc1_transform_2 i) (hinb1_2 i)).WholeWords (EltTy.packing .f32)

variable [Facts₀]

def dot_S2048x1024_S2048x32_S1024x32_0_0_1_1_n_n : DotDims S2048x1024 S2048x32 S1024x32 where
  lhsContracting := [0]
  rhsContracting := [0]
  lhsNonContracting := [1]
  rhsNonContracting := [1]
  lhsBatch := []
  rhsBatch := []
  wf := dot_S2048x1024_S2048x32_S1024x32_0_0_1_1_n_n_wf
def dot_S1024x2048_S2048x32_S1024x32_1_0_0_1_n_n : DotDims S1024x2048 S2048x32 S1024x32 where
  lhsContracting := [1]
  rhsContracting := [0]
  lhsNonContracting := [0]
  rhsNonContracting := [1]
  lhsBatch := []
  rhsBatch := []
  wf := dot_S1024x2048_S2048x32_S1024x32_1_0_0_1_n_n_wf

abbrev win0_0 : Pipeline.Window sig grid0 :=
  Pipeline.Window.ofSpec (Memref.whole main_arg1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x32 : Shape := ⟨2, ![8192, 32]⟩
abbrev S8192x8192 : Shape := ⟨2, ![8192, 8192]⟩
abbrev S32x8192 : Shape := ⟨2, ![32, 8192]⟩

abbrev nBuf : Space → Nat
  | .hbm => 8
  | .vmem => 0
  | .smem => 0
  | _ => 0

abbrev bufTy : (tb : Table) → Fin (tcTables nBuf tb) → BufTy
  | .hbm, ⟨0, _⟩ => ⟨S8192x32, .f32⟩
  | .hbm, ⟨1, _⟩ => ⟨S8192x8192, .f32⟩
  | .hbm, ⟨2, _⟩ => ⟨S32x8192, .f32⟩
  | .hbm, ⟨3, _⟩ => ⟨S8192x8192, .f32⟩
  | .hbm, ⟨4, _⟩ => ⟨S8192x32, .f32⟩
  | .hbm, ⟨5, _⟩ => ⟨S8192x32, .f32⟩
  | .hbm, ⟨6, _⟩ => ⟨S8192x32, .f32⟩
  | .hbm, ⟨7, _⟩ => ⟨S8192x32, .f32⟩
  | _, _ => ⟨S8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S8192x8192_S8192x8192_1_0 : S8192x8192.Transposes [1, 0] S8192x8192
  transposes_S32x8192_S8192x32_1_0 : S32x8192.Transposes [1, 0] S8192x32
  dot_S8192x8192_S8192x32_S8192x32_1_0_0_1_n_n_wf : DotDims.WF S8192x8192 S8192x32 S8192x32 [1] [0] [0] [1] [] []

variable [Facts₀]

def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf

class Facts : Prop extends Facts₀ where

variable [Facts]
-- ==== Proof.KB.Base.lean ====
/-
  What the two kernels' runs are stated over.

  Each kernel walks a grid of 8 × 4 points, the second coordinate k innermost. At k = 0 it clears its accumulator (a
  scratch buffer it keeps between points), at every point it adds one partial product to it, and at k = 3 it stores the
  output block; so the output window is idle at the other points, and the accumulator carries from each point to the
  next. Here: each window's block at a point, read off the arrays as the kernel's region finds them; the two branch
  conditions decided over the grid; where the output window is idle and where it is live; the staging and scratch
  memrefs; and the region's invariant split into the accumulator, the other scoped buffers and the generator register.
-/
import proofs.«138625_j37280316129403_2_alg».proof.Proof.Gen.Kernel.Launch
import proofs.«138625_j37280316129403_2_alg».proof.Proof.Gen.Kernel.Skeleton
import proofs.«138625_j37280316129403_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Kernel 0 -/

section
variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (unfetched, its
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (unfetched, its
    block index has not moved), for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (unfetched, its
    block index has not moved), for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end

/-- The first branch's condition, from the grid coordinates: k = 0. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second branch's condition: k = 3. -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel
/-- Window 2 is never idle (an input). -/
theorem liveAt0_2 : ∀ t : Fin cfg0.N, cfg0.idle 2 (grid0.coords t) = false := by decide +kernel
/-- Where k = 0 the output window is idle: nothing is stored into it, and its block is not written back. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
/-- The same where k = 1 or 2. -/
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
/-- Where k = 3 the output window is live: the body stores its block. -/
theorem liveAt0_3_C : ∀ t : Fin cfg0.N, ¬cond0_0 (grid0.coords t) → cond0_1 (grid0.coords t) → cfg0.idle 3 (grid0.coords t) = false := by decide +kernel

/-- One staging buffer of the output window, through which its contents are stated (which one does not matter). -/
abbrev VO0 : View sig .tc .vmem S1024x32 .bf16 := (Memref.whole cc0_stg3_0 : Memref sig .tc .vmem S1024x32 .bf16).view
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x32 .bf16 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows; and its view. -/
abbrev scM0 : Memref sig .tc .vmem S1024x32 .f32 := Memref.whole cc0_scratch0
abbrev VS0 : View sig .tc .vmem S1024x32 .f32 := scM0.view

/-- The core's scoped buffers that are neither a staging buffer of this kernel nor its accumulator, each whole at some
    contents: what the body never touches. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class's region invariant hands the body the accumulator at some contents, the other scoped buffers, and the
    generator register at some state. -/
theorem PhiA0_split (c : Dev nD) :
    (Pipeline.ΦA spec0 c : sProp 𝕄) ⊢ iprop((∃ d, owns (c : Thread nD τ) scM0 fullShare d) ∗ rest0 c ∗ (∃ r, prngReg c r)) := by
  unfold Pipeline.ΦA rest0; rw [scopedRest0_eq]; simp only [scM0, owns_whole]
  iintro ⟨⟨HS, H0, H1, H2, H3, H4, H5, H6⟩, Hg⟩
  isplitl [HS]; · iexact HS
  isplitr [Hg]
  swap; · iexact Hg
  isplitl [H0]; · iexact H0
  isplitl [H1]; · iexact H1
  isplitl [H2]; · iexact H2
  isplitl [H3]; · iexact H3
  isplitl [H4]; · iexact H4
  isplitl [H5]; · iexact H5
  iexact H6

/-- And takes them back, the accumulator at any contents. -/
theorem PhiA0_join (c : Dev nD) :
    iprop((∃ d, owns (c : Thread nD τ) scM0 fullShare d) ∗ rest0 c ∗ (∃ r, prngReg c r)) ⊢ (Pipeline.ΦA spec0 c : sProp 𝕄) := by
  unfold Pipeline.ΦA rest0; rw [scopedRest0_eq]; simp only [scM0, owns_whole]
  iintro ⟨HS, ⟨H0, H1, H2, H3, H4, H5, H6⟩, Hg⟩
  isplitr [Hg]
  swap; · iexact Hg
  isplitl [HS]; · iexact HS
  isplitl [H0]; · iexact H0
  isplitl [H1]; · iexact H1
  isplitl [H2]; · iexact H2
  isplitl [H3]; · iexact H3
  isplitl [H4]; · iexact H4
  isplitl [H5]; · iexact H5
  iexact H6

/-! # Kernel 1 -/

section
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, its
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, its
    block index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-- The first branch's condition, from the grid coordinates: k = 0. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second branch's condition: k = 3. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Where k = 0 the output window is idle: nothing is stored into it, and its block is not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
/-- The same where k = 1 or 2. -/
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- Where k = 3 the output window is live: the body stores its block. -/
theorem liveAt1_2_C : ∀ t : Fin cfg1.N, ¬cond1_0 (grid1.coords t) → cond1_1 (grid1.coords t) → cfg1.idle 2 (grid1.coords t) = false := by decide +kernel

/-- One staging buffer of the output window, through which its contents are stated (which one does not matter). -/
abbrev VO1 : View sig .tc .vmem S1024x32 .f32 := (Memref.whole cc1_stg2_0 : Memref sig .tc .vmem S1024x32 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x32 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x32 .f32 := win1_2.stage (cfg1.slots t 2)
abbrev hs1_2 (t : Fin cfg1.N) : (ms1_2 t).IsWhole := hstage1_2 ((cfg1.slots t 2).cast nbuf1_2)
/-- The accumulator: a whole scoped buffer of the kernel's own, passed beside the windows; and its view. -/
abbrev scM1 : Memref sig .tc .vmem S1024x32 .f32 := Memref.whole cc1_scratch0
abbrev VS1 : View sig .tc .vmem S1024x32 .f32 := scM1.view

/-- The core's scoped buffers that are neither a staging buffer of this kernel nor its accumulator, each whole at some
    contents: what the body never touches. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The class's region invariant hands the body the accumulator at some contents, the other scoped buffers, and the
    generator register at some state. -/
theorem PhiA1_split (c : Dev nD) :
    (Pipeline.ΦA spec1 c : sProp 𝕄) ⊢ iprop((∃ d, owns (c : Thread nD τ) scM1 fullShare d) ∗ rest1 c ∗ (∃ r, prngReg c r)) := by
  unfold Pipeline.ΦA rest1; rw [scopedRest1_eq]; simp only [scM1, owns_whole]
  iintro ⟨⟨H0, H1, H2, H3, H4, H5, H6, H7, H8, HS⟩, Hg⟩
  isplitl [HS]; · iexact HS
  isplitr [Hg]
  swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- And takes them back, the accumulator at any contents. -/
theorem PhiA1_join (c : Dev nD) :
    iprop((∃ d, owns (c : Thread nD τ) scM1 fullShare d) ∗ rest1 c ∗ (∃ r, prngReg c r)) ⊢ (Pipeline.ΦA spec1 c : sProp 𝕄) := by
  unfold Pipeline.ΦA rest1; rw [scopedRest1_eq]; simp only [scM1, owns_whole]
  iintro ⟨HS, ⟨H0, H1, H2, H3, H4, H5, H6, H7, H8⟩, Hg⟩
  isplitr [Hg]
  swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact HS

end Cert.Kernel.Fr

end
-- ==== Proof.KB.Run0A.lean ====
/-
  The kernel body of kernel 0 run whole, in the case k = 0: the accumulator is cleared, then the point's partial product added; the output window is left as found.
  What the stores leave in the accumulator (and, at k = 3, in the output's staging buffer) is recorded as the list of
  pieces written, last first; the run itself finds them.
-/
import proofs.«138625_j37280316129403_2_alg».proof.Proof.KB.Base

-- membership in a rectangle of these extents recurses once per coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the run's proof term is large
set_option maxHeartbeats 4000000 in
/-- The pieces the body's stores leave, with the proof that on whole memrefs — the inputs' at their contents, the
    output's at contents handed back untouched, the accumulator at anything — the body runs to
    the continuation holding the inputs' as they were and each written buffer with its pieces written. -/
noncomputable def kernelRun0_A (c : Dev nD) (i : grid0.Coords) (arg2 : Memref sig .tc .vmem S2048x1024 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .bf16) (harg5 : arg5.IsWhole) (arg6 : Memref sig .tc .vmem S1024x32 .f32) (harg6 : arg6.IsWhole) (hc0 : cond0_0 i) (hc1 : ¬cond0_1 i)
    (x0 : Vec F S2048x1024 .f32) (x1 : Vec F S2048x32 .f32) (x2 : Vec F S1024x32 .f32) :
    Σ' (L : List (View.Piece (Elt F) S1024x32 .bf16)), { LS : List (View.Piece (Elt F) S1024x32 .f32) //
      ∀ (xi : Vec F S1024x32 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__fwd_kernel i arg2 harg2 arg3 harg3 arg4 harg4 arg5 harg5 arg6 harg6) K } := by
  refine ⟨[], ?_, fun xi E K => ?run⟩
  case run =>
    simp only [cc0__fwd_kernel_eq_skeleton]; unfold cc0__fwd_kernel_skel
    unfold owns
    iintro ⟨⟨%f0, %hf0, H0⟩, ⟨%f1, %hf1, H1⟩, ⟨%f2, %hf2, H2⟩, ⟨%fO, %hfO, HO⟩, ⟨%dS, %fS, -, HS⟩, Hk⟩
    obtain rfl := harg2.eq_unread hf0; obtain rfl := harg3.eq_unread hf1; obtain rfl := harg4.eq_unread hf2; obtain rfl := harg5.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS

end Cert.Kernel.Fr

end
-- ==== Proof.KB.Run0B.lean ====
/-
  The kernel body of kernel 0 run whole, in the case k = 1 or 2: the point's partial product is added to what the point before left in the accumulator; the output window is left as found.
  What the stores leave in the accumulator (and, at k = 3, in the output's staging buffer) is recorded as the list of
  pieces written, last first; the run itself finds them.
-/
import proofs.«138625_j37280316129403_2_alg».proof.Proof.KB.Run0A

-- membership in a rectangle of these extents recurses once per coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the run's proof term is large
set_option maxHeartbeats 4000000 in
/-- The pieces the body's stores leave, with the proof that on whole memrefs — the inputs' at their contents, the
    output's at contents handed back untouched, the accumulator at the contents the point before left — the body runs to
    the continuation holding the inputs' as they were and each written buffer with its pieces written. -/
noncomputable def kernelRun0_B (c : Dev nD) (i : grid0.Coords) (arg2 : Memref sig .tc .vmem S2048x1024 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .bf16) (harg5 : arg5.IsWhole) (arg6 : Memref sig .tc .vmem S1024x32 .f32) (harg6 : arg6.IsWhole) (hc0 : ¬cond0_0 i) (hc1 : ¬cond0_1 i)
    (x0 : Vec F S2048x1024 .f32) (x1 : Vec F S2048x32 .f32) (x2 : Vec F S1024x32 .f32) (xs : Vec F S1024x32 .f32) :
    Σ' (L : List (View.Piece (Elt F) S1024x32 .bf16)), { LS : List (View.Piece (Elt F) S1024x32 .f32) //
      ∀ (xi : Vec F S1024x32 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__fwd_kernel i arg2 harg2 arg3 harg3 arg4 harg4 arg5 harg5 arg6 harg6) K } := by
  refine ⟨[], ?_, fun xi E K => ?run⟩
  case run =>
    simp only [cc0__fwd_kernel_eq_skeleton]; unfold cc0__fwd_kernel_skel
    unfold owns
    iintro ⟨⟨%f0, %hf0, H0⟩, ⟨%f1, %hf1, H1⟩, ⟨%f2, %hf2, H2⟩, ⟨%fO, %hfO, HO⟩, ⟨%fS, %hfS, HS⟩, Hk⟩
    obtain rfl := harg2.eq_unread hf0; obtain rfl := harg3.eq_unread hf1; obtain rfl := harg4.eq_unread hf2; obtain rfl := harg5.eq_unread hfO; obtain rfl := harg6.eq_unread hfS
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS

end Cert.Kernel.Fr

end
-- ==== Proof.KB.Run0C.lean ====
/-
  The kernel body of kernel 0 run whole, in the case k = 3: the point's partial product is added to what the point before left in the accumulator, and the output block is stored from it.
  What the stores leave in the accumulator (and, at k = 3, in the output's staging buffer) is recorded as the list of
  pieces written, last first; the run itself finds them.
-/
import proofs.«138625_j37280316129403_2_alg».proof.Proof.KB.Run0B

-- membership in a rectangle of these extents recurses once per coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the run's proof term is large
set_option maxHeartbeats 4000000 in
/-- The pieces the body's stores leave, with the proof that on whole memrefs — the inputs' at their contents, the
    output's at anything, the accumulator at the contents the point before left — the body runs to
    the continuation holding the inputs' as they were and each written buffer with its pieces written. -/
noncomputable def kernelRun0_C (c : Dev nD) (i : grid0.Coords) (arg2 : Memref sig .tc .vmem S2048x1024 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .bf16) (harg5 : arg5.IsWhole) (arg6 : Memref sig .tc .vmem S1024x32 .f32) (harg6 : arg6.IsWhole) (hc0 : ¬cond0_0 i) (hc1 : cond0_1 i)
    (x0 : Vec F S2048x1024 .f32) (x1 : Vec F S2048x32 .f32) (x2 : Vec F S1024x32 .f32) (xs : Vec F S1024x32 .f32) :
    Σ' (L : List (View.Piece (Elt F) S1024x32 .bf16)), { LS : List (View.Piece (Elt F) S1024x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L) ∗ (∃ f, arg6.view.loc (c : Thread nD τ) ↦[arg6.view.set]{fullShare} arg6.view.writes (Elt F) f LS)) -∗ K ⟨⟩))
          ⊢ wp frame (wpE (defs₀ (F := F)) Variants.none c none) E (cc0__fwd_kernel i arg2 harg2 arg3 harg3 arg4 harg4 arg5 harg5 arg6 harg6) K } := by
  refine ⟨?_, ?_, fun E K => ?run⟩
  case run =>
    simp only [cc0__fwd_kernel_eq_skeleton]; unfold cc0__fwd_kernel_skel
    unfold owns
    iintro ⟨⟨%f0, %hf0, H0⟩, ⟨%f1, %hf1, H1⟩, ⟨%f2, %hf2, H2⟩, ⟨%dO, %fO, -, HO⟩, ⟨%fS, %hfS, HS⟩, Hk⟩
    obtain rfl := harg2.eq_unread hf0; obtain rfl := harg3.eq_unread hf1; obtain rfl := harg4.eq_unread hf2; obtain rfl := harg6.eq_unread hfS
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]; · iexists _; iexact HO
    iexists _; iexact HS

end Cert.Kernel.Fr

end
-- ==== Proof.KB.Frame0.lean ====
/-
  Kernel 0 point by point.

  What each case of the body leaves in the accumulator and in the output's staging buffer (the run's pieces read back),
  what they hold after each grid point by recursion on the point — where k = 0 the accumulator restarts from the cleared
  buffer, elsewhere it continues from what the point before left —, the region's invariant carrying the accumulator at
  exactly those contents, the proof data, and the body's obligation at every point.
-/
import proofs.«138625_j37280316129403_2_alg».proof.Proof.KB.Run0C

-- membership in a rectangle of these extents recurses once per coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- What case A leaves in the output's staging buffer: its pieces read back (none: a placeholder nothing consults, the window being idle there). -/
def out0_A (c : Dev nD) (i : grid0.Coords) (arg2 : Memref sig .tc .vmem S2048x1024 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .bf16) (harg5 : arg5.IsWhole) (arg6 : Memref sig .tc .vmem S1024x32 .f32) (harg6 : arg6.IsWhole) (hc0 : cond0_0 i) (hc1 : ¬cond0_1 i)
    (x0 : Vec F S2048x1024 .f32) (x1 : Vec F S2048x32 .f32) (x2 : Vec F S1024x32 .f32) : Vec F S1024x32 .bf16 :=
  VO0.read (Elt F) (VO0.writes (Elt F) VO0.junk (kernelRun0_A c i arg2 harg2 arg3 harg3 arg4 harg4 arg5 harg5 arg6 harg6 hc0 hc1 x0 x1 x2).1)

/-- Case A's pieces for the accumulator tile it, so they cover it. -/
theorem scover0_A (c : Dev nD) (i : grid0.Coords) (arg2 : Memref sig .tc .vmem S2048x1024 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .bf16) (harg5 : arg5.IsWhole) (arg6 : Memref sig .tc .vmem S1024x32 .f32) (harg6 : arg6.IsWhole) (hc0 : cond0_0 i) (hc1 : ¬cond0_1 i)
    (x0 : Vec F S2048x1024 .f32) (x1 : Vec F S2048x32 .f32) (x2 : Vec F S1024x32 .f32) (y : S1024x32.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1024x32.size (by sl_kernel_rfl) y

/-- What case A leaves in the accumulator: its pieces read back. -/
def sout0_A (c : Dev nD) (i : grid0.Coords) (arg2 : Memref sig .tc .vmem S2048x1024 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .bf16) (harg5 : arg5.IsWhole) (arg6 : Memref sig .tc .vmem S1024x32 .f32) (harg6 : arg6.IsWhole) (hc0 : cond0_0 i) (hc1 : ¬cond0_1 i)
    (x0 : Vec F S2048x1024 .f32) (x1 : Vec F S2048x32 .f32) (x2 : Vec F S1024x32 .f32) : Vec F S1024x32 .f32 :=
  VS0.read (Elt F) (VS0.writes (Elt F) VS0.junk (kernelRun0_A c i arg2 harg2 arg3 harg3 arg4 harg4 arg5 harg5 arg6 harg6 hc0 hc1 x0 x1 x2).2.1)

/-- What case B leaves in the output's staging buffer: its pieces read back (none: a placeholder nothing consults, the window being idle there). -/
def out0_B (c : Dev nD) (i : grid0.Coords) (arg2 : Memref sig .tc .vmem S2048x1024 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .bf16) (harg5 : arg5.IsWhole) (arg6 : Memref sig .tc .vmem S1024x32 .f32) (harg6 : arg6.IsWhole) (hc0 : ¬cond0_0 i) (hc1 : ¬cond0_1 i)
    (x0 : Vec F S2048x1024 .f32) (x1 : Vec F S2048x32 .f32) (x2 : Vec F S1024x32 .f32) (xs : Vec F S1024x32 .f32) : Vec F S1024x32 .bf16 :=
  VO0.read (Elt F) (VO0.writes (Elt F) VO0.junk (kernelRun0_B c i arg2 harg2 arg3 harg3 arg4 harg4 arg5 harg5 arg6 harg6 hc0 hc1 x0 x1 x2 xs).1)

/-- Case B's pieces for the accumulator tile it, so they cover it. -/
theorem scover0_B (c : Dev nD) (i : grid0.Coords) (arg2 : Memref sig .tc .vmem S2048x1024 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .bf16) (harg5 : arg5.IsWhole) (arg6 : Memref sig .tc .vmem S1024x32 .f32) (harg6 : arg6.IsWhole) (hc0 : ¬cond0_0 i) (hc1 : ¬cond0_1 i)
    (x0 : Vec F S2048x1024 .f32) (x1 : Vec F S2048x32 .f32) (x2 : Vec F S1024x32 .f32) (xs : Vec F S1024x32 .f32) (y : S1024x32.Idx) :
    ∃ pc ∈ (kernelRun0_B c i arg2 harg2 arg3 harg3 arg4 harg4 arg5 harg5 arg6 harg6 hc0 hc1 x0 x1 x2 xs).2.1, y ∈ pc.1.set :=
  View.cover_of_tiledL (kernelRun0_B c i arg2 harg2 arg3 harg3 arg4 harg4 arg5 harg5 arg6 harg6 hc0 hc1 x0 x1 x2 xs).2.1 S1024x32.size (by sl_kernel_rfl) y

/-- What case B leaves in the accumulator: its pieces read back. -/
def sout0_B (c : Dev nD) (i : grid0.Coords) (arg2 : Memref sig .tc .vmem S2048x1024 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .bf16) (harg5 : arg5.IsWhole) (arg6 : Memref sig .tc .vmem S1024x32 .f32) (harg6 : arg6.IsWhole) (hc0 : ¬cond0_0 i) (hc1 : ¬cond0_1 i)
    (x0 : Vec F S2048x1024 .f32) (x1 : Vec F S2048x32 .f32) (x2 : Vec F S1024x32 .f32) (xs : Vec F S1024x32 .f32) : Vec F S1024x32 .f32 :=
  VS0.read (Elt F) (VS0.writes (Elt F) VS0.junk (kernelRun0_B c i arg2 harg2 arg3 harg3 arg4 harg4 arg5 harg5 arg6 harg6 hc0 hc1 x0 x1 x2 xs).2.1)

/-- At k = 3 the pieces stored into the output tile its block, so they cover it. -/
theorem cover0_C (c : Dev nD) (i : grid0.Coords) (arg2 : Memref sig .tc .vmem S2048x1024 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .bf16) (harg5 : arg5.IsWhole) (arg6 : Memref sig .tc .vmem S1024x32 .f32) (harg6 : arg6.IsWhole) (hc0 : ¬cond0_0 i) (hc1 : cond0_1 i)
    (x0 : Vec F S2048x1024 .f32) (x1 : Vec F S2048x32 .f32) (x2 : Vec F S1024x32 .f32) (xs : Vec F S1024x32 .f32) (y : S1024x32.Idx) :
    ∃ pc ∈ (kernelRun0_C c i arg2 harg2 arg3 harg3 arg4 harg4 arg5 harg5 arg6 harg6 hc0 hc1 x0 x1 x2 xs).1, y ∈ pc.1.set :=
  View.cover_of_tiledL (kernelRun0_C c i arg2 harg2 arg3 harg3 arg4 harg4 arg5 harg5 arg6 harg6 hc0 hc1 x0 x1 x2 xs).1 S1024x32.size (by sl_kernel_rfl) y

/-- What case C leaves in the output's staging buffer: its pieces read back. -/
def out0_C (c : Dev nD) (i : grid0.Coords) (arg2 : Memref sig .tc .vmem S2048x1024 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .bf16) (harg5 : arg5.IsWhole) (arg6 : Memref sig .tc .vmem S1024x32 .f32) (harg6 : arg6.IsWhole) (hc0 : ¬cond0_0 i) (hc1 : cond0_1 i)
    (x0 : Vec F S2048x1024 .f32) (x1 : Vec F S2048x32 .f32) (x2 : Vec F S1024x32 .f32) (xs : Vec F S1024x32 .f32) : Vec F S1024x32 .bf16 :=
  VO0.read (Elt F) (VO0.writes (Elt F) VO0.junk (kernelRun0_C c i arg2 harg2 arg3 harg3 arg4 harg4 arg5 harg5 arg6 harg6 hc0 hc1 x0 x1 x2 xs).1)

/-- Case C's pieces for the accumulator tile it, so they cover it. -/
theorem scover0_C (c : Dev nD) (i : grid0.Coords) (arg2 : Memref sig .tc .vmem S2048x1024 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .bf16) (harg5 : arg5.IsWhole) (arg6 : Memref sig .tc .vmem S1024x32 .f32) (harg6 : arg6.IsWhole) (hc0 : ¬cond0_0 i) (hc1 : cond0_1 i)
    (x0 : Vec F S2048x1024 .f32) (x1 : Vec F S2048x32 .f32) (x2 : Vec F S1024x32 .f32) (xs : Vec F S1024x32 .f32) (y : S1024x32.Idx) :
    ∃ pc ∈ (kernelRun0_C c i arg2 harg2 arg3 harg3 arg4 harg4 arg5 harg5 arg6 harg6 hc0 hc1 x0 x1 x2 xs).2.1, y ∈ pc.1.set :=
  View.cover_of_tiledL (kernelRun0_C c i arg2 harg2 arg3 harg3 arg4 harg4 arg5 harg5 arg6 harg6 hc0 hc1 x0 x1 x2 xs).2.1 S1024x32.size (by sl_kernel_rfl) y

/-- What case C leaves in the accumulator: its pieces read back. -/
def sout0_C (c : Dev nD) (i : grid0.Coords) (arg2 : Memref sig .tc .vmem S2048x1024 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .bf16) (harg5 : arg5.IsWhole) (arg6 : Memref sig .tc .vmem S1024x32 .f32) (harg6 : arg6.IsWhole) (hc0 : ¬cond0_0 i) (hc1 : cond0_1 i)
    (x0 : Vec F S2048x1024 .f32) (x1 : Vec F S2048x32 .f32) (x2 : Vec F S1024x32 .f32) (xs : Vec F S1024x32 .f32) : Vec F S1024x32 .f32 :=
  VS0.read (Elt F) (VS0.writes (Elt F) VS0.junk (kernelRun0_C c i arg2 harg2 arg3 harg3 arg4 harg4 arg5 harg5 arg6 harg6 hc0 hc1 x0 x1 x2 xs).2.1)

section
variable (V : (c : Dev nD) → (b : Ref sig .tc) → Buf (Elt F) ((c : Thread nD τ).loc b))

/-- THE ACCUMULATION. What the output's staging buffer and the accumulator hold after the body at position `n`: the
    case the point is in, run at the point's memrefs and input blocks; where k ≠ 0 the accumulator it starts from is what
    position `n - 1` left. -/
def outsAt0 (c : Dev nD) : (n : ℕ) → n < cfg0.N → Vec F S1024x32 .bf16 × Vec F S1024x32 .f32
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 4 = 0 then
      (out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 4 = 3 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- `outsAt0` at a point with k = 0. -/
theorem outsAt0_A (c : Dev nD) (t : Fin cfg0.N) (h0 : t.val % 4 = 0) (h1 : ¬t.val % 4 = 3) :
    outsAt0 V c t.val t.isLt = (out0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t), sout0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans rfl

/-- At a point with k = 1 or 2: over what the point before left. -/
theorem outsAt0_B (c : Dev nD) (t : Fin cfg0.N) (h0 : ¬t.val % 4 = 0) (h1 : ¬t.val % 4 = 3) :
    outsAt0 V c t.val t.isLt = (out0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with k = 3: over what the point before left. -/
theorem outsAt0_C (c : Dev nD) (t : Fin cfg0.N) (h0 : ¬t.val % 4 = 0) (h1 : t.val % 4 = 3) :
    outsAt0 V c t.val t.isLt = (out0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (every scoped buffer that is no
    staging buffer at anything, the generator register at some state); afterwards the accumulator at what the point
    before left in it, the other such buffers at anything, the register at some state. -/
def PhiS0 (c : Dev nD) : (n : ℕ) → n ≤ cfg0.N → sProp 𝕄
  | 0, _ => Pipeline.ΦA spec0 c
  | n + 1, hn => iprop(owns (c : Thread nD τ) scM0 fullShare ((outsAt0 V c n hn).2) ∗ rest0 c ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0 fullShare ((outsAt0 V c n hn).2) ∗ rest0 c ∗ (∃ r, prngReg c r)) := rfl

theorem PhiS0_pos (c : Dev nD) (n : ℕ) (h : n ≤ cfg0.N) (hz : n ≠ 0) :
    PhiS0 V c n h = iprop(owns (c : Thread nD τ) scM0 fullShare ((outsAt0 V c (n - 1) (by omega)).2) ∗ rest0 c ∗ (∃ r, prngReg c r)) := by
  cases n with
  | zero => exact absurd rfl hz
  | succ n => rfl

/-- The proof data of kernel 0 on core `c`: the arrays as the region finds them; after the body at point `t` each
    input's buffer at its block and the output's at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 8000000 in
/-- The body at any point: the inputs' memrefs hold their blocks; the point's k says which case it is in; the invariant
    hands the body the accumulator at what the point before left (at anything before the first point) and takes it back at
    this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  by_cases h0 : t.val % 4 = 0
  · by_cases h1 : t.val % 4 = 3
    · exfalso; omega
    · skip
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [outsAt0_A V c t h0 h1]
      unfold sout0_A; (try dsimp only)
      by_cases hz : t.val = 0
      · rw [PhiS0_castSucc V c t, PhiS0_zero V c _ _ hz]
        refine (sep_mono (PhiA0_split c) .rfl).trans ?_
        iintro ⟨⟨HS, Hr, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hr Hg]
        · isplitl [HS]
          · unfold owns; iexists _; isplitr
            swap; · iexact HS
            ipureintro; exact View.read_writes_of_cover _ _ _ _ _ (scover0_A c _ _ _ _ _ _ _ _ _ _ _ _ _ _ _ _)
          isplitl [Hr]; · iexact Hr
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨HS, Hr, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hr Hg]
        · isplitl [HS]
          · unfold owns; iexists _; isplitr
            swap; · iexact HS
            ipureintro; exact View.read_writes_of_cover _ _ _ _ _ (scover0_A c _ _ _ _ _ _ _ _ _ _ _ _ _ _ _ _)
          isplitl [Hr]; · iexact Hr
          iexact Hg
        isplitl [Ho]; · iexact Ho
        isplitl [H0]; · iexact H0
        isplitl [H1]; · iexact H1
        isplitl [H2]; · iexact H2
        iexists _; iexact H3
  · by_cases h1 : t.val % 4 = 3
    · skip
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [outsAt0_C V c t h0 h1]
      unfold out0_C sout0_C; (try dsimp only)
      have hz : t.val ≠ 0 := by omega
      rw [PhiS0_castSucc V c t, PhiS0_pos V c _ _ hz]
      iintro ⟨⟨HS, Hr, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%eo, H3⟩, ⟨%es, HS⟩⟩
      isplitl [HS Hr Hg]
      · isplitl [HS]
        · unfold owns; iexists _; isplitr
          swap; · iexact HS
          ipureintro; exact View.read_writes_of_cover _ _ _ _ _ (scover0_C c _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c _ _ _ _ _ _ _ _ _ _ _ _ _ _ _ _ _)
    · skip
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B V c t h0 h1]
      unfold sout0_B; (try dsimp only)
      have hz : t.val ≠ 0 := by omega
      rw [PhiS0_castSucc V c t, PhiS0_pos V c _ _ hz]
      iintro ⟨⟨HS, Hr, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS]
        · unfold owns; iexists _; isplitr
          swap; · iexact HS
          ipureintro; exact View.read_writes_of_cover _ _ _ _ _ (scover0_B c _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht]
  refine .trans ?_ (PhiA0_join c)
  iintro ⟨HS, Hr, Hg⟩
  isplitl [HS]; · iexists _; iexact HS
  isplitl [Hr]; · iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end

end Cert.Kernel.Fr

end
-- ==== Proof.KB.Run1A.lean ====
/-
  The kernel body of kernel 1 run whole, in the case k = 0: the accumulator is cleared, then the point's partial product added; the output window is left as found.
  What the stores leave in the accumulator (and, at k = 3, in the output's staging buffer) is recorded as the list of
  pieces written, last first; the run itself finds them.
-/
import proofs.«138625_j37280316129403_2_alg».proof.Proof.KB.Base

-- membership in a rectangle of these extents recurses once per coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the run's proof term is large
set_option maxHeartbeats 4000000 in
/-- The pieces the body's stores leave, with the proof that on whole memrefs — the inputs' at their contents, the
    output's at contents handed back untouched, the accumulator at anything — the body runs to
    the continuation holding the inputs' as they were and each written buffer with its pieces written. -/
noncomputable def kernelRun1_A (c : Dev nD) (i : grid1.Coords) (arg2 : Memref sig .tc .vmem S1024x2048 .f32) (harg2 : arg2.IsWhole) (arg3 : Memref sig .tc .vmem S2048x32 .bf16) (harg3 : arg3.IsWhole) (arg4 : Memref sig .tc .vmem S1024x32 .f32) (harg4 : arg4.IsWhole) (arg5 : Memref sig .tc .vmem S1024x32 .f32) (harg5 : arg5.IsWhole) (hc0 : cond1_0 i) (hc1 : ¬cond1_1 i)
    (x0 : Vec F S1024x2048 .f32) (x1 : Vec F S2048x32 .bf16) :
    Σ' (L : List (View.Piece (Elt F) S1024x32 .f32)), { LS : List (View.Piece (Elt F) S1024x32 .f32) //
      ∀ (xi : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc1__inv_kernel i arg2 harg2 arg3 harg3 arg4 harg4 arg5 harg5) K } := by
  refine ⟨[], ?_, fun xi E K => ?run⟩
  case run =>
    simp only [cc1__inv_kernel_eq_skeleton]; unfold cc1__inv_kernel_skel
    unfold owns
    iintro ⟨⟨%f0, %hf0, H0⟩, ⟨%f1, %hf1, H1⟩, ⟨%fO, %hfO, HO⟩, ⟨%dS, %fS, -, HS⟩, Hk⟩
    obtain rfl := harg2.eq_unread hf0; obtain rfl := harg3.eq_unread hf1; obtain rfl := harg4.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HS

end Cert.Kernel.Fr

end
-- ==== Proof.KB.Run1B.lean ====
/-
  The kernel body of kernel 1 run whole, in the case k = 1 or 2: the point's partial product is added to what the point before left in the accumulator; the output window is left as found.
  What the stores leave in the accumulator (and, at k = 3, in the output's staging buffer) is recorded as the list of
  pieces written, last first; the run itself finds them.
-/
import proofs.«138625_j37280316129403_2_alg».proof.Proof.KB.Run1A

-- membership in a rectangle of these extents recurses once per coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the run's proof term is large
set_option maxHeartbeats 4000000 in
/-- The pieces the body's stores leave, with the proof that on whole memrefs — the inputs' at their contents, the
    output's at contents handed back untouched, the accumulator at the contents the point before left — the body runs to
    the continuation holding the inputs' as they were and each written buffer with its pieces written. -/
noncomputable def kernelRun1_B (c : Dev nD) (i : grid1.Coords) (arg2 : Memref sig .tc .vmem S1024x2048 .f32) (harg2 : arg2.IsWhole) (arg3 : Memref sig .tc .vmem S2048x32 .bf16) (harg3 : arg3.IsWhole) (arg4 : Memref sig .tc .vmem S1024x32 .f32) (harg4 : arg4.IsWhole) (arg5 : Memref sig .tc .vmem S1024x32 .f32) (harg5 : arg5.IsWhole) (hc0 : ¬cond1_0 i) (hc1 : ¬cond1_1 i)
    (x0 : Vec F S1024x2048 .f32) (x1 : Vec F S2048x32 .bf16) (xs : Vec F S1024x32 .f32) :
    Σ' (L : List (View.Piece (Elt F) S1024x32 .f32)), { LS : List (View.Piece (Elt F) S1024x32 .f32) //
      ∀ (xi : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc1__inv_kernel i arg2 harg2 arg3 harg3 arg4 harg4 arg5 harg5) K } := by
  refine ⟨[], ?_, fun xi E K => ?run⟩
  case run =>
    simp only [cc1__inv_kernel_eq_skeleton]; unfold cc1__inv_kernel_skel
    unfold owns
    iintro ⟨⟨%f0, %hf0, H0⟩, ⟨%f1, %hf1, H1⟩, ⟨%fO, %hfO, HO⟩, ⟨%fS, %hfS, HS⟩, Hk⟩
    obtain rfl := harg2.eq_unread hf0; obtain rfl := harg3.eq_unread hf1; obtain rfl := harg4.eq_unread hfO; obtain rfl := harg5.eq_unread hfS
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HS

end Cert.Kernel.Fr

end
-- ==== Proof.KB.Run1C.lean ====
/-
  The kernel body of kernel 1 run whole, in the case k = 3: the point's partial product is added to what the point before left in the accumulator, and the output block is stored from it.
  What the stores leave in the accumulator (and, at k = 3, in the output's staging buffer) is recorded as the list of
  pieces written, last first; the run itself finds them.
-/
import proofs.«138625_j37280316129403_2_alg».proof.Proof.KB.Run1B

-- membership in a rectangle of these extents recurses once per coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the run's proof term is large
set_option maxHeartbeats 4000000 in
/-- The pieces the body's stores leave, with the proof that on whole memrefs — the inputs' at their contents, the
    output's at anything, the accumulator at the contents the point before left — the body runs to
    the continuation holding the inputs' as they were and each written buffer with its pieces written. -/
noncomputable def kernelRun1_C (c : Dev nD) (i : grid1.Coords) (arg2 : Memref sig .tc .vmem S1024x2048 .f32) (harg2 : arg2.IsWhole) (arg3 : Memref sig .tc .vmem S2048x32 .bf16) (harg3 : arg3.IsWhole) (arg4 : Memref sig .tc .vmem S1024x32 .f32) (harg4 : arg4.IsWhole) (arg5 : Memref sig .tc .vmem S1024x32 .f32) (harg5 : arg5.IsWhole) (hc0 : ¬cond1_0 i) (hc1 : cond1_1 i)
    (x0 : Vec F S1024x2048 .f32) (x1 : Vec F S2048x32 .bf16) (xs : Vec F S1024x32 .f32) :
    Σ' (L : List (View.Piece (Elt F) S1024x32 .f32)), { LS : List (View.Piece (Elt F) S1024x32 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L) ∗ (∃ f, arg5.view.loc (c : Thread nD τ) ↦[arg5.view.set]{fullShare} arg5.view.writes (Elt F) f LS)) -∗ K ⟨⟩))
          ⊢ wp frame (wpE (defs₀ (F := F)) Variants.none c none) E (cc1__inv_kernel i arg2 harg2 arg3 harg3 arg4 harg4 arg5 harg5) K } := by
  refine ⟨?_, ?_, fun E K => ?run⟩
  case run =>
    simp only [cc1__inv_kernel_eq_skeleton]; unfold cc1__inv_kernel_skel
    unfold owns
    iintro ⟨⟨%f0, %hf0, H0⟩, ⟨%f1, %hf1, H1⟩, ⟨%dO, %fO, -, HO⟩, ⟨%fS, %hfS, HS⟩, Hk⟩
    obtain rfl := harg2.eq_unread hf0; obtain rfl := harg3.eq_unread hf1; obtain rfl := harg5.eq_unread hfS
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]; · iexists _; iexact HO
    iexists _; iexact HS

end Cert.Kernel.Fr

end
-- ==== Proof.KB.Frame1.lean ====
/-
  Kernel 1 point by point.

  What each case of the body leaves in the accumulator and in the output's staging buffer (the run's pieces read back),
  what they hold after each grid point by recursion on the point — where k = 0 the accumulator restarts from the cleared
  buffer, elsewhere it continues from what the point before left —, the region's invariant carrying the accumulator at
  exactly those contents, the proof data, and the body's obligation at every point.
-/
import proofs.«138625_j37280316129403_2_alg».proof.Proof.KB.Run1C

-- membership in a rectangle of these extents recurses once per coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- What case A leaves in the output's staging buffer: its pieces read back (none: a placeholder nothing consults, the window being idle there). -/
def out1_A (c : Dev nD) (i : grid1.Coords) (arg2 : Memref sig .tc .vmem S1024x2048 .f32) (harg2 : arg2.IsWhole) (arg3 : Memref sig .tc .vmem S2048x32 .bf16) (harg3 : arg3.IsWhole) (arg4 : Memref sig .tc .vmem S1024x32 .f32) (harg4 : arg4.IsWhole) (arg5 : Memref sig .tc .vmem S1024x32 .f32) (harg5 : arg5.IsWhole) (hc0 : cond1_0 i) (hc1 : ¬cond1_1 i)
    (x0 : Vec F S1024x2048 .f32) (x1 : Vec F S2048x32 .bf16) : Vec F S1024x32 .f32 :=
  VO1.read (Elt F) (VO1.writes (Elt F) VO1.junk (kernelRun1_A c i arg2 harg2 arg3 harg3 arg4 harg4 arg5 harg5 hc0 hc1 x0 x1).1)

/-- Case A's pieces for the accumulator tile it, so they cover it. -/
theorem scover1_A (c : Dev nD) (i : grid1.Coords) (arg2 : Memref sig .tc .vmem S1024x2048 .f32) (harg2 : arg2.IsWhole) (arg3 : Memref sig .tc .vmem S2048x32 .bf16) (harg3 : arg3.IsWhole) (arg4 : Memref sig .tc .vmem S1024x32 .f32) (harg4 : arg4.IsWhole) (arg5 : Memref sig .tc .vmem S1024x32 .f32) (harg5 : arg5.IsWhole) (hc0 : cond1_0 i) (hc1 : ¬cond1_1 i)
    (x0 : Vec F S1024x2048 .f32) (x1 : Vec F S2048x32 .bf16) (y : S1024x32.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1024x32.size (by sl_kernel_rfl) y

/-- What case A leaves in the accumulator: its pieces read back. -/
def sout1_A (c : Dev nD) (i : grid1.Coords) (arg2 : Memref sig .tc .vmem S1024x2048 .f32) (harg2 : arg2.IsWhole) (arg3 : Memref sig .tc .vmem S2048x32 .bf16) (harg3 : arg3.IsWhole) (arg4 : Memref sig .tc .vmem S1024x32 .f32) (harg4 : arg4.IsWhole) (arg5 : Memref sig .tc .vmem S1024x32 .f32) (harg5 : arg5.IsWhole) (hc0 : cond1_0 i) (hc1 : ¬cond1_1 i)
    (x0 : Vec F S1024x2048 .f32) (x1 : Vec F S2048x32 .bf16) : Vec F S1024x32 .f32 :=
  VS1.read (Elt F) (VS1.writes (Elt F) VS1.junk (kernelRun1_A c i arg2 harg2 arg3 harg3 arg4 harg4 arg5 harg5 hc0 hc1 x0 x1).2.1)

/-- What case B leaves in the output's staging buffer: its pieces read back (none: a placeholder nothing consults, the window being idle there). -/
def out1_B (c : Dev nD) (i : grid1.Coords) (arg2 : Memref sig .tc .vmem S1024x2048 .f32) (harg2 : arg2.IsWhole) (arg3 : Memref sig .tc .vmem S2048x32 .bf16) (harg3 : arg3.IsWhole) (arg4 : Memref sig .tc .vmem S1024x32 .f32) (harg4 : arg4.IsWhole) (arg5 : Memref sig .tc .vmem S1024x32 .f32) (harg5 : arg5.IsWhole) (hc0 : ¬cond1_0 i) (hc1 : ¬cond1_1 i)
    (x0 : Vec F S1024x2048 .f32) (x1 : Vec F S2048x32 .bf16) (xs : Vec F S1024x32 .f32) : Vec F S1024x32 .f32 :=
  VO1.read (Elt F) (VO1.writes (Elt F) VO1.junk (kernelRun1_B c i arg2 harg2 arg3 harg3 arg4 harg4 arg5 harg5 hc0 hc1 x0 x1 xs).1)

/-- Case B's pieces for the accumulator tile it, so they cover it. -/
theorem scover1_B (c : Dev nD) (i : grid1.Coords) (arg2 : Memref sig .tc .vmem S1024x2048 .f32) (harg2 : arg2.IsWhole) (arg3 : Memref sig .tc .vmem S2048x32 .bf16) (harg3 : arg3.IsWhole) (arg4 : Memref sig .tc .vmem S1024x32 .f32) (harg4 : arg4.IsWhole) (arg5 : Memref sig .tc .vmem S1024x32 .f32) (harg5 : arg5.IsWhole) (hc0 : ¬cond1_0 i) (hc1 : ¬cond1_1 i)
    (x0 : Vec F S1024x2048 .f32) (x1 : Vec F S2048x32 .bf16) (xs : Vec F S1024x32 .f32) (y : S1024x32.Idx) :
    ∃ pc ∈ (kernelRun1_B c i arg2 harg2 arg3 harg3 arg4 harg4 arg5 harg5 hc0 hc1 x0 x1 xs).2.1, y ∈ pc.1.set :=
  View.cover_of_tiledL (kernelRun1_B c i arg2 harg2 arg3 harg3 arg4 harg4 arg5 harg5 hc0 hc1 x0 x1 xs).2.1 S1024x32.size (by sl_kernel_rfl) y

/-- What case B leaves in the accumulator: its pieces read back. -/
def sout1_B (c : Dev nD) (i : grid1.Coords) (arg2 : Memref sig .tc .vmem S1024x2048 .f32) (harg2 : arg2.IsWhole) (arg3 : Memref sig .tc .vmem S2048x32 .bf16) (harg3 : arg3.IsWhole) (arg4 : Memref sig .tc .vmem S1024x32 .f32) (harg4 : arg4.IsWhole) (arg5 : Memref sig .tc .vmem S1024x32 .f32) (harg5 : arg5.IsWhole) (hc0 : ¬cond1_0 i) (hc1 : ¬cond1_1 i)
    (x0 : Vec F S1024x2048 .f32) (x1 : Vec F S2048x32 .bf16) (xs : Vec F S1024x32 .f32) : Vec F S1024x32 .f32 :=
  VS1.read (Elt F) (VS1.writes (Elt F) VS1.junk (kernelRun1_B c i arg2 harg2 arg3 harg3 arg4 harg4 arg5 harg5 hc0 hc1 x0 x1 xs).2.1)

/-- At k = 3 the pieces stored into the output tile its block, so they cover it. -/
theorem cover1_C (c : Dev nD) (i : grid1.Coords) (arg2 : Memref sig .tc .vmem S1024x2048 .f32) (harg2 : arg2.IsWhole) (arg3 : Memref sig .tc .vmem S2048x32 .bf16) (harg3 : arg3.IsWhole) (arg4 : Memref sig .tc .vmem S1024x32 .f32) (harg4 : arg4.IsWhole) (arg5 : Memref sig .tc .vmem S1024x32 .f32) (harg5 : arg5.IsWhole) (hc0 : ¬cond1_0 i) (hc1 : cond1_1 i)
    (x0 : Vec F S1024x2048 .f32) (x1 : Vec F S2048x32 .bf16) (xs : Vec F S1024x32 .f32) (y : S1024x32.Idx) :
    ∃ pc ∈ (kernelRun1_C c i arg2 harg2 arg3 harg3 arg4 harg4 arg5 harg5 hc0 hc1 x0 x1 xs).1, y ∈ pc.1.set :=
  View.cover_of_tiledL (kernelRun1_C c i arg2 harg2 arg3 harg3 arg4 harg4 arg5 harg5 hc0 hc1 x0 x1 xs).1 S1024x32.size (by sl_kernel_rfl) y

/-- What case C leaves in the output's staging buffer: its pieces read back. -/
def out1_C (c : Dev nD) (i : grid1.Coords) (arg2 : Memref sig .tc .vmem S1024x2048 .f32) (harg2 : arg2.IsWhole) (arg3 : Memref sig .tc .vmem S2048x32 .bf16) (harg3 : arg3.IsWhole) (arg4 : Memref sig .tc .vmem S1024x32 .f32) (harg4 : arg4.IsWhole) (arg5 : Memref sig .tc .vmem S1024x32 .f32) (harg5 : arg5.IsWhole) (hc0 : ¬cond1_0 i) (hc1 : cond1_1 i)
    (x0 : Vec F S1024x2048 .f32) (x1 : Vec F S2048x32 .bf16) (xs : Vec F S1024x32 .f32) : Vec F S1024x32 .f32 :=
  VO1.read (Elt F) (VO1.writes (Elt F) VO1.junk (kernelRun1_C c i arg2 harg2 arg3 harg3 arg4 harg4 arg5 harg5 hc0 hc1 x0 x1 xs).1)

/-- Case C's pieces for the accumulator tile it, so they cover it. -/
theorem scover1_C (c : Dev nD) (i : grid1.Coords) (arg2 : Memref sig .tc .vmem S1024x2048 .f32) (harg2 : arg2.IsWhole) (arg3 : Memref sig .tc .vmem S2048x32 .bf16) (harg3 : arg3.IsWhole) (arg4 : Memref sig .tc .vmem S1024x32 .f32) (harg4 : arg4.IsWhole) (arg5 : Memref sig .tc .vmem S1024x32 .f32) (harg5 : arg5.IsWhole) (hc0 : ¬cond1_0 i) (hc1 : cond1_1 i)
    (x0 : Vec F S1024x2048 .f32) (x1 : Vec F S2048x32 .bf16) (xs : Vec F S1024x32 .f32) (y : S1024x32.Idx) :
    ∃ pc ∈ (kernelRun1_C c i arg2 harg2 arg3 harg3 arg4 harg4 arg5 harg5 hc0 hc1 x0 x1 xs).2.1, y ∈ pc.1.set :=
  View.cover_of_tiledL (kernelRun1_C c i arg2 harg2 arg3 harg3 arg4 harg4 arg5 harg5 hc0 hc1 x0 x1 xs).2.1 S1024x32.size (by sl_kernel_rfl) y

/-- What case C leaves in the accumulator: its pieces read back. -/
def sout1_C (c : Dev nD) (i : grid1.Coords) (arg2 : Memref sig .tc .vmem S1024x2048 .f32) (harg2 : arg2.IsWhole) (arg3 : Memref sig .tc .vmem S2048x32 .bf16) (harg3 : arg3.IsWhole) (arg4 : Memref sig .tc .vmem S1024x32 .f32) (harg4 : arg4.IsWhole) (arg5 : Memref sig .tc .vmem S1024x32 .f32) (harg5 : arg5.IsWhole) (hc0 : ¬cond1_0 i) (hc1 : cond1_1 i)
    (x0 : Vec F S1024x2048 .f32) (x1 : Vec F S2048x32 .bf16) (xs : Vec F S1024x32 .f32) : Vec F S1024x32 .f32 :=
  VS1.read (Elt F) (VS1.writes (Elt F) VS1.junk (kernelRun1_C c i arg2 harg2 arg3 harg3 arg4 harg4 arg5 harg5 hc0 hc1 x0 x1 xs).2.1)

section
variable (V : (c : Dev nD) → (b : Ref sig .tc) → Buf (Elt F) ((c : Thread nD τ).loc b))

/-- THE ACCUMULATION. What the output's staging buffer and the accumulator hold after the body at position `n`: the
    case the point is in, run at the point's memrefs and input blocks; where k ≠ 0 the accumulator it starts from is what
    position `n - 1` left. -/
def outsAt1 (c : Dev nD) : (n : ℕ) → n < cfg1.N → Vec F S1024x32 .f32 × Vec F S1024x32 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at a point with k = 0. -/
theorem outsAt1_A (c : Dev nD) (t : Fin cfg1.N) (h0 : t.val % 4 = 0) (h1 : ¬t.val % 4 = 3) :
    outsAt1 V c t.val t.isLt = (out1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t), sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans rfl

/-- At a point with k = 1 or 2: over what the point before left. -/
theorem outsAt1_B (c : Dev nD) (t : Fin cfg1.N) (h0 : ¬t.val % 4 = 0) (h1 : ¬t.val % 4 = 3) :
    outsAt1 V c t.val t.isLt = (out1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with k = 3: over what the point before left. -/
theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (every scoped buffer that is no
    staging buffer at anything, the generator register at some state); afterwards the accumulator at what the point
    before left in it, the other such buffers at anything, the register at some state. -/
def PhiS1 (c : Dev nD) : (n : ℕ) → n ≤ cfg1.N → sProp 𝕄
  | 0, _ => Pipeline.ΦA spec1 c
  | n + 1, hn => iprop(owns (c : Thread nD τ) scM1 fullShare ((outsAt1 V c n hn).2) ∗ rest1 c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare ((outsAt1 V c n hn).2) ∗ rest1 c ∗ (∃ r, prngReg c r)) := rfl

theorem PhiS1_pos (c : Dev nD) (n : ℕ) (h : n ≤ cfg1.N) (hz : n ≠ 0) :
    PhiS1 V c n h = iprop(owns (c : Thread nD τ) scM1 fullShare ((outsAt1 V c (n - 1) (by omega)).2) ∗ rest1 c ∗ (∃ r, prngReg c r)) := by
  cases n with
  | zero => exact absurd rfl hz
  | succ n => rfl

/-- The proof data of kernel 1 on core `c`: the arrays as the region finds them; after the body at point `t` each
    input's buffer at its block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 8000000 in
/-- The body at any point: the inputs' memrefs hold their blocks; the point's k says which case it is in; the invariant
    hands the body the accumulator at what the point before left (at anything before the first point) and takes it back at
    this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 4 = 0
  · by_cases h1 : t.val % 4 = 3
    · exfalso; omega
    · skip
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A; (try dsimp only)
      by_cases hz : t.val = 0
      · rw [PhiS1_castSucc V c t, PhiS1_zero V c _ _ hz]
        refine (sep_mono (PhiA1_split c) .rfl).trans ?_
        iintro ⟨⟨HS, Hr, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS]; · iexact HS
        iintro ⟨H0, H1, H2, ⟨%es, HS⟩⟩
        isplitl [HS Hr Hg]
        · isplitl [HS]
          · unfold owns; iexists _; isplitr
            swap; · iexact HS
            ipureintro; exact View.read_writes_of_cover _ _ _ _ _ (scover1_A c _ _ _ _ _ _ _ _ _ _ _ _ _)
          isplitl [Hr]; · iexact Hr
          iexact Hg
        isplitl [Ho]; · iexact Ho
        isplitl [H0]; · iexact H0
        isplitl [H1]; · iexact H1
        iexists _; iexact H2
      · rw [PhiS1_castSucc V c t, PhiS1_pos V c _ _ hz]
        iintro ⟨⟨HS, Hr, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS]; · iexists _; iexact HS
        iintro ⟨H0, H1, H2, ⟨%es, HS⟩⟩
        isplitl [HS Hr Hg]
        · isplitl [HS]
          · unfold owns; iexists _; isplitr
            swap; · iexact HS
            ipureintro; exact View.read_writes_of_cover _ _ _ _ _ (scover1_A c _ _ _ _ _ _ _ _ _ _ _ _ _)
          isplitl [Hr]; · iexact Hr
          iexact Hg
        isplitl [Ho]; · iexact Ho
        isplitl [H0]; · iexact H0
        isplitl [H1]; · iexact H1
        iexists _; iexact H2
  · by_cases h1 : t.val % 4 = 3
    · skip
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C sout1_C; (try dsimp only)
      have hz : t.val ≠ 0 := by omega
      rw [PhiS1_castSucc V c t, PhiS1_pos V c _ _ hz]
      iintro ⟨⟨HS, Hr, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS]; · iexact HS
      iintro ⟨H0, H1, ⟨%eo, H2⟩, ⟨%es, HS⟩⟩
      isplitl [HS Hr Hg]
      · isplitl [HS]
        · unfold owns; iexists _; isplitr
          swap; · iexact HS
          ipureintro; exact View.read_writes_of_cover _ _ _ _ _ (scover1_C c _ _ _ _ _ _ _ _ _ _ _ _ _ _)
        isplitl [Hr]; · iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · skip
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B; (try dsimp only)
      have hz : t.val ≠ 0 := by omega
      rw [PhiS1_castSucc V c t, PhiS1_pos V c _ _ hz]
      iintro ⟨⟨HS, Hr, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hr Hg]
      · isplitl [HS]
        · unfold owns; iexists _; isplitr
          swap; · iexact HS
          ipureintro; exact View.read_writes_of_cover _ _ _ _ _ (scover1_B c _ _ _ _ _ _ _ _ _ _ _ _ _ _)
        isplitl [Hr]; · iexact Hr
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  refine .trans ?_ (PhiA1_join c)
  iintro ⟨HS, Hr, Hg⟩
  isplitl [HS]; · iexists _; iexact HS
  isplitl [Hr]; · iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end

end Cert.Kernel.Fr

end
-- ==== Proof.KB.Main.lean ====
/-
  The whole program's run.

  @main is one host operation (the filters transposed), then kernel 0's region, then kernel 1's. The buffer contents at
  each boundary are a fold from the launch memory: after the transpose; after region 0, whose output array holds what its
  write-backs leave and every other buffer what it held; after region 1 likewise. Every weakly fair execution terminates
  with every unscoped buffer at the last boundary's contents; read at the arguments that is the frame claim, and read at
  the result it names what the program computes.
-/
import proofs.«138625_j37280316129403_2_alg».proof.Proof.KB.Frame0
import proofs.«138625_j37280316129403_2_alg».proof.Proof.KB.Frame1

-- membership in a rectangle of these extents recurses once per coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operation (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched -/

/-- The host operation writes only the transposed filters. -/
theorem W1_of (c : Dev nD) (b : Ref sig .tc) (hb : b ≠ main_v0) : W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, Finset.mem_singleton]
    exact StableHlo.devRef_ne_of_ne hb))

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := W1_of m ρ c main_arg0 (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := W1_of m ρ c main_arg1 (by decide)
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

/-- The result array ends at what region 1's write-backs leave. -/
theorem W3_main_v2 (c : Dev nD) : W3 m ρ c (Proc.devRef .tc main_v2) = (dat1 (V2 m ρ) c).arrAt 2 cfg1.N :=
  W3_arr m ρ c 2

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The regions as segments -/

-- a library lemma stated over the pinned configuration unifies with the printed one only when unification may unfold plain
-- definitions in a metavariable's type
set_option backward.isDefEq.respectTransparency.types false in
/-- Kernel 0's region over the thread state: entered from every unscoped buffer at the contents before it, left at
    the contents after it. Its arrays are split out of the unscoped buffers and put back at what the write-backs leave;
    the generator register and the scoped rest go into the region's invariant and come back; nothing is owed; the kernel
    has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Kernel 1's region over the thread state: entered from every unscoped buffer at the contents before it, left at
    the contents after it. Its arrays are split out of the unscoped buffers and put back at what the write-backs leave;
    the generator register and the scoped rest go into the region's invariant and come back; nothing is owed; the kernel
    has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The run read at the result and the arguments: the result array at what region 1's write-backs leave, every
    argument as launched. -/
theorem run_main : θ_run defs (onTc (τ := τ) (main (F := F))) ⟨m, fun _ => 0, ρ⟩ (fun r => ∀ c : Dev nD,
      r.2.mem ((c.tc : Thread nD τ).loc main_v2) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v2 (by decide))).trans (W3_main_v2 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

/-- THE FRAME, at any `F`: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_main m ρ)

end Cert.Kernel.Fr

end
-- ==== Proof.KI.Base.lean ====
/-
  What the two kernels' runs are stated over.

  Each kernel walks a grid of 8 × 4 points, the second coordinate k innermost. At k = 0 it clears its accumulator (a
  scratch buffer it keeps between points), at every point it adds one partial product to it, and at k = 3 it stores the
  output block; so the output window is idle at the other points, and the accumulator carries from each point to the
  next. Here: each window's block at a point, read off the arrays as the kernel's region finds them; the two branch
  conditions decided over the grid; where the output window is idle and where it is live; the staging and scratch
  memrefs; and the region's invariant split into the accumulator, the other scoped buffers and the generator register.
-/
import proofs.«138625_j37280316129403_2_alg».proof.Proof.Gen.KernelIdeal.Launch
import proofs.«138625_j37280316129403_2_alg».proof.Proof.Gen.KernelIdeal.Skeleton
import proofs.«138625_j37280316129403_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Kernel 0 -/

section
variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (unfetched, its
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (unfetched, its
    block index has not moved), for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (unfetched, its
    block index has not moved), for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end

/-- The first branch's condition, from the grid coordinates: k = 0. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second branch's condition: k = 3. -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel
/-- Window 2 is never idle (an input). -/
theorem liveAt0_2 : ∀ t : Fin cfg0.N, cfg0.idle 2 (grid0.coords t) = false := by decide +kernel
/-- Where k = 0 the output window is idle: nothing is stored into it, and its block is not written back. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
/-- The same where k = 1 or 2. -/
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
/-- Where k = 3 the output window is live: the body stores its block. -/
theorem liveAt0_3_C : ∀ t : Fin cfg0.N, ¬cond0_0 (grid0.coords t) → cond0_1 (grid0.coords t) → cfg0.idle 3 (grid0.coords t) = false := by decide +kernel

/-- One staging buffer of the output window, through which its contents are stated (which one does not matter). -/
abbrev VO0 : View sig .tc .vmem S1024x32 .bf16 := (Memref.whole cc0_stg3_0 : Memref sig .tc .vmem S1024x32 .bf16).view
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x32 .bf16 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows; and its view. -/
abbrev scM0 : Memref sig .tc .vmem S1024x32 .f32 := Memref.whole cc0_scratch0
abbrev VS0 : View sig .tc .vmem S1024x32 .f32 := scM0.view

/-- The core's scoped buffers that are neither a staging buffer of this kernel nor its accumulator, each whole at some
    contents: what the body never touches. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class's region invariant hands the body the accumulator at some contents, the other scoped buffers, and the
    generator register at some state. -/
theorem PhiA0_split (c : Dev nD) :
    (Pipeline.ΦA spec0 c : sProp 𝕄) ⊢ iprop((∃ d, owns (c : Thread nD τ) scM0 fullShare d) ∗ rest0 c ∗ (∃ r, prngReg c r)) := by
  unfold Pipeline.ΦA rest0; rw [scopedRest0_eq]; simp only [scM0, owns_whole]
  iintro ⟨⟨HS, H0, H1, H2, H3, H4, H5, H6⟩, Hg⟩
  isplitl [HS]; · iexact HS
  isplitr [Hg]
  swap; · iexact Hg
  isplitl [H0]; · iexact H0
  isplitl [H1]; · iexact H1
  isplitl [H2]; · iexact H2
  isplitl [H3]; · iexact H3
  isplitl [H4]; · iexact H4
  isplitl [H5]; · iexact H5
  iexact H6

/-- And takes them back, the accumulator at any contents. -/
theorem PhiA0_join (c : Dev nD) :
    iprop((∃ d, owns (c : Thread nD τ) scM0 fullShare d) ∗ rest0 c ∗ (∃ r, prngReg c r)) ⊢ (Pipeline.ΦA spec0 c : sProp 𝕄) := by
  unfold Pipeline.ΦA rest0; rw [scopedRest0_eq]; simp only [scM0, owns_whole]
  iintro ⟨HS, ⟨H0, H1, H2, H3, H4, H5, H6⟩, Hg⟩
  isplitr [Hg]
  swap; · iexact Hg
  isplitl [HS]; · iexact HS
  isplitl [H0]; · iexact H0
  isplitl [H1]; · iexact H1
  isplitl [H2]; · iexact H2
  isplitl [H3]; · iexact H3
  isplitl [H4]; · iexact H4
  isplitl [H5]; · iexact H5
  iexact H6

/-! # Kernel 1 -/

section
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, its
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, its
    block index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-- The first branch's condition, from the grid coordinates: k = 0. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second branch's condition: k = 3. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Where k = 0 the output window is idle: nothing is stored into it, and its block is not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
/-- The same where k = 1 or 2. -/
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- Where k = 3 the output window is live: the body stores its block. -/
theorem liveAt1_2_C : ∀ t : Fin cfg1.N, ¬cond1_0 (grid1.coords t) → cond1_1 (grid1.coords t) → cfg1.idle 2 (grid1.coords t) = false := by decide +kernel

/-- One staging buffer of the output window, through which its contents are stated (which one does not matter). -/
abbrev VO1 : View sig .tc .vmem S1024x32 .f32 := (Memref.whole cc1_stg2_0 : Memref sig .tc .vmem S1024x32 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x32 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x32 .f32 := win1_2.stage (cfg1.slots t 2)
abbrev hs1_2 (t : Fin cfg1.N) : (ms1_2 t).IsWhole := hstage1_2 ((cfg1.slots t 2).cast nbuf1_2)
/-- The accumulator: a whole scoped buffer of the kernel's own, passed beside the windows; and its view. -/
abbrev scM1 : Memref sig .tc .vmem S1024x32 .f32 := Memref.whole cc1_scratch0
abbrev VS1 : View sig .tc .vmem S1024x32 .f32 := scM1.view

/-- The core's scoped buffers that are neither a staging buffer of this kernel nor its accumulator, each whole at some
    contents: what the body never touches. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The class's region invariant hands the body the accumulator at some contents, the other scoped buffers, and the
    generator register at some state. -/
theorem PhiA1_split (c : Dev nD) :
    (Pipeline.ΦA spec1 c : sProp 𝕄) ⊢ iprop((∃ d, owns (c : Thread nD τ) scM1 fullShare d) ∗ rest1 c ∗ (∃ r, prngReg c r)) := by
  unfold Pipeline.ΦA rest1; rw [scopedRest1_eq]; simp only [scM1, owns_whole]
  iintro ⟨⟨H0, H1, H2, H3, H4, H5, H6, H7, H8, HS⟩, Hg⟩
  isplitl [HS]; · iexact HS
  isplitr [Hg]
  swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- And takes them back, the accumulator at any contents. -/
theorem PhiA1_join (c : Dev nD) :
    iprop((∃ d, owns (c : Thread nD τ) scM1 fullShare d) ∗ rest1 c ∗ (∃ r, prngReg c r)) ⊢ (Pipeline.ΦA spec1 c : sProp 𝕄) := by
  unfold Pipeline.ΦA rest1; rw [scopedRest1_eq]; simp only [scM1, owns_whole]
  iintro ⟨HS, ⟨H0, H1, H2, H3, H4, H5, H6, H7, H8⟩, Hg⟩
  isplitr [Hg]
  swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact HS

end Cert.KernelIdeal.Fr

end
-- ==== Proof.KI.Run0A.lean ====
/-
  The kernel body of kernel 0 run whole, in the case k = 0: the accumulator is cleared, then the point's partial product added; the output window is left as found.
  What the stores leave in the accumulator (and, at k = 3, in the output's staging buffer) is recorded as the list of
  pieces written, last first; the run itself finds them.
-/
import proofs.«138625_j37280316129403_2_alg».proof.Proof.KI.Base

-- membership in a rectangle of these extents recurses once per coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the run's proof term is large
set_option maxHeartbeats 4000000 in
/-- The pieces the body's stores leave, with the proof that on whole memrefs — the inputs' at their contents, the
    output's at contents handed back untouched, the accumulator at anything — the body runs to
    the continuation holding the inputs' as they were and each written buffer with its pieces written. -/
noncomputable def kernelRun0_A (c : Dev nD) (i : grid0.Coords) (arg2 : Memref sig .tc .vmem S2048x1024 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .bf16) (harg5 : arg5.IsWhole) (arg6 : Memref sig .tc .vmem S1024x32 .f32) (harg6 : arg6.IsWhole) (hc0 : cond0_0 i) (hc1 : ¬cond0_1 i)
    (x0 : Vec F S2048x1024 .f32) (x1 : Vec F S2048x32 .f32) (x2 : Vec F S1024x32 .f32) :
    Σ' (L : List (View.Piece (Elt F) S1024x32 .bf16)), { LS : List (View.Piece (Elt F) S1024x32 .f32) //
      ∀ (xi : Vec F S1024x32 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__fwd_kernel i arg2 harg2 arg3 harg3 arg4 harg4 arg5 harg5 arg6 harg6) K } := by
  refine ⟨[], ?_, fun xi E K => ?run⟩
  case run =>
    simp only [cc0__fwd_kernel_eq_skeleton]; unfold cc0__fwd_kernel_skel
    unfold owns
    iintro ⟨⟨%f0, %hf0, H0⟩, ⟨%f1, %hf1, H1⟩, ⟨%f2, %hf2, H2⟩, ⟨%fO, %hfO, HO⟩, ⟨%dS, %fS, -, HS⟩, Hk⟩
    obtain rfl := harg2.eq_unread hf0; obtain rfl := harg3.eq_unread hf1; obtain rfl := harg4.eq_unread hf2; obtain rfl := harg5.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS

end Cert.KernelIdeal.Fr

end
-- ==== Proof.KI.Run0B.lean ====
/-
  The kernel body of kernel 0 run whole, in the case k = 1 or 2: the point's partial product is added to what the point before left in the accumulator; the output window is left as found.
  What the stores leave in the accumulator (and, at k = 3, in the output's staging buffer) is recorded as the list of
  pieces written, last first; the run itself finds them.
-/
import proofs.«138625_j37280316129403_2_alg».proof.Proof.KI.Run0A

-- membership in a rectangle of these extents recurses once per coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the run's proof term is large
set_option maxHeartbeats 4000000 in
/-- The pieces the body's stores leave, with the proof that on whole memrefs — the inputs' at their contents, the
    output's at contents handed back untouched, the accumulator at the contents the point before left — the body runs to
    the continuation holding the inputs' as they were and each written buffer with its pieces written. -/
noncomputable def kernelRun0_B (c : Dev nD) (i : grid0.Coords) (arg2 : Memref sig .tc .vmem S2048x1024 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .bf16) (harg5 : arg5.IsWhole) (arg6 : Memref sig .tc .vmem S1024x32 .f32) (harg6 : arg6.IsWhole) (hc0 : ¬cond0_0 i) (hc1 : ¬cond0_1 i)
    (x0 : Vec F S2048x1024 .f32) (x1 : Vec F S2048x32 .f32) (x2 : Vec F S1024x32 .f32) (xs : Vec F S1024x32 .f32) :
    Σ' (L : List (View.Piece (Elt F) S1024x32 .bf16)), { LS : List (View.Piece (Elt F) S1024x32 .f32) //
      ∀ (xi : Vec F S1024x32 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__fwd_kernel i arg2 harg2 arg3 harg3 arg4 harg4 arg5 harg5 arg6 harg6) K } := by
  refine ⟨[], ?_, fun xi E K => ?run⟩
  case run =>
    simp only [cc0__fwd_kernel_eq_skeleton]; unfold cc0__fwd_kernel_skel
    unfold owns
    iintro ⟨⟨%f0, %hf0, H0⟩, ⟨%f1, %hf1, H1⟩, ⟨%f2, %hf2, H2⟩, ⟨%fO, %hfO, HO⟩, ⟨%fS, %hfS, HS⟩, Hk⟩
    obtain rfl := harg2.eq_unread hf0; obtain rfl := harg3.eq_unread hf1; obtain rfl := harg4.eq_unread hf2; obtain rfl := harg5.eq_unread hfO; obtain rfl := harg6.eq_unread hfS
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS

end Cert.KernelIdeal.Fr

end
-- ==== Proof.KI.Run0C.lean ====
/-
  The kernel body of kernel 0 run whole, in the case k = 3: the point's partial product is added to what the point before left in the accumulator, and the output block is stored from it.
  What the stores leave in the accumulator (and, at k = 3, in the output's staging buffer) is recorded as the list of
  pieces written, last first; the run itself finds them.
-/
import proofs.«138625_j37280316129403_2_alg».proof.Proof.KI.Run0B

-- membership in a rectangle of these extents recurses once per coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the run's proof term is large
set_option maxHeartbeats 4000000 in
/-- The pieces the body's stores leave, with the proof that on whole memrefs — the inputs' at their contents, the
    output's at anything, the accumulator at the contents the point before left — the body runs to
    the continuation holding the inputs' as they were and each written buffer with its pieces written. -/
noncomputable def kernelRun0_C (c : Dev nD) (i : grid0.Coords) (arg2 : Memref sig .tc .vmem S2048x1024 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .bf16) (harg5 : arg5.IsWhole) (arg6 : Memref sig .tc .vmem S1024x32 .f32) (harg6 : arg6.IsWhole) (hc0 : ¬cond0_0 i) (hc1 : cond0_1 i)
    (x0 : Vec F S2048x1024 .f32) (x1 : Vec F S2048x32 .f32) (x2 : Vec F S1024x32 .f32) (xs : Vec F S1024x32 .f32) :
    Σ' (L : List (View.Piece (Elt F) S1024x32 .bf16)), { LS : List (View.Piece (Elt F) S1024x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L) ∗ (∃ f, arg6.view.loc (c : Thread nD τ) ↦[arg6.view.set]{fullShare} arg6.view.writes (Elt F) f LS)) -∗ K ⟨⟩))
          ⊢ wp frame (wpE (defs₀ (F := F)) Variants.none c none) E (cc0__fwd_kernel i arg2 harg2 arg3 harg3 arg4 harg4 arg5 harg5 arg6 harg6) K } := by
  refine ⟨?_, ?_, fun E K => ?run⟩
  case run =>
    simp only [cc0__fwd_kernel_eq_skeleton]; unfold cc0__fwd_kernel_skel
    unfold owns
    iintro ⟨⟨%f0, %hf0, H0⟩, ⟨%f1, %hf1, H1⟩, ⟨%f2, %hf2, H2⟩, ⟨%dO, %fO, -, HO⟩, ⟨%fS, %hfS, HS⟩, Hk⟩
    obtain rfl := harg2.eq_unread hf0; obtain rfl := harg3.eq_unread hf1; obtain rfl := harg4.eq_unread hf2; obtain rfl := harg6.eq_unread hfS
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]; · iexists _; iexact HO
    iexists _; iexact HS

end Cert.KernelIdeal.Fr

end
-- ==== Proof.KI.Frame0.lean ====
/-
  Kernel 0 point by point.

  What each case of the body leaves in the accumulator and in the output's staging buffer (the run's pieces read back),
  what they hold after each grid point by recursion on the point — where k = 0 the accumulator restarts from the cleared
  buffer, elsewhere it continues from what the point before left —, the region's invariant carrying the accumulator at
  exactly those contents, the proof data, and the body's obligation at every point.
-/
import proofs.«138625_j37280316129403_2_alg».proof.Proof.KI.Run0C

-- membership in a rectangle of these extents recurses once per coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What case A leaves in the output's staging buffer: its pieces read back (none: a placeholder nothing consults, the window being idle there). -/
def out0_A (c : Dev nD) (i : grid0.Coords) (arg2 : Memref sig .tc .vmem S2048x1024 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .bf16) (harg5 : arg5.IsWhole) (arg6 : Memref sig .tc .vmem S1024x32 .f32) (harg6 : arg6.IsWhole) (hc0 : cond0_0 i) (hc1 : ¬cond0_1 i)
    (x0 : Vec F S2048x1024 .f32) (x1 : Vec F S2048x32 .f32) (x2 : Vec F S1024x32 .f32) : Vec F S1024x32 .bf16 :=
  VO0.read (Elt F) (VO0.writes (Elt F) VO0.junk (kernelRun0_A c i arg2 harg2 arg3 harg3 arg4 harg4 arg5 harg5 arg6 harg6 hc0 hc1 x0 x1 x2).1)

/-- Case A's pieces for the accumulator tile it, so they cover it. -/
theorem scover0_A (c : Dev nD) (i : grid0.Coords) (arg2 : Memref sig .tc .vmem S2048x1024 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .bf16) (harg5 : arg5.IsWhole) (arg6 : Memref sig .tc .vmem S1024x32 .f32) (harg6 : arg6.IsWhole) (hc0 : cond0_0 i) (hc1 : ¬cond0_1 i)
    (x0 : Vec F S2048x1024 .f32) (x1 : Vec F S2048x32 .f32) (x2 : Vec F S1024x32 .f32) (y : S1024x32.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1024x32.size (by sl_kernel_rfl) y

/-- What case A leaves in the accumulator: its pieces read back. -/
def sout0_A (c : Dev nD) (i : grid0.Coords) (arg2 : Memref sig .tc .vmem S2048x1024 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .bf16) (harg5 : arg5.IsWhole) (arg6 : Memref sig .tc .vmem S1024x32 .f32) (harg6 : arg6.IsWhole) (hc0 : cond0_0 i) (hc1 : ¬cond0_1 i)
    (x0 : Vec F S2048x1024 .f32) (x1 : Vec F S2048x32 .f32) (x2 : Vec F S1024x32 .f32) : Vec F S1024x32 .f32 :=
  VS0.read (Elt F) (VS0.writes (Elt F) VS0.junk (kernelRun0_A c i arg2 harg2 arg3 harg3 arg4 harg4 arg5 harg5 arg6 harg6 hc0 hc1 x0 x1 x2).2.1)

/-- What case B leaves in the output's staging buffer: its pieces read back (none: a placeholder nothing consults, the window being idle there). -/
def out0_B (c : Dev nD) (i : grid0.Coords) (arg2 : Memref sig .tc .vmem S2048x1024 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .bf16) (harg5 : arg5.IsWhole) (arg6 : Memref sig .tc .vmem S1024x32 .f32) (harg6 : arg6.IsWhole) (hc0 : ¬cond0_0 i) (hc1 : ¬cond0_1 i)
    (x0 : Vec F S2048x1024 .f32) (x1 : Vec F S2048x32 .f32) (x2 : Vec F S1024x32 .f32) (xs : Vec F S1024x32 .f32) : Vec F S1024x32 .bf16 :=
  VO0.read (Elt F) (VO0.writes (Elt F) VO0.junk (kernelRun0_B c i arg2 harg2 arg3 harg3 arg4 harg4 arg5 harg5 arg6 harg6 hc0 hc1 x0 x1 x2 xs).1)

/-- Case B's pieces for the accumulator tile it, so they cover it. -/
theorem scover0_B (c : Dev nD) (i : grid0.Coords) (arg2 : Memref sig .tc .vmem S2048x1024 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .bf16) (harg5 : arg5.IsWhole) (arg6 : Memref sig .tc .vmem S1024x32 .f32) (harg6 : arg6.IsWhole) (hc0 : ¬cond0_0 i) (hc1 : ¬cond0_1 i)
    (x0 : Vec F S2048x1024 .f32) (x1 : Vec F S2048x32 .f32) (x2 : Vec F S1024x32 .f32) (xs : Vec F S1024x32 .f32) (y : S1024x32.Idx) :
    ∃ pc ∈ (kernelRun0_B c i arg2 harg2 arg3 harg3 arg4 harg4 arg5 harg5 arg6 harg6 hc0 hc1 x0 x1 x2 xs).2.1, y ∈ pc.1.set :=
  View.cover_of_tiledL (kernelRun0_B c i arg2 harg2 arg3 harg3 arg4 harg4 arg5 harg5 arg6 harg6 hc0 hc1 x0 x1 x2 xs).2.1 S1024x32.size (by sl_kernel_rfl) y

/-- What case B leaves in the accumulator: its pieces read back. -/
def sout0_B (c : Dev nD) (i : grid0.Coords) (arg2 : Memref sig .tc .vmem S2048x1024 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .bf16) (harg5 : arg5.IsWhole) (arg6 : Memref sig .tc .vmem S1024x32 .f32) (harg6 : arg6.IsWhole) (hc0 : ¬cond0_0 i) (hc1 : ¬cond0_1 i)
    (x0 : Vec F S2048x1024 .f32) (x1 : Vec F S2048x32 .f32) (x2 : Vec F S1024x32 .f32) (xs : Vec F S1024x32 .f32) : Vec F S1024x32 .f32 :=
  VS0.read (Elt F) (VS0.writes (Elt F) VS0.junk (kernelRun0_B c i arg2 harg2 arg3 harg3 arg4 harg4 arg5 harg5 arg6 harg6 hc0 hc1 x0 x1 x2 xs).2.1)

/-- At k = 3 the pieces stored into the output tile its block, so they cover it. -/
theorem cover0_C (c : Dev nD) (i : grid0.Coords) (arg2 : Memref sig .tc .vmem S2048x1024 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .bf16) (harg5 : arg5.IsWhole) (arg6 : Memref sig .tc .vmem S1024x32 .f32) (harg6 : arg6.IsWhole) (hc0 : ¬cond0_0 i) (hc1 : cond0_1 i)
    (x0 : Vec F S2048x1024 .f32) (x1 : Vec F S2048x32 .f32) (x2 : Vec F S1024x32 .f32) (xs : Vec F S1024x32 .f32) (y : S1024x32.Idx) :
    ∃ pc ∈ (kernelRun0_C c i arg2 harg2 arg3 harg3 arg4 harg4 arg5 harg5 arg6 harg6 hc0 hc1 x0 x1 x2 xs).1, y ∈ pc.1.set :=
  View.cover_of_tiledL (kernelRun0_C c i arg2 harg2 arg3 harg3 arg4 harg4 arg5 harg5 arg6 harg6 hc0 hc1 x0 x1 x2 xs).1 S1024x32.size (by sl_kernel_rfl) y

/-- What case C leaves in the output's staging buffer: its pieces read back. -/
def out0_C (c : Dev nD) (i : grid0.Coords) (arg2 : Memref sig .tc .vmem S2048x1024 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .bf16) (harg5 : arg5.IsWhole) (arg6 : Memref sig .tc .vmem S1024x32 .f32) (harg6 : arg6.IsWhole) (hc0 : ¬cond0_0 i) (hc1 : cond0_1 i)
    (x0 : Vec F S2048x1024 .f32) (x1 : Vec F S2048x32 .f32) (x2 : Vec F S1024x32 .f32) (xs : Vec F S1024x32 .f32) : Vec F S1024x32 .bf16 :=
  VO0.read (Elt F) (VO0.writes (Elt F) VO0.junk (kernelRun0_C c i arg2 harg2 arg3 harg3 arg4 harg4 arg5 harg5 arg6 harg6 hc0 hc1 x0 x1 x2 xs).1)

/-- Case C's pieces for the accumulator tile it, so they cover it. -/
theorem scover0_C (c : Dev nD) (i : grid0.Coords) (arg2 : Memref sig .tc .vmem S2048x1024 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .bf16) (harg5 : arg5.IsWhole) (arg6 : Memref sig .tc .vmem S1024x32 .f32) (harg6 : arg6.IsWhole) (hc0 : ¬cond0_0 i) (hc1 : cond0_1 i)
    (x0 : Vec F S2048x1024 .f32) (x1 : Vec F S2048x32 .f32) (x2 : Vec F S1024x32 .f32) (xs : Vec F S1024x32 .f32) (y : S1024x32.Idx) :
    ∃ pc ∈ (kernelRun0_C c i arg2 harg2 arg3 harg3 arg4 harg4 arg5 harg5 arg6 harg6 hc0 hc1 x0 x1 x2 xs).2.1, y ∈ pc.1.set :=
  View.cover_of_tiledL (kernelRun0_C c i arg2 harg2 arg3 harg3 arg4 harg4 arg5 harg5 arg6 harg6 hc0 hc1 x0 x1 x2 xs).2.1 S1024x32.size (by sl_kernel_rfl) y

/-- What case C leaves in the accumulator: its pieces read back. -/
def sout0_C (c : Dev nD) (i : grid0.Coords) (arg2 : Memref sig .tc .vmem S2048x1024 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .bf16) (harg5 : arg5.IsWhole) (arg6 : Memref sig .tc .vmem S1024x32 .f32) (harg6 : arg6.IsWhole) (hc0 : ¬cond0_0 i) (hc1 : cond0_1 i)
    (x0 : Vec F S2048x1024 .f32) (x1 : Vec F S2048x32 .f32) (x2 : Vec F S1024x32 .f32) (xs : Vec F S1024x32 .f32) : Vec F S1024x32 .f32 :=
  VS0.read (Elt F) (VS0.writes (Elt F) VS0.junk (kernelRun0_C c i arg2 harg2 arg3 harg3 arg4 harg4 arg5 harg5 arg6 harg6 hc0 hc1 x0 x1 x2 xs).2.1)

section
variable (V : (c : Dev nD) → (b : Ref sig .tc) → Buf (Elt F) ((c : Thread nD τ).loc b))

/-- THE ACCUMULATION. What the output's staging buffer and the accumulator hold after the body at position `n`: the
    case the point is in, run at the point's memrefs and input blocks; where k ≠ 0 the accumulator it starts from is what
    position `n - 1` left. -/
def outsAt0 (c : Dev nD) : (n : ℕ) → n < cfg0.N → Vec F S1024x32 .bf16 × Vec F S1024x32 .f32
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 4 = 0 then
      (out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 4 = 3 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- `outsAt0` at a point with k = 0. -/
theorem outsAt0_A (c : Dev nD) (t : Fin cfg0.N) (h0 : t.val % 4 = 0) (h1 : ¬t.val % 4 = 3) :
    outsAt0 V c t.val t.isLt = (out0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t), sout0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans rfl

/-- At a point with k = 1 or 2: over what the point before left. -/
theorem outsAt0_B (c : Dev nD) (t : Fin cfg0.N) (h0 : ¬t.val % 4 = 0) (h1 : ¬t.val % 4 = 3) :
    outsAt0 V c t.val t.isLt = (out0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with k = 3: over what the point before left. -/
theorem outsAt0_C (c : Dev nD) (t : Fin cfg0.N) (h0 : ¬t.val % 4 = 0) (h1 : t.val % 4 = 3) :
    outsAt0 V c t.val t.isLt = (out0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (every scoped buffer that is no
    staging buffer at anything, the generator register at some state); afterwards the accumulator at what the point
    before left in it, the other such buffers at anything, the register at some state. -/
def PhiS0 (c : Dev nD) : (n : ℕ) → n ≤ cfg0.N → sProp 𝕄
  | 0, _ => Pipeline.ΦA spec0 c
  | n + 1, hn => iprop(owns (c : Thread nD τ) scM0 fullShare ((outsAt0 V c n hn).2) ∗ rest0 c ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0 fullShare ((outsAt0 V c n hn).2) ∗ rest0 c ∗ (∃ r, prngReg c r)) := rfl

theorem PhiS0_pos (c : Dev nD) (n : ℕ) (h : n ≤ cfg0.N) (hz : n ≠ 0) :
    PhiS0 V c n h = iprop(owns (c : Thread nD τ) scM0 fullShare ((outsAt0 V c (n - 1) (by omega)).2) ∗ rest0 c ∗ (∃ r, prngReg c r)) := by
  cases n with
  | zero => exact absurd rfl hz
  | succ n => rfl

/-- The proof data of kernel 0 on core `c`: the arrays as the region finds them; after the body at point `t` each
    input's buffer at its block and the output's at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 8000000 in
/-- The body at any point: the inputs' memrefs hold their blocks; the point's k says which case it is in; the invariant
    hands the body the accumulator at what the point before left (at anything before the first point) and takes it back at
    this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  by_cases h0 : t.val % 4 = 0
  · by_cases h1 : t.val % 4 = 3
    · exfalso; omega
    · skip
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [outsAt0_A V c t h0 h1]
      unfold sout0_A; (try dsimp only)
      by_cases hz : t.val = 0
      · rw [PhiS0_castSucc V c t, PhiS0_zero V c _ _ hz]
        refine (sep_mono (PhiA0_split c) .rfl).trans ?_
        iintro ⟨⟨HS, Hr, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hr Hg]
        · isplitl [HS]
          · unfold owns; iexists _; isplitr
            swap; · iexact HS
            ipureintro; exact View.read_writes_of_cover _ _ _ _ _ (scover0_A c _ _ _ _ _ _ _ _ _ _ _ _ _ _ _ _)
          isplitl [Hr]; · iexact Hr
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨HS, Hr, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hr Hg]
        · isplitl [HS]
          · unfold owns; iexists _; isplitr
            swap; · iexact HS
            ipureintro; exact View.read_writes_of_cover _ _ _ _ _ (scover0_A c _ _ _ _ _ _ _ _ _ _ _ _ _ _ _ _)
          isplitl [Hr]; · iexact Hr
          iexact Hg
        isplitl [Ho]; · iexact Ho
        isplitl [H0]; · iexact H0
        isplitl [H1]; · iexact H1
        isplitl [H2]; · iexact H2
        iexists _; iexact H3
  · by_cases h1 : t.val % 4 = 3
    · skip
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [outsAt0_C V c t h0 h1]
      unfold out0_C sout0_C; (try dsimp only)
      have hz : t.val ≠ 0 := by omega
      rw [PhiS0_castSucc V c t, PhiS0_pos V c _ _ hz]
      iintro ⟨⟨HS, Hr, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%eo, H3⟩, ⟨%es, HS⟩⟩
      isplitl [HS Hr Hg]
      · isplitl [HS]
        · unfold owns; iexists _; isplitr
          swap; · iexact HS
          ipureintro; exact View.read_writes_of_cover _ _ _ _ _ (scover0_C c _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c _ _ _ _ _ _ _ _ _ _ _ _ _ _ _ _ _)
    · skip
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B V c t h0 h1]
      unfold sout0_B; (try dsimp only)
      have hz : t.val ≠ 0 := by omega
      rw [PhiS0_castSucc V c t, PhiS0_pos V c _ _ hz]
      iintro ⟨⟨HS, Hr, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS]
        · unfold owns; iexists _; isplitr
          swap; · iexact HS
          ipureintro; exact View.read_writes_of_cover _ _ _ _ _ (scover0_B c _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht]
  refine .trans ?_ (PhiA0_join c)
  iintro ⟨HS, Hr, Hg⟩
  isplitl [HS]; · iexists _; iexact HS
  isplitl [Hr]; · iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end

end Cert.KernelIdeal.Fr

end
-- ==== Proof.KI.Run1A.lean ====
/-
  The kernel body of kernel 1 run whole, in the case k = 0: the accumulator is cleared, then the point's partial product added; the output window is left as found.
  What the stores leave in the accumulator (and, at k = 3, in the output's staging buffer) is recorded as the list of
  pieces written, last first; the run itself finds them.
-/
import proofs.«138625_j37280316129403_2_alg».proof.Proof.KI.Base

-- membership in a rectangle of these extents recurses once per coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the run's proof term is large
set_option maxHeartbeats 4000000 in
/-- The pieces the body's stores leave, with the proof that on whole memrefs — the inputs' at their contents, the
    output's at contents handed back untouched, the accumulator at anything — the body runs to
    the continuation holding the inputs' as they were and each written buffer with its pieces written. -/
noncomputable def kernelRun1_A (c : Dev nD) (i : grid1.Coords) (arg2 : Memref sig .tc .vmem S1024x2048 .f32) (harg2 : arg2.IsWhole) (arg3 : Memref sig .tc .vmem S2048x32 .bf16) (harg3 : arg3.IsWhole) (arg4 : Memref sig .tc .vmem S1024x32 .f32) (harg4 : arg4.IsWhole) (arg5 : Memref sig .tc .vmem S1024x32 .f32) (harg5 : arg5.IsWhole) (hc0 : cond1_0 i) (hc1 : ¬cond1_1 i)
    (x0 : Vec F S1024x2048 .f32) (x1 : Vec F S2048x32 .bf16) :
    Σ' (L : List (View.Piece (Elt F) S1024x32 .f32)), { LS : List (View.Piece (Elt F) S1024x32 .f32) //
      ∀ (xi : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc1__inv_kernel i arg2 harg2 arg3 harg3 arg4 harg4 arg5 harg5) K } := by
  refine ⟨[], ?_, fun xi E K => ?run⟩
  case run =>
    simp only [cc1__inv_kernel_eq_skeleton]; unfold cc1__inv_kernel_skel
    unfold owns
    iintro ⟨⟨%f0, %hf0, H0⟩, ⟨%f1, %hf1, H1⟩, ⟨%fO, %hfO, HO⟩, ⟨%dS, %fS, -, HS⟩, Hk⟩
    obtain rfl := harg2.eq_unread hf0; obtain rfl := harg3.eq_unread hf1; obtain rfl := harg4.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HS

end Cert.KernelIdeal.Fr

end
-- ==== Proof.KI.Run1B.lean ====
/-
  The kernel body of kernel 1 run whole, in the case k = 1 or 2: the point's partial product is added to what the point before left in the accumulator; the output window is left as found.
  What the stores leave in the accumulator (and, at k = 3, in the output's staging buffer) is recorded as the list of
  pieces written, last first; the run itself finds them.
-/
import proofs.«138625_j37280316129403_2_alg».proof.Proof.KI.Run1A

-- membership in a rectangle of these extents recurses once per coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the run's proof term is large
set_option maxHeartbeats 4000000 in
/-- The pieces the body's stores leave, with the proof that on whole memrefs — the inputs' at their contents, the
    output's at contents handed back untouched, the accumulator at the contents the point before left — the body runs to
    the continuation holding the inputs' as they were and each written buffer with its pieces written. -/
noncomputable def kernelRun1_B (c : Dev nD) (i : grid1.Coords) (arg2 : Memref sig .tc .vmem S1024x2048 .f32) (harg2 : arg2.IsWhole) (arg3 : Memref sig .tc .vmem S2048x32 .bf16) (harg3 : arg3.IsWhole) (arg4 : Memref sig .tc .vmem S1024x32 .f32) (harg4 : arg4.IsWhole) (arg5 : Memref sig .tc .vmem S1024x32 .f32) (harg5 : arg5.IsWhole) (hc0 : ¬cond1_0 i) (hc1 : ¬cond1_1 i)
    (x0 : Vec F S1024x2048 .f32) (x1 : Vec F S2048x32 .bf16) (xs : Vec F S1024x32 .f32) :
    Σ' (L : List (View.Piece (Elt F) S1024x32 .f32)), { LS : List (View.Piece (Elt F) S1024x32 .f32) //
      ∀ (xi : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc1__inv_kernel i arg2 harg2 arg3 harg3 arg4 harg4 arg5 harg5) K } := by
  refine ⟨[], ?_, fun xi E K => ?run⟩
  case run =>
    simp only [cc1__inv_kernel_eq_skeleton]; unfold cc1__inv_kernel_skel
    unfold owns
    iintro ⟨⟨%f0, %hf0, H0⟩, ⟨%f1, %hf1, H1⟩, ⟨%fO, %hfO, HO⟩, ⟨%fS, %hfS, HS⟩, Hk⟩
    obtain rfl := harg2.eq_unread hf0; obtain rfl := harg3.eq_unread hf1; obtain rfl := harg4.eq_unread hfO; obtain rfl := harg5.eq_unread hfS
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HS

end Cert.KernelIdeal.Fr

end
-- ==== Proof.KI.Run1C.lean ====
/-
  The kernel body of kernel 1 run whole, in the case k = 3: the point's partial product is added to what the point before left in the accumulator, and the output block is stored from it.
  What the stores leave in the accumulator (and, at k = 3, in the output's staging buffer) is recorded as the list of
  pieces written, last first; the run itself finds them.
-/
import proofs.«138625_j37280316129403_2_alg».proof.Proof.KI.Run1B

-- membership in a rectangle of these extents recurses once per coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the run's proof term is large
set_option maxHeartbeats 4000000 in
/-- The pieces the body's stores leave, with the proof that on whole memrefs — the inputs' at their contents, the
    output's at anything, the accumulator at the contents the point before left — the body runs to
    the continuation holding the inputs' as they were and each written buffer with its pieces written. -/
noncomputable def kernelRun1_C (c : Dev nD) (i : grid1.Coords) (arg2 : Memref sig .tc .vmem S1024x2048 .f32) (harg2 : arg2.IsWhole) (arg3 : Memref sig .tc .vmem S2048x32 .bf16) (harg3 : arg3.IsWhole) (arg4 : Memref sig .tc .vmem S1024x32 .f32) (harg4 : arg4.IsWhole) (arg5 : Memref sig .tc .vmem S1024x32 .f32) (harg5 : arg5.IsWhole) (hc0 : ¬cond1_0 i) (hc1 : cond1_1 i)
    (x0 : Vec F S1024x2048 .f32) (x1 : Vec F S2048x32 .bf16) (xs : Vec F S1024x32 .f32) :
    Σ' (L : List (View.Piece (Elt F) S1024x32 .f32)), { LS : List (View.Piece (Elt F) S1024x32 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L) ∗ (∃ f, arg5.view.loc (c : Thread nD τ) ↦[arg5.view.set]{fullShare} arg5.view.writes (Elt F) f LS)) -∗ K ⟨⟩))
          ⊢ wp frame (wpE (defs₀ (F := F)) Variants.none c none) E (cc1__inv_kernel i arg2 harg2 arg3 harg3 arg4 harg4 arg5 harg5) K } := by
  refine ⟨?_, ?_, fun E K => ?run⟩
  case run =>
    simp only [cc1__inv_kernel_eq_skeleton]; unfold cc1__inv_kernel_skel
    unfold owns
    iintro ⟨⟨%f0, %hf0, H0⟩, ⟨%f1, %hf1, H1⟩, ⟨%dO, %fO, -, HO⟩, ⟨%fS, %hfS, HS⟩, Hk⟩
    obtain rfl := harg2.eq_unread hf0; obtain rfl := harg3.eq_unread hf1; obtain rfl := harg5.eq_unread hfS
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]; · iexists _; iexact HO
    iexists _; iexact HS

end Cert.KernelIdeal.Fr

end
-- ==== Proof.KI.Frame1.lean ====
/-
  Kernel 1 point by point.

  What each case of the body leaves in the accumulator and in the output's staging buffer (the run's pieces read back),
  what they hold after each grid point by recursion on the point — where k = 0 the accumulator restarts from the cleared
  buffer, elsewhere it continues from what the point before left —, the region's invariant carrying the accumulator at
  exactly those contents, the proof data, and the body's obligation at every point.
-/
import proofs.«138625_j37280316129403_2_alg».proof.Proof.KI.Run1C

-- membership in a rectangle of these extents recurses once per coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What case A leaves in the output's staging buffer: its pieces read back (none: a placeholder nothing consults, the window being idle there). -/
def out1_A (c : Dev nD) (i : grid1.Coords) (arg2 : Memref sig .tc .vmem S1024x2048 .f32) (harg2 : arg2.IsWhole) (arg3 : Memref sig .tc .vmem S2048x32 .bf16) (harg3 : arg3.IsWhole) (arg4 : Memref sig .tc .vmem S1024x32 .f32) (harg4 : arg4.IsWhole) (arg5 : Memref sig .tc .vmem S1024x32 .f32) (harg5 : arg5.IsWhole) (hc0 : cond1_0 i) (hc1 : ¬cond1_1 i)
    (x0 : Vec F S1024x2048 .f32) (x1 : Vec F S2048x32 .bf16) : Vec F S1024x32 .f32 :=
  VO1.read (Elt F) (VO1.writes (Elt F) VO1.junk (kernelRun1_A c i arg2 harg2 arg3 harg3 arg4 harg4 arg5 harg5 hc0 hc1 x0 x1).1)

/-- Case A's pieces for the accumulator tile it, so they cover it. -/
theorem scover1_A (c : Dev nD) (i : grid1.Coords) (arg2 : Memref sig .tc .vmem S1024x2048 .f32) (harg2 : arg2.IsWhole) (arg3 : Memref sig .tc .vmem S2048x32 .bf16) (harg3 : arg3.IsWhole) (arg4 : Memref sig .tc .vmem S1024x32 .f32) (harg4 : arg4.IsWhole) (arg5 : Memref sig .tc .vmem S1024x32 .f32) (harg5 : arg5.IsWhole) (hc0 : cond1_0 i) (hc1 : ¬cond1_1 i)
    (x0 : Vec F S1024x2048 .f32) (x1 : Vec F S2048x32 .bf16) (y : S1024x32.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1024x32.size (by sl_kernel_rfl) y

/-- What case A leaves in the accumulator: its pieces read back. -/
def sout1_A (c : Dev nD) (i : grid1.Coords) (arg2 : Memref sig .tc .vmem S1024x2048 .f32) (harg2 : arg2.IsWhole) (arg3 : Memref sig .tc .vmem S2048x32 .bf16) (harg3 : arg3.IsWhole) (arg4 : Memref sig .tc .vmem S1024x32 .f32) (harg4 : arg4.IsWhole) (arg5 : Memref sig .tc .vmem S1024x32 .f32) (harg5 : arg5.IsWhole) (hc0 : cond1_0 i) (hc1 : ¬cond1_1 i)
    (x0 : Vec F S1024x2048 .f32) (x1 : Vec F S2048x32 .bf16) : Vec F S1024x32 .f32 :=
  VS1.read (Elt F) (VS1.writes (Elt F) VS1.junk (kernelRun1_A c i arg2 harg2 arg3 harg3 arg4 harg4 arg5 harg5 hc0 hc1 x0 x1).2.1)

/-- What case B leaves in the output's staging buffer: its pieces read back (none: a placeholder nothing consults, the window being idle there). -/
def out1_B (c : Dev nD) (i : grid1.Coords) (arg2 : Memref sig .tc .vmem S1024x2048 .f32) (harg2 : arg2.IsWhole) (arg3 : Memref sig .tc .vmem S2048x32 .bf16) (harg3 : arg3.IsWhole) (arg4 : Memref sig .tc .vmem S1024x32 .f32) (harg4 : arg4.IsWhole) (arg5 : Memref sig .tc .vmem S1024x32 .f32) (harg5 : arg5.IsWhole) (hc0 : ¬cond1_0 i) (hc1 : ¬cond1_1 i)
    (x0 : Vec F S1024x2048 .f32) (x1 : Vec F S2048x32 .bf16) (xs : Vec F S1024x32 .f32) : Vec F S1024x32 .f32 :=
  VO1.read (Elt F) (VO1.writes (Elt F) VO1.junk (kernelRun1_B c i arg2 harg2 arg3 harg3 arg4 harg4 arg5 harg5 hc0 hc1 x0 x1 xs).1)

/-- Case B's pieces for the accumulator tile it, so they cover it. -/
theorem scover1_B (c : Dev nD) (i : grid1.Coords) (arg2 : Memref sig .tc .vmem S1024x2048 .f32) (harg2 : arg2.IsWhole) (arg3 : Memref sig .tc .vmem S2048x32 .bf16) (harg3 : arg3.IsWhole) (arg4 : Memref sig .tc .vmem S1024x32 .f32) (harg4 : arg4.IsWhole) (arg5 : Memref sig .tc .vmem S1024x32 .f32) (harg5 : arg5.IsWhole) (hc0 : ¬cond1_0 i) (hc1 : ¬cond1_1 i)
    (x0 : Vec F S1024x2048 .f32) (x1 : Vec F S2048x32 .bf16) (xs : Vec F S1024x32 .f32) (y : S1024x32.Idx) :
    ∃ pc ∈ (kernelRun1_B c i arg2 harg2 arg3 harg3 arg4 harg4 arg5 harg5 hc0 hc1 x0 x1 xs).2.1, y ∈ pc.1.set :=
  View.cover_of_tiledL (kernelRun1_B c i arg2 harg2 arg3 harg3 arg4 harg4 arg5 harg5 hc0 hc1 x0 x1 xs).2.1 S1024x32.size (by sl_kernel_rfl) y

/-- What case B leaves in the accumulator: its pieces read back. -/
def sout1_B (c : Dev nD) (i : grid1.Coords) (arg2 : Memref sig .tc .vmem S1024x2048 .f32) (harg2 : arg2.IsWhole) (arg3 : Memref sig .tc .vmem S2048x32 .bf16) (harg3 : arg3.IsWhole) (arg4 : Memref sig .tc .vmem S1024x32 .f32) (harg4 : arg4.IsWhole) (arg5 : Memref sig .tc .vmem S1024x32 .f32) (harg5 : arg5.IsWhole) (hc0 : ¬cond1_0 i) (hc1 : ¬cond1_1 i)
    (x0 : Vec F S1024x2048 .f32) (x1 : Vec F S2048x32 .bf16) (xs : Vec F S1024x32 .f32) : Vec F S1024x32 .f32 :=
  VS1.read (Elt F) (VS1.writes (Elt F) VS1.junk (kernelRun1_B c i arg2 harg2 arg3 harg3 arg4 harg4 arg5 harg5 hc0 hc1 x0 x1 xs).2.1)

/-- At k = 3 the pieces stored into the output tile its block, so they cover it. -/
theorem cover1_C (c : Dev nD) (i : grid1.Coords) (arg2 : Memref sig .tc .vmem S1024x2048 .f32) (harg2 : arg2.IsWhole) (arg3 : Memref sig .tc .vmem S2048x32 .bf16) (harg3 : arg3.IsWhole) (arg4 : Memref sig .tc .vmem S1024x32 .f32) (harg4 : arg4.IsWhole) (arg5 : Memref sig .tc .vmem S1024x32 .f32) (harg5 : arg5.IsWhole) (hc0 : ¬cond1_0 i) (hc1 : cond1_1 i)
    (x0 : Vec F S1024x2048 .f32) (x1 : Vec F S2048x32 .bf16) (xs : Vec F S1024x32 .f32) (y : S1024x32.Idx) :
    ∃ pc ∈ (kernelRun1_C c i arg2 harg2 arg3 harg3 arg4 harg4 arg5 harg5 hc0 hc1 x0 x1 xs).1, y ∈ pc.1.set :=
  View.cover_of_tiledL (kernelRun1_C c i arg2 harg2 arg3 harg3 arg4 harg4 arg5 harg5 hc0 hc1 x0 x1 xs).1 S1024x32.size (by sl_kernel_rfl) y

/-- What case C leaves in the output's staging buffer: its pieces read back. -/
def out1_C (c : Dev nD) (i : grid1.Coords) (arg2 : Memref sig .tc .vmem S1024x2048 .f32) (harg2 : arg2.IsWhole) (arg3 : Memref sig .tc .vmem S2048x32 .bf16) (harg3 : arg3.IsWhole) (arg4 : Memref sig .tc .vmem S1024x32 .f32) (harg4 : arg4.IsWhole) (arg5 : Memref sig .tc .vmem S1024x32 .f32) (harg5 : arg5.IsWhole) (hc0 : ¬cond1_0 i) (hc1 : cond1_1 i)
    (x0 : Vec F S1024x2048 .f32) (x1 : Vec F S2048x32 .bf16) (xs : Vec F S1024x32 .f32) : Vec F S1024x32 .f32 :=
  VO1.read (Elt F) (VO1.writes (Elt F) VO1.junk (kernelRun1_C c i arg2 harg2 arg3 harg3 arg4 harg4 arg5 harg5 hc0 hc1 x0 x1 xs).1)

/-- Case C's pieces for the accumulator tile it, so they cover it. -/
theorem scover1_C (c : Dev nD) (i : grid1.Coords) (arg2 : Memref sig .tc .vmem S1024x2048 .f32) (harg2 : arg2.IsWhole) (arg3 : Memref sig .tc .vmem S2048x32 .bf16) (harg3 : arg3.IsWhole) (arg4 : Memref sig .tc .vmem S1024x32 .f32) (harg4 : arg4.IsWhole) (arg5 : Memref sig .tc .vmem S1024x32 .f32) (harg5 : arg5.IsWhole) (hc0 : ¬cond1_0 i) (hc1 : cond1_1 i)
    (x0 : Vec F S1024x2048 .f32) (x1 : Vec F S2048x32 .bf16) (xs : Vec F S1024x32 .f32) (y : S1024x32.Idx) :
    ∃ pc ∈ (kernelRun1_C c i arg2 harg2 arg3 harg3 arg4 harg4 arg5 harg5 hc0 hc1 x0 x1 xs).2.1, y ∈ pc.1.set :=
  View.cover_of_tiledL (kernelRun1_C c i arg2 harg2 arg3 harg3 arg4 harg4 arg5 harg5 hc0 hc1 x0 x1 xs).2.1 S1024x32.size (by sl_kernel_rfl) y

/-- What case C leaves in the accumulator: its pieces read back. -/
def sout1_C (c : Dev nD) (i : grid1.Coords) (arg2 : Memref sig .tc .vmem S1024x2048 .f32) (harg2 : arg2.IsWhole) (arg3 : Memref sig .tc .vmem S2048x32 .bf16) (harg3 : arg3.IsWhole) (arg4 : Memref sig .tc .vmem S1024x32 .f32) (harg4 : arg4.IsWhole) (arg5 : Memref sig .tc .vmem S1024x32 .f32) (harg5 : arg5.IsWhole) (hc0 : ¬cond1_0 i) (hc1 : cond1_1 i)
    (x0 : Vec F S1024x2048 .f32) (x1 : Vec F S2048x32 .bf16) (xs : Vec F S1024x32 .f32) : Vec F S1024x32 .f32 :=
  VS1.read (Elt F) (VS1.writes (Elt F) VS1.junk (kernelRun1_C c i arg2 harg2 arg3 harg3 arg4 harg4 arg5 harg5 hc0 hc1 x0 x1 xs).2.1)

section
variable (V : (c : Dev nD) → (b : Ref sig .tc) → Buf (Elt F) ((c : Thread nD τ).loc b))

/-- THE ACCUMULATION. What the output's staging buffer and the accumulator hold after the body at position `n`: the
    case the point is in, run at the point's memrefs and input blocks; where k ≠ 0 the accumulator it starts from is what
    position `n - 1` left. -/
def outsAt1 (c : Dev nD) : (n : ℕ) → n < cfg1.N → Vec F S1024x32 .f32 × Vec F S1024x32 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at a point with k = 0. -/
theorem outsAt1_A (c : Dev nD) (t : Fin cfg1.N) (h0 : t.val % 4 = 0) (h1 : ¬t.val % 4 = 3) :
    outsAt1 V c t.val t.isLt = (out1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t), sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans rfl

/-- At a point with k = 1 or 2: over what the point before left. -/
theorem outsAt1_B (c : Dev nD) (t : Fin cfg1.N) (h0 : ¬t.val % 4 = 0) (h1 : ¬t.val % 4 = 3) :
    outsAt1 V c t.val t.isLt = (out1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with k = 3: over what the point before left. -/
theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (every scoped buffer that is no
    staging buffer at anything, the generator register at some state); afterwards the accumulator at what the point
    before left in it, the other such buffers at anything, the register at some state. -/
def PhiS1 (c : Dev nD) : (n : ℕ) → n ≤ cfg1.N → sProp 𝕄
  | 0, _ => Pipeline.ΦA spec1 c
  | n + 1, hn => iprop(owns (c : Thread nD τ) scM1 fullShare ((outsAt1 V c n hn).2) ∗ rest1 c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare ((outsAt1 V c n hn).2) ∗ rest1 c ∗ (∃ r, prngReg c r)) := rfl

theorem PhiS1_pos (c : Dev nD) (n : ℕ) (h : n ≤ cfg1.N) (hz : n ≠ 0) :
    PhiS1 V c n h = iprop(owns (c : Thread nD τ) scM1 fullShare ((outsAt1 V c (n - 1) (by omega)).2) ∗ rest1 c ∗ (∃ r, prngReg c r)) := by
  cases n with
  | zero => exact absurd rfl hz
  | succ n => rfl

/-- The proof data of kernel 1 on core `c`: the arrays as the region finds them; after the body at point `t` each
    input's buffer at its block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 8000000 in
/-- The body at any point: the inputs' memrefs hold their blocks; the point's k says which case it is in; the invariant
    hands the body the accumulator at what the point before left (at anything before the first point) and takes it back at
    this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 4 = 0
  · by_cases h1 : t.val % 4 = 3
    · exfalso; omega
    · skip
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A; (try dsimp only)
      by_cases hz : t.val = 0
      · rw [PhiS1_castSucc V c t, PhiS1_zero V c _ _ hz]
        refine (sep_mono (PhiA1_split c) .rfl).trans ?_
        iintro ⟨⟨HS, Hr, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS]; · iexact HS
        iintro ⟨H0, H1, H2, ⟨%es, HS⟩⟩
        isplitl [HS Hr Hg]
        · isplitl [HS]
          · unfold owns; iexists _; isplitr
            swap; · iexact HS
            ipureintro; exact View.read_writes_of_cover _ _ _ _ _ (scover1_A c _ _ _ _ _ _ _ _ _ _ _ _ _)
          isplitl [Hr]; · iexact Hr
          iexact Hg
        isplitl [Ho]; · iexact Ho
        isplitl [H0]; · iexact H0
        isplitl [H1]; · iexact H1
        iexists _; iexact H2
      · rw [PhiS1_castSucc V c t, PhiS1_pos V c _ _ hz]
        iintro ⟨⟨HS, Hr, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS]; · iexists _; iexact HS
        iintro ⟨H0, H1, H2, ⟨%es, HS⟩⟩
        isplitl [HS Hr Hg]
        · isplitl [HS]
          · unfold owns; iexists _; isplitr
            swap; · iexact HS
            ipureintro; exact View.read_writes_of_cover _ _ _ _ _ (scover1_A c _ _ _ _ _ _ _ _ _ _ _ _ _)
          isplitl [Hr]; · iexact Hr
          iexact Hg
        isplitl [Ho]; · iexact Ho
        isplitl [H0]; · iexact H0
        isplitl [H1]; · iexact H1
        iexists _; iexact H2
  · by_cases h1 : t.val % 4 = 3
    · skip
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C sout1_C; (try dsimp only)
      have hz : t.val ≠ 0 := by omega
      rw [PhiS1_castSucc V c t, PhiS1_pos V c _ _ hz]
      iintro ⟨⟨HS, Hr, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS]; · iexact HS
      iintro ⟨H0, H1, ⟨%eo, H2⟩, ⟨%es, HS⟩⟩
      isplitl [HS Hr Hg]
      · isplitl [HS]
        · unfold owns; iexists _; isplitr
          swap; · iexact HS
          ipureintro; exact View.read_writes_of_cover _ _ _ _ _ (scover1_C c _ _ _ _ _ _ _ _ _ _ _ _ _ _)
        isplitl [Hr]; · iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · skip
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B; (try dsimp only)
      have hz : t.val ≠ 0 := by omega
      rw [PhiS1_castSucc V c t, PhiS1_pos V c _ _ hz]
      iintro ⟨⟨HS, Hr, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hr Hg]
      · isplitl [HS]
        · unfold owns; iexists _; isplitr
          swap; · iexact HS
          ipureintro; exact View.read_writes_of_cover _ _ _ _ _ (scover1_B c _ _ _ _ _ _ _ _ _ _ _ _ _ _)
        isplitl [Hr]; · iexact Hr
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  refine .trans ?_ (PhiA1_join c)
  iintro ⟨HS, Hr, Hg⟩
  isplitl [HS]; · iexists _; iexact HS
  isplitl [Hr]; · iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end

end Cert.KernelIdeal.Fr

end
-- ==== Proof.KI.Main.lean ====
/-
  The whole program's run.

  @main is one host operation (the filters transposed), then kernel 0's region, then kernel 1's. The buffer contents at
  each boundary are a fold from the launch memory: after the transpose; after region 0, whose output array holds what its
  write-backs leave and every other buffer what it held; after region 1 likewise. Every weakly fair execution terminates
  with every unscoped buffer at the last boundary's contents; read at the arguments that is the frame claim, and read at
  the result it names what the program computes.
-/
import proofs.«138625_j37280316129403_2_alg».proof.Proof.KI.Frame0
import proofs.«138625_j37280316129403_2_alg».proof.Proof.KI.Frame1

-- membership in a rectangle of these extents recurses once per coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operation (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched -/

/-- The host operation writes only the transposed filters. -/
theorem W1_of (c : Dev nD) (b : Ref sig .tc) (hb : b ≠ main_v0) : W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, Finset.mem_singleton]
    exact StableHlo.devRef_ne_of_ne hb))

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := W1_of m ρ c main_arg0 (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := W1_of m ρ c main_arg1 (by decide)
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

/-- The result array ends at what region 1's write-backs leave. -/
theorem W3_main_v2 (c : Dev nD) : W3 m ρ c (Proc.devRef .tc main_v2) = (dat1 (V2 m ρ) c).arrAt 2 cfg1.N :=
  W3_arr m ρ c 2

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The regions as segments -/

-- a library lemma stated over the pinned configuration unifies with the printed one only when unification may unfold plain
-- definitions in a metavariable's type
set_option backward.isDefEq.respectTransparency.types false in
/-- Kernel 0's region over the thread state: entered from every unscoped buffer at the contents before it, left at
    the contents after it. Its arrays are split out of the unscoped buffers and put back at what the write-backs leave;
    the generator register and the scoped rest go into the region's invariant and come back; nothing is owed; the kernel
    has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Kernel 1's region over the thread state: entered from every unscoped buffer at the contents before it, left at
    the contents after it. Its arrays are split out of the unscoped buffers and put back at what the write-backs leave;
    the generator register and the scoped rest go into the region's invariant and come back; nothing is owed; the kernel
    has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The run read at the result and the arguments: the result array at what region 1's write-backs leave, every
    argument as launched. -/
theorem run_main : θ_run defs (onTc (τ := τ) (main (F := F))) ⟨m, fun _ => 0, ρ⟩ (fun r => ∀ c : Dev nD,
      r.2.mem ((c.tc : Thread nD τ).loc main_v2) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v2 (by decide))).trans (W3_main_v2 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

/-- THE FRAME, at any `F`: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_main m ρ)

end Cert.KernelIdeal.Fr

end
-- ==== Proof.KI.Pieces0.lean ====
/-
  Kernel 0: what each case of the body leaves, as the body's own arithmetic of the blocks it loads.

  Every load and every store of the body goes through the whole staging buffer or the whole accumulator (the unit
  rectangle at zero offsets), so a load reads the buffer's contents and the last store leaves its payload. Where k = 0
  the accumulator is first cleared and the partial product added to the cleared block read back; elsewhere the partial
  product is added to what the accumulator held; where k = 3 the output block is the product of the accumulator, read
  back after that addition, with the filter block, narrowed to the output's format.
-/
import proofs.«138625_j37280316129403_2_alg».proof.Proof.KI.Frame0
import Idealize.ShloMosaic.Lib.Pipeline.Value

-- membership in a rectangle of these extents recurses once per coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The two zero offsets, however spelt. -/
theorem zeroOffsets0 : (![0, 0] : Fin 2 → Nat) = fun _ => 0 := funext fun a => by fin_cases a <;> rfl

/-- Where k = 0 the accumulator ends at the partial product added to the cleared block. -/
theorem sout0_A_eq (c : Dev nD) (i : grid0.Coords) (arg2 : Memref sig .tc .vmem S2048x1024 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .bf16) (harg5 : arg5.IsWhole) (arg6 : Memref sig .tc .vmem S1024x32 .f32) (harg6 : arg6.IsWhole) (hc0 : cond0_0 i) (hc1 : ¬cond0_1 i)
    (x0 : Vec F S2048x1024 .f32) (x1 : Vec F S2048x32 .f32) (x2 : Vec F S1024x32 .f32) :
    sout0_A c i arg2 harg2 arg3 harg3 arg4 harg4 arg5 harg5 arg6 harg6 hc0 hc1 x0 x1 x2 = k0_pay2 x0 x1 (k0_pay1 (F := F)) := by
  unfold sout0_A
  rw [View.read_writes_eq_canon _ _ _ (scover0_A c i arg2 harg2 arg3 harg3 arg4 harg4 arg5 harg5 arg6 harg6 hc0 hc1 x0 x1 x2)]
  unfold kernelRun0_A
  dsimp only
  sl_unfold_words
  rw [View.canon_cons_unit_zero (S := S1024x32) zeroOffsets0, View.readCov_unit_zero (S := S1024x32) _ zeroOffsets0]
  simp only [View.readAt_eq_ld, harg2.read_unread, harg3.read_unread, View.ld_unit_zero (S := S2048x1024) zeroOffsets0,
    View.ld_unit_zero (S := S2048x32) zeroOffsets0]

/-- Where k = 1 or 2 the accumulator ends at the partial product added to what it held. -/
theorem sout0_B_eq (c : Dev nD) (i : grid0.Coords) (arg2 : Memref sig .tc .vmem S2048x1024 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .bf16) (harg5 : arg5.IsWhole) (arg6 : Memref sig .tc .vmem S1024x32 .f32) (harg6 : arg6.IsWhole) (hc0 : ¬cond0_0 i) (hc1 : ¬cond0_1 i)
    (x0 : Vec F S2048x1024 .f32) (x1 : Vec F S2048x32 .f32) (x2 : Vec F S1024x32 .f32) (xs : Vec F S1024x32 .f32) :
    sout0_B c i arg2 harg2 arg3 harg3 arg4 harg4 arg5 harg5 arg6 harg6 hc0 hc1 x0 x1 x2 xs = k0_pay2 x0 x1 xs := by
  unfold sout0_B
  rw [View.read_writes_eq_canon _ _ _ (scover0_B c i arg2 harg2 arg3 harg3 arg4 harg4 arg5 harg5 arg6 harg6 hc0 hc1 x0 x1 x2 xs)]
  unfold kernelRun0_B
  dsimp only
  rw [View.canon_unit_zero (S := S1024x32) zeroOffsets0]
  simp only [View.readAt_eq_ld, harg2.read_unread, harg3.read_unread, harg6.read_unread,
    View.ld_unit_zero (S := S2048x1024) zeroOffsets0, View.ld_unit_zero (S := S2048x32) zeroOffsets0,
    View.ld_unit_zero (S := S1024x32) zeroOffsets0]

/-- Where k = 3 the accumulator ends at the partial product added to what it held, as where k = 1 or 2. -/
theorem sout0_C_eq (c : Dev nD) (i : grid0.Coords) (arg2 : Memref sig .tc .vmem S2048x1024 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .bf16) (harg5 : arg5.IsWhole) (arg6 : Memref sig .tc .vmem S1024x32 .f32) (harg6 : arg6.IsWhole) (hc0 : ¬cond0_0 i) (hc1 : cond0_1 i)
    (x0 : Vec F S2048x1024 .f32) (x1 : Vec F S2048x32 .f32) (x2 : Vec F S1024x32 .f32) (xs : Vec F S1024x32 .f32) :
    sout0_C c i arg2 harg2 arg3 harg3 arg4 harg4 arg5 harg5 arg6 harg6 hc0 hc1 x0 x1 x2 xs = k0_pay2 x0 x1 xs := by
  unfold sout0_C
  rw [View.read_writes_eq_canon _ _ _ (scover0_C c i arg2 harg2 arg3 harg3 arg4 harg4 arg5 harg5 arg6 harg6 hc0 hc1 x0 x1 x2 xs)]
  unfold kernelRun0_C
  dsimp only
  sl_unfold_words
  rw [View.canon_unit_zero (S := S1024x32) zeroOffsets0]
  simp only [View.readAt_eq_ld, harg2.read_unread, harg3.read_unread, harg6.read_unread,
    View.ld_unit_zero (S := S2048x1024) zeroOffsets0, View.ld_unit_zero (S := S2048x32) zeroOffsets0,
    View.ld_unit_zero (S := S1024x32) zeroOffsets0]

/-- Where k = 3 the output block is the accumulator's final contents times the filter block, narrowed. -/
theorem out0_C_eq (c : Dev nD) (i : grid0.Coords) (arg2 : Memref sig .tc .vmem S2048x1024 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .bf16) (harg5 : arg5.IsWhole) (arg6 : Memref sig .tc .vmem S1024x32 .f32) (harg6 : arg6.IsWhole) (hc0 : ¬cond0_0 i) (hc1 : cond0_1 i)
    (x0 : Vec F S2048x1024 .f32) (x1 : Vec F S2048x32 .f32) (x2 : Vec F S1024x32 .f32) (xs : Vec F S1024x32 .f32) :
    out0_C c i arg2 harg2 arg3 harg3 arg4 harg4 arg5 harg5 arg6 harg6 hc0 hc1 x0 x1 x2 xs = k0_pay3 (k0_pay2 x0 x1 xs) x2 := by
  unfold out0_C
  rw [View.read_writes_eq_canon _ _ _ (cover0_C c i arg2 harg2 arg3 harg3 arg4 harg4 arg5 harg5 arg6 harg6 hc0 hc1 x0 x1 x2 xs)]
  unfold kernelRun0_C
  dsimp only
  sl_unfold_words
  rw [View.canon_unit_zero (S := S1024x32) zeroOffsets0, View.readCov_unit_zero (S := S1024x32) _ zeroOffsets0]
  simp only [View.readAt_eq_ld, harg2.read_unread, harg3.read_unread, harg4.read_unread, harg6.read_unread,
    View.ld_unit_zero (S := S2048x1024) zeroOffsets0, View.ld_unit_zero (S := S2048x32) zeroOffsets0,
    View.ld_unit_zero (S := S1024x32) zeroOffsets0]

end Cert.KernelIdeal.Fr

end
-- ==== Proof.KI.Val0a.lean ====
/-
  The first kernel's windows read at an index, and where its output blocks lie.

  Point t of the 8 × 4 grid has row-block coordinate t / 4 and reduction coordinate t % 4. Its basis block is rows
  (t % 4)·2048 …, columns (t / 4)·1024 … of the basis; its signal block the same rows of the signal; its filter block and
  its output block rows (t / 4)·1024 … of their arrays. The output is written back only where t % 4 = 3, and those eight
  blocks tile the output array.
-/
import proofs.«138625_j37280316129403_2_alg».proof.Proof.KI.Frame0
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr

variable (V : (c : Dev nD) → (b : Ref sig .tc) → Buf (Elt Ideal) ((c : Thread nD τ).loc b))

/-- The printed index maps, decided over the grid. -/
theorem idx0 : ∀ t : Fin cfg0.N, win0_0.index t (0 : Fin 2) = t.val % 4 ∧ win0_0.index t (1 : Fin 2) = t.val / 4
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 2) = t.val / 4 ∧ win0_3.index t (1 : Fin 2) = 0 :=
  (by decide +kernel : ∀ t : Fin grid0.N, _)

/-- The basis, signal and filter blocks at point `t`, as arrays of extended reals over their literal shapes. -/
abbrev bU0 (c : Dev nD) (t : Fin cfg0.N) : Vec Ideal S2048x1024 .f32 := iblk0 V c 0 t
abbrev bX0 (c : Dev nD) (t : Fin cfg0.N) : Vec Ideal S2048x32 .f32 := iblk0 V c 1 t
abbrev bW0 (c : Dev nD) (t : Fin cfg0.N) : Vec Ideal S1024x32 .f32 := iblk0 V c 2 t

/-- The basis block at point `t`, entry (a, p): the basis at row (t % 4)·2048 + a, column (t / 4)·1024 + p. -/
theorem blk0_0 (c : Dev nD) (t : Fin cfg0.N) (a : Fin 2048) (p : Fin 1024) (R C : Fin 8192)
    (hR : R.val = (t.val % 4) * 2048 + a.val) (hC : C.val = (t.val / 4) * 1024 + p.val) :
    bU0 V c t (ix2 a p) = V c main_arg1 (ix2 R C) := by
  obtain ⟨e0, e1, -⟩ := idx0 t
  unfold bU0 iblk0
  rw [View.read_apply]
  show V c main_arg1 _ = V c main_arg1 _
  congr 1
  funext d; apply Fin.ext
  match d with
  | ⟨0, _⟩ => show win0_0.index t (0 : Fin 2) * 2048 + 1 * a.val = R.val; omega
  | ⟨1, _⟩ => show win0_0.index t (1 : Fin 2) * 1024 + 1 * p.val = C.val; omega

/-- The signal block at point `t`, entry (a, q): the signal at row (t % 4)·2048 + a, column q. -/
theorem blk0_1 (c : Dev nD) (t : Fin cfg0.N) (a : Fin 2048) (q : Fin 32) (R : Fin 8192)
    (hR : R.val = (t.val % 4) * 2048 + a.val) :
    bX0 V c t (ix2 a q) = V c main_arg0 (ix2 R q) := by
  obtain ⟨-, -, e0, e1, -⟩ := idx0 t
  unfold bX0 iblk0
  rw [View.read_apply]
  show V c main_arg0 _ = V c main_arg0 _
  congr 1
  funext d; apply Fin.ext
  match d with
  | ⟨0, _⟩ => show win0_1.index t (0 : Fin 2) * 2048 + 1 * a.val = R.val; omega
  | ⟨1, _⟩ => show win0_1.index t (1 : Fin 2) * 32 + 1 * q.val = q.val; omega

/-- The filter block at point `t`, entry (p, q): the transposed filters at row (t / 4)·1024 + p, column q. -/
theorem blk0_2 (c : Dev nD) (t : Fin cfg0.N) (p : Fin 1024) (q : Fin 32) (R : Fin 8192)
    (hR : R.val = (t.val / 4) * 1024 + p.val) :
    bW0 V c t (ix2 p q) = V c main_v0 (ix2 R q) := by
  obtain ⟨-, -, -, -, e0, e1, -⟩ := idx0 t
  unfold bW0 iblk0
  rw [View.read_apply]
  show V c main_v0 _ = V c main_v0 _
  congr 1
  funext d; apply Fin.ext
  match d with
  | ⟨0, _⟩ => show win0_2.index t (0 : Fin 2) * 1024 + 1 * p.val = R.val; omega
  | ⟨1, _⟩ => show win0_2.index t (1 : Fin 2) * 32 + 1 * q.val = q.val; omega

/-- The output block at point `t` read through its window: entry (p, q) is the array's at row (t / 4)·1024 + p. -/
theorem read_out0 (t : Fin cfg0.N) (G : S8192x32.Idx → Elt Ideal .bf16) (p : Fin 1024) (q : Fin 32) (R : Fin 8192)
    (hR : R.val = (t.val / 4) * 1024 + p.val) :
    (((cfg0.win 3).blk t).view.read (Elt Ideal) G : Vec Ideal S1024x32 .bf16) (ix2 p q) = G (ix2 R q) := by
  obtain ⟨-, -, -, -, -, -, e0, e1⟩ := idx0 t
  rw [View.read_apply]
  refine congrArg G ?_
  funext d; apply Fin.ext
  match d with
  | ⟨0, _⟩ => show win0_3.index t (0 : Fin 2) * 1024 + 1 * p.val = R.val; omega
  | ⟨1, _⟩ => show win0_3.index t (1 : Fin 2) * 32 + 1 * q.val = q.val; omega

/-- The basis, the signal and the transposed filters as the region finds them, as extended-real arrays. -/
abbrev arrU0 (c : Dev nD) : S8192x8192.Idx → EReal := V c main_arg1
abbrev arrX0 (c : Dev nD) : S8192x32.Idx → EReal := V c main_arg0
abbrev arrW0 (c : Dev nD) : S8192x32.Idx → EReal := V c main_v0

/-- What the first kernel's output array ends holding, from the arrays its region finds: at (k, f), column k of the basis
    against column f of the signal, times the transposed filters' entry. -/
def G0 (c : Dev nD) : S8192x32.Idx → EReal :=
  fun y => (∑ j : Fin 8192, arrU0 V c (ix2 j (y 0)) * arrX0 V c (ix2 j (y 1))) * arrW0 V c (ix2 (y 0) (y 1))

/-- An index of the output array is in point `t`'s block iff each coordinate is in the block's range on its axis. -/
theorem mem_blk0 (t : Fin cfg0.N) (i : S8192x32.Idx) :
    i ∈ ((cfg0.win 3).blk t).view.set ↔ ∀ a : Fin 2, win0_3.index t a * S1024x32.size a ≤ (i a).val ∧ (i a).val < win0_3.index t a * S1024x32.size a + S1024x32.size a := by
  show i ∈ ((View.whole main_v1).slice (win0_3.rect t)).set ↔ _
  rw [View.set_slice_whole, Rect.mem_set_unit]
  exact Iff.rfl

/-- Every index of the output array lies in the block of a point that writes it back: the point with row-block
    coordinate (i 0) / 1024 and reduction coordinate 3. -/
theorem cover0 (i : S8192x32.Idx) : ∃ t : Fin cfg0.N, (cfg0.win 3).flush t = true ∧ i ∈ ((cfg0.win 3).blk t).view.set := by
  have hi0 : (i 0).val < 8192 := (i 0).isLt
  have hi1 : (i 1).val < 32 := (i 1).isLt
  have hN : cfg0.N = 32 := N_0
  let t : Fin cfg0.N := ⟨4 * ((i 0).val / 1024) + 3, by omega⟩
  have ht : t.val = 4 * ((i 0).val / 1024) + 3 := rfl
  obtain ⟨-, -, -, -, -, -, e0, e1⟩ := idx0 t
  refine ⟨t, (flush0_3 t).mpr (by omega), ?_⟩
  rw [mem_blk0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 32 ≤ (i 1).val ∧ (i 1).val < win0_3.index t (1 : Fin 2) * 32 + 32; omega

end Cert.KernelIdeal.Val

end
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.LibDotT.lean ====
/-
  A matrix product whose left operand is read transposed, at an index, on the extended reals.

  For a contraction × rows by contraction × columns product — the dimension numbers that contract the FIRST axis of both
  operands, with no batch axis, so that the left operand enters transposed without a transpose being materialized — the
  entry at (i, j) of a `tpu.matmul` accumulated into the zero splat, and of the host's `dot_general`, is the plain sum
  over the contraction coordinate k of l (k, i) · r (k, j). The sum over the product's own contraction index is
  re-indexed through the bijection between a one-axis contraction index and its coordinate; the operand indices are
  computed from the dimension numbers. Nothing here needs finiteness: the sum is only re-indexed.
-/
import Idealize.ShloMosaic.Lib.ValueIdx
import Idealize.ShloMosaic.PureOps.Ideal.Laws

noncomputable section

namespace Cert.LibDotT

open Idealize.ShloMosaic Idealize.ShloMosaic.ValueIdx

variable {M K N : Nat}

/-- The contraction of column `y 0` of `l` with column `y 1` of `r`: the sum over the product's contraction index is
    the sum over the one contracted coordinate, the first of both operands. -/
theorem sum_lhsT (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (l : (⟨2, ![K, M]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 k (y 0)) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[0], [0], [1], [1], [], [], wf⟩ : DotDims ⟨2, ![K, M]⟩ ⟨2, ![K, N]⟩ ⟨2, ![M, N]⟩) K rfl rfl).symm]
  refine Finset.sum_congr rfl fun k _ => ?_
  have hk := contrEquiv1_symm_val (⟨[0], [0], [1], [1], [], [], wf⟩ : DotDims ⟨2, ![K, M]⟩ ⟨2, ![K, N]⟩ ⟨2, ![M, N]⟩) K rfl rfl k
  have el : DotDims.lhsIdx (⟨[0], [0], [1], [1], [], [], wf⟩ : DotDims ⟨2, ![K, M]⟩ ⟨2, ![K, N]⟩ ⟨2, ![M, N]⟩) y
      ((contrEquiv1 (⟨[0], [0], [1], [1], [], [], wf⟩ : DotDims ⟨2, ![K, M]⟩ ⟨2, ![K, N]⟩ ⟨2, ![M, N]⟩) K rfl rfl).symm k)
      = ix2 k (y 0) := funext fun a => Fin.ext (by
    match a with
    | ⟨0, _⟩ => exact (DotDims.lhsIdx_val_of_single _ rfl y _).trans hk
    | ⟨1, _⟩ =>
      unfold DotDims.lhsIdx
      rw [dif_neg (by simp), dif_pos (by simp)]
      rfl)
  have er : DotDims.rhsIdx (⟨[0], [0], [1], [1], [], [], wf⟩ : DotDims ⟨2, ![K, M]⟩ ⟨2, ![K, N]⟩ ⟨2, ![M, N]⟩) y
      ((contrEquiv1 (⟨[0], [0], [1], [1], [], [], wf⟩ : DotDims ⟨2, ![K, M]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- A `tpu.matmul` of those dimension numbers into the zero accumulator, at an index: the sum over the contracted
    coordinate. -/
theorem matmul_zero_lhsT_apply (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision)
    (l : FVec Ideal ⟨2, ![K, M]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 k (y 0)) * r (ix2 k (y 1)) := by
  rw [Ideal.matmul_constant_zero_apply]
  exact sum_lhsT d hlc hrc hln hrn hlb hrb l r y

/-- The host's `dot_general` of those dimension numbers, at an index: the same sum. -/
theorem dotGeneral_lhsT_apply (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (sched : HostSchedule)
    (l : FVec Ideal ⟨2, ![K, M]⟩ φ₁) (r : FVec Ideal ⟨2, ![K, N]⟩ φ₂) (y : (⟨2, ![M, N]⟩ : Shape).Idx) :
    FloatOps.dotGeneral d prec sched l r y = ∑ k : Fin K, l (ix2 k (y 0)) * r (ix2 k (y 1)) := by
  rw [Ideal.dotGeneral_apply]
  exact sum_lhsT d hlc hrc hln hrn hlb hrb l r y

end Cert.LibDotT

end
-- ==== Proof.Pay.lean ====
/-
  The kernels' arithmetic at an index, on the extended reals.

  Each kernel's body has three stored values. The reset stores zero. The accumulation stores, at (p, q), the
  accumulator's entry plus one block's partial product: for the first kernel the sum over the block's 2048 rows j of
  u (j, p) · x (j, q) (the basis block enters transposed), for the second the sum over the block's 2048 columns j of
  u (p, j) · s (j, q). The first kernel's final store multiplies the accumulator by the filter block, entry by entry; the
  second's stores the accumulator as it is. A change of float format is the identity here.
-/
import proofs.«138625_j37280316129403_2_alg».proof.Proof.Gen.KernelIdeal.Skeleton
import proofs.«138625_j37280316129403_2_alg».proof.Proof.LibDot
import proofs.«138625_j37280316129403_2_alg».proof.Proof.LibDotT
import Idealize.ShloMosaic.Lib.ValueIdx
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-- The first kernel's reset stores zero everywhere. -/
theorem pay1_0 (y : S1024x32.Idx) : k0_pay1 (F := Ideal) y = 0 := by
  unfold k0_pay1
  rw [shapeCast_self]
  exact Ideal.ofBits_zero_f32

/-- The first kernel's accumulation at (p, q): the accumulator's entry plus column p of the basis block against column q
    of the signal block. -/
theorem pay2_0 (x0 : Vec Ideal S2048x1024 .f32) (x1 : Vec Ideal S2048x32 .f32) (acc : Vec Ideal S1024x32 .f32)
    (p : Fin 1024) (q : Fin 32) :
    k0_pay2 (F := Ideal) x0 x1 acc (ix2 p q) = acc (ix2 p q) + ∑ j : Fin 2048, x0 (ix2 j p) * x1 (ix2 j q) := by
  unfold k0_pay2
  rw [shapeCast_self]
  refine congrArg (acc (ix2 p q) + ·) ?_
  exact Cert.LibDotT.matmul_zero_lhsT_apply dot_S2048x1024_S2048x32_S1024x32_0_0_1_1_n_n rfl rfl rfl rfl rfl rfl none _ _ (ix2 p q)

/-- The first kernel's final store at an index: the accumulator's entry times the filter block's. -/
theorem pay3_0 (acc : Vec Ideal S1024x32 .f32) (w : Vec Ideal S1024x32 .f32) (y : S1024x32.Idx) :
    k0_pay3 (F := Ideal) acc w y = acc y * w y := by
  unfold k0_pay3
  rw [shapeCast_self]
  rfl

/-- The second kernel's reset stores zero everywhere. -/
theorem pay1_1 (y : S1024x32.Idx) : k1_pay1 (F := Ideal) y = 0 := by
  unfold k1_pay1
  rw [shapeCast_self]
  exact Ideal.ofBits_zero_f32

/-- The second kernel's accumulation at (p, q): the accumulator's entry plus row p of the basis block against column q
    of the coefficient block. -/
theorem pay2_1 (x0 : Vec Ideal S1024x2048 .f32) (x1 : Vec Ideal S2048x32 .bf16) (acc : Vec Ideal S1024x32 .f32)
    (p : Fin 1024) (q : Fin 32) :
    k1_pay2 (F := Ideal) x0 x1 acc (ix2 p q) = acc (ix2 p q) + ∑ j : Fin 2048, x0 (ix2 p j) * x1 (ix2 j q) := by
  unfold k1_pay2
  simp only [shapeCast_self]
  refine congrArg (acc (ix2 p q) + ·) ?_
  exact Cert.LibDot.matmul_zero_plain_apply dot_S1024x2048_S2048x32_S1024x32_1_0_0_1_n_n rfl rfl rfl rfl rfl rfl none _ _ (ix2 p q)

end Cert.KernelIdeal.Pay

end
-- ==== Proof.KI.Val0.lean ====
/-
  The first kernel's accumulator, point by point.

  The accumulator after point n is the point's partial product added to the accumulator after point n - 1, or to zero
  where the point's reduction coordinate is 0. So at a point with reduction coordinate 3 it holds the four partial
  products since the last reset, added left to right from zero; and there the output's staging buffer holds that
  accumulator times the filter block.
-/
import proofs.«138625_j37280316129403_2_alg».proof.Proof.KI.Pieces0
import proofs.«138625_j37280316129403_2_alg».proof.Proof.KI.Val0a
import proofs.«138625_j37280316129403_2_alg».proof.Proof.Pay
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr

variable (V : (c : Dev nD) → (b : Ref sig .tc) → Buf (Elt Ideal) ((c : Thread nD τ).loc b))

open Cert.KernelIdeal.Pay

/-- THE ACCUMULATOR after point `n`, in closed form. -/
def acc0 (c : Dev nD) : (n : ℕ) → n < cfg0.N → Vec Ideal S1024x32 .f32
  | 0, h => k0_pay2 (F := Ideal) (bU0 V c ⟨0, h⟩) (bX0 V c ⟨0, h⟩) (k0_pay1 (F := Ideal))
  | n + 1, h => k0_pay2 (F := Ideal) (bU0 V c ⟨n + 1, h⟩) (bX0 V c ⟨n + 1, h⟩)
      (if (n + 1) % 4 = 0 then k0_pay1 (F := Ideal) else acc0 c n (Nat.lt_of_succ_lt h))

/-- Where the reduction coordinate is 0 the accumulator restarts from zero. -/
theorem acc0_base (c : Dev nD) (b : ℕ) (hb : b % 4 = 0) (h : b < cfg0.N) :
    acc0 V c b h = k0_pay2 (F := Ideal) (bU0 V c ⟨b, h⟩) (bX0 V c ⟨b, h⟩) (k0_pay1 (F := Ideal)) := by
  cases b with
  | zero => rfl
  | succ n =>
    show k0_pay2 (F := Ideal) _ _ (if (n + 1) % 4 = 0 then _ else _) = _
    rw [if_pos hb]

/-- Elsewhere it continues from the point before. -/
theorem acc0_step (c : Dev nD) (n : ℕ) (hn : ¬(n + 1) % 4 = 0) (h : n + 1 < cfg0.N) :
    acc0 V c (n + 1) h = k0_pay2 (F := Ideal) (bU0 V c ⟨n + 1, h⟩) (bX0 V c ⟨n + 1, h⟩) (acc0 V c n (Nat.lt_of_succ_lt h)) := by
  show k0_pay2 (F := Ideal) _ _ (if (n + 1) % 4 = 0 then _ else _) = _
  rw [if_neg hn]

set_option maxHeartbeats 400000 in
/-- What the run leaves in the accumulator after point `n` is the closed form — by induction on the point. -/
theorem outsAt0_snd (c : Dev nD) : ∀ (n : ℕ) (h : n < cfg0.N), (outsAt0 V c n h).2 = acc0 V c n h
  | 0, h => by
    rw [outsAt0_A V c ⟨0, h⟩ rfl (by dsimp only; omega)]
    dsimp only
    rw [sout0_A_eq]
    rfl
  | n + 1, h => by
    by_cases h0 : (n + 1) % 4 = 0
    · rw [outsAt0_A V c ⟨n + 1, h⟩ h0 (by dsimp only; omega)]
      dsimp only
      rw [sout0_A_eq, acc0_base V c (n + 1) h0 h]
    · by_cases h1 : (n + 1) % 4 = 3
      · rw [outsAt0_C V c ⟨n + 1, h⟩ h0 h1]
        dsimp only
        rw [sout0_C_eq, acc0_step V c n h0 h]
        show k0_pay2 (F := Ideal) _ _ (outsAt0 V c n _).2 = k0_pay2 (F := Ideal) _ _ (acc0 V c n _)
        rw [outsAt0_snd c n]
      · rw [outsAt0_B V c ⟨n + 1, h⟩ h0 h1]
        dsimp only
        rw [sout0_B_eq, acc0_step V c n h0 h]
        show k0_pay2 (F := Ideal) _ _ (outsAt0 V c n _).2 = k0_pay2 (F := Ideal) _ _ (acc0 V c n _)
        rw [outsAt0_snd c n]

set_option maxHeartbeats 400000 in
/-- Where the reduction coordinate is 3 the output's staging buffer ends at the accumulator times the filter block. -/
theorem outsAt0_fst (c : Dev nD) (t : Fin cfg0.N) (h3 : t.val % 4 = 3) :
    (outsAt0 V c t.val t.isLt).1 = k0_pay3 (F := Ideal) (acc0 V c t.val t.isLt) (bW0 V c t) := by
  have h0 : ¬t.val % 4 = 0 := by omega
  have hs := outsAt0_snd V c t.val t.isLt
  rw [outsAt0_C V c t h0 h3] at hs ⊢
  dsimp only at hs ⊢
  rw [sout0_C_eq] at hs
  rw [out0_C_eq, hs]

set_option maxHeartbeats 400000 in
/-- At a point `b + 3` with `b` a multiple of 4: the four partial products since the reset, added left to right from zero. -/
theorem acc0_four (c : Dev nD) (b : ℕ) (hb : b % 4 = 0) (h0 : b < cfg0.N) (h1 : b + 1 < cfg0.N) (h2 : b + 2 < cfg0.N) (h3 : b + 3 < cfg0.N)
    (p : Fin 1024) (q : Fin 32) :
    acc0 V c (b + 3) h3 (ix2 p q)
      = (((0 + ∑ a : Fin 2048, bU0 V c ⟨b, h0⟩ (ix2 a p) * bX0 V c ⟨b, h0⟩ (ix2 a q))
          + ∑ a : Fin 2048, bU0 V c ⟨b + 1, h1⟩ (ix2 a p) * bX0 V c ⟨b + 1, h1⟩ (ix2 a q))
          + ∑ a : Fin 2048, bU0 V c ⟨b + 2, h2⟩ (ix2 a p) * bX0 V c ⟨b + 2, h2⟩ (ix2 a q))
          + ∑ a : Fin 2048, bU0 V c ⟨b + 3, h3⟩ (ix2 a p) * bX0 V c ⟨b + 3, h3⟩ (ix2 a q) := by
  rw [acc0_step V c (b + 2) (by omega) h3, pay2_0, acc0_step V c (b + 1) (by omega) h2, pay2_0,
    acc0_step V c b (by omega) h1, pay2_0, acc0_base V c b hb h0, pay2_0, pay1_0]

end Cert.KernelIdeal.Val

end
-- ==== Proof.Blocks.lean ====
/-
  A sum over 8192 consecutive terms, cut into four consecutive blocks of 2048.

  The index set of 8192 terms is the product of a block number below 4 and an offset below 2048, the term at block
  `b` and offset `a` being the one at `b · 2048 + a`. So the whole sum is the sum over the blocks of each block's sum,
  here written as an accumulation from zero, one block at a time. Only the laws of a commutative additive monoid are
  used.
-/
import Mathlib.Data.EReal.Basic
import Mathlib.Algebra.BigOperators.Fin
import Mathlib.Logic.Equiv.Fin.Basic

namespace Cert.Blocks

/-- A sum over `Fin 8192` is the sum over the four blocks of the sum over each block's 2048 offsets. -/
theorem sum_blocks {M : Type*} [AddCommMonoid M] (g : Fin 8192 → M) :
    ∑ k : Fin 8192, g k = ∑ b : Fin 4, ∑ a : Fin 2048, g ⟨b.val * 2048 + a.val, by omega⟩ := by
  refine ((finProdFinEquiv (m := 4) (n := 2048)).sum_comp g).symm.trans ?_
  rw [Fintype.sum_prod_type]
  refine Finset.sum_congr rfl fun b _ => Finset.sum_congr rfl fun a _ => congrArg g (Fin.ext ?_)
  show a.val + 2048 * b.val = b.val * 2048 + a.val
  omega

/-- The same, as the four partial sums added one after the other to zero. -/
theorem sum_four_blocks (g : Fin 8192 → EReal) :
    ∑ k : Fin 8192, g k
      = (((0 + ∑ a : Fin 2048, g ⟨0 * 2048 + a.val, by omega⟩) + ∑ a : Fin 2048, g ⟨1 * 2048 + a.val, by omega⟩)
          + ∑ a : Fin 2048, g ⟨2 * 2048 + a.val, by omega⟩) + ∑ a : Fin 2048, g ⟨3 * 2048 + a.val, by omega⟩ := by
  rw [sum_blocks g, Fin.sum_univ_four, zero_add]
  rfl

end Cert.Blocks
-- ==== Proof.Arith.lean ====
/-
  The arithmetic of the grid's blocks.

  A grid point b + k, with b a multiple of 4 and k < 4, has reduction coordinate k and row-block coordinate b / 4; row a of
  reduction block k is row k·2048 + a of the 8192, and row p of row block b / 4 is row (b / 4)·1024 + p.
-/
import Mathlib.Tactic

namespace Cert.Arith

theorem row_lt (k : ℕ) (hk : k < 4) (a : Fin 2048) : k * 2048 + a.val < 8192 := by have := a.isLt; omega
theorem col_lt (b : ℕ) (hb : b + 3 < 32) (p : Fin 1024) : (b / 4) * 1024 + p.val < 8192 := by have := p.isLt; omega
theorem blk_mod (b k : ℕ) (hb : b % 4 = 0) (hk : k < 4) : (b + k) % 4 = k := by omega
theorem blk_div (b k : ℕ) (hb : b % 4 = 0) (hk : k < 4) : (b + k) / 4 = b / 4 := by omega

end Cert.Arith
-- ==== Proof.KI.Val0f.lean ====
/-
  What the first kernel leaves in its output array.

  At a point with reduction coordinate 3 the four partial products since the last reset are the four 2048-row blocks of
  one column of the basis against one column of the signal, added left to right from zero: regrouped, the whole
  8192-term sum. The output block is that times the filter block, which is the block of the whole-array function `G0`;
  the eight such blocks tile the array.
-/
import proofs.«138625_j37280316129403_2_alg».proof.Proof.KI.Val0
import proofs.«138625_j37280316129403_2_alg».proof.Proof.Blocks
import proofs.«138625_j37280316129403_2_alg».proof.Proof.Arith
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr

variable (V : (c : Dev nD) → (b : Ref sig .tc) → Buf (Elt Ideal) ((c : Thread nD τ).loc b))

open Cert.KernelIdeal.Pay

set_option maxHeartbeats 800000 in
/-- WHAT A WRITING POINT WRITES BACK is its block of `G0` of the arrays as the region finds them. -/
theorem flushed_eq0 (c : Dev nD) (t : Fin cfg0.N) (hf : (cfg0.win 3).flush t = true) :
    (dat0 V c).flushed 3 t = ((cfg0.win 3).blk t).view.read (Elt Ideal) (G0 V c) := by
  have h3 : t.val % 4 = 3 := (flush0_3 t).mp hf
  have hN : cfg0.N = 32 := N_0
  show (cfg0.win 3).cut (grid0.coords t) ((dat0 V c).after 3 t) = _
  rw [after0_3, outsAt0_fst V c t h3]
  obtain ⟨tv, ht⟩ := t
  obtain ⟨b, rfl⟩ : ∃ b, tv = b + 3 := ⟨tv - 3, by dsimp only at h3; omega⟩
  have hb : b % 4 = 0 := by dsimp only at h3; omega
  have hb28 : b + 3 < 32 := hN ▸ ht
  have hb0 : b < cfg0.N := by omega
  have hb1 : b + 1 < cfg0.N := by omega
  have hb2 : b + 2 < cfg0.N := by omega
  funext y
  obtain ⟨p, q, rfl⟩ : ∃ (p : Fin 1024) (q : Fin 32), y = ix2 p q := ⟨y 0, y 1, eq_ix2 y⟩
  have hp : p.val < 1024 := p.isLt
  have hP : (b / 4) * 1024 + p.val < 8192 := Cert.Arith.col_lt b hb28 p
  refine Eq.trans ?_ (read_out0 ⟨b + 3, ht⟩ (G0 V c) p q ⟨(b / 4) * 1024 + p.val, hP⟩ (show (b / 4) * 1024 + p.val = (b + 3) / 4 * 1024 + p.val from by rw [Cert.Arith.blk_div b 3 hb (by decide)])).symm
  show k0_pay3 (F := Ideal) (acc0 V c (b + 3) ht) (bW0 V c ⟨b + 3, ht⟩) (ix2 p q) = _
  rw [pay3_0, acc0_four V c b hb hb0 hb1 hb2 ht p q, blk0_2 V c ⟨b + 3, ht⟩ p q ⟨(b / 4) * 1024 + p.val, hP⟩ (show (b / 4) * 1024 + p.val = (b + 3) / 4 * 1024 + p.val from by rw [Cert.Arith.blk_div b 3 hb (by decide)])]
  show _ = (∑ j : Fin 8192, arrU0 V c (ix2 j ⟨(b / 4) * 1024 + p.val, hP⟩) * arrX0 V c (ix2 j q)) * arrW0 V c (ix2 ⟨(b / 4) * 1024 + p.val, hP⟩ q)
  refine congrArg (· * _) ?_
  refine Eq.trans ?_ (Cert.Blocks.sum_four_blocks (fun j => arrU0 V c (ix2 j ⟨(b / 4) * 1024 + p.val, hP⟩) * arrX0 V c (ix2 j q))).symm
  refine congrArg₂ (· + ·) (congrArg₂ (· + ·) (congrArg₂ (· + ·) (congrArg (0 + ·) ?_) ?_) ?_) ?_
  · refine Finset.sum_congr rfl fun a _ => ?_
    exact congrArg₂ (· * ·) (blk0_0 V c ⟨b, hb0⟩ a p ⟨0 * 2048 + a.val, Cert.Arith.row_lt 0 (by decide) a⟩ ⟨(b / 4) * 1024 + p.val, hP⟩ (show 0 * 2048 + a.val = b % 4 * 2048 + a.val from by rw [hb]) rfl) (blk0_1 V c ⟨b, hb0⟩ a q ⟨0 * 2048 + a.val, Cert.Arith.row_lt 0 (by decide) a⟩ (show 0 * 2048 + a.val = b % 4 * 2048 + a.val from by rw [hb]))
  · refine Finset.sum_congr rfl fun a _ => ?_
    exact congrArg₂ (· * ·) (blk0_0 V c ⟨b + 1, hb1⟩ a p ⟨1 * 2048 + a.val, Cert.Arith.row_lt 1 (by decide) a⟩ ⟨(b / 4) * 1024 + p.val, hP⟩ (show 1 * 2048 + a.val = (b + 1) % 4 * 2048 + a.val from by rw [Cert.Arith.blk_mod b 1 hb (by decide)]) (show (b / 4) * 1024 + p.val = (b + 1) / 4 * 1024 + p.val from by rw [Cert.Arith.blk_div b 1 hb (by decide)])) (blk0_1 V c ⟨b + 1, hb1⟩ a q ⟨1 * 2048 + a.val, Cert.Arith.row_lt 1 (by decide) a⟩ (show 1 * 2048 + a.val = (b + 1) % 4 * 2048 + a.val from by rw [Cert.Arith.blk_mod b 1 hb (by decide)]))
  · refine Finset.sum_congr rfl fun a _ => ?_
    exact congrArg₂ (· * ·) (blk0_0 V c ⟨b + 2, hb2⟩ a p ⟨2 * 2048 + a.val, Cert.Arith.row_lt 2 (by decide) a⟩ ⟨(b / 4) * 1024 + p.val, hP⟩ (show 2 * 2048 + a.val = (b + 2) % 4 * 2048 + a.val from by rw [Cert.Arith.blk_mod b 2 hb (by decide)]) (show (b / 4) * 1024 + p.val = (b + 2) / 4 * 1024 + p.val from by rw [Cert.Arith.blk_div b 2 hb (by decide)])) (blk0_1 V c ⟨b + 2, hb2⟩ a q ⟨2 * 2048 + a.val, Cert.Arith.row_lt 2 (by decide) a⟩ (show 2 * 2048 + a.val = (b + 2) % 4 * 2048 + a.val from by rw [Cert.Arith.blk_mod b 2 hb (by decide)]))
  · refine Finset.sum_congr rfl fun a _ => ?_
    exact congrArg₂ (· * ·) (blk0_0 V c ⟨b + 3, ht⟩ a p ⟨3 * 2048 + a.val, Cert.Arith.row_lt 3 (by decide) a⟩ ⟨(b / 4) * 1024 + p.val, hP⟩ (show 3 * 2048 + a.val = (b + 3) % 4 * 2048 + a.val from by rw [Cert.Arith.blk_mod b 3 hb (by decide)]) (show (b / 4) * 1024 + p.val = (b + 3) / 4 * 1024 + p.val from by rw [Cert.Arith.blk_div b 3 hb (by decide)])) (blk0_1 V c ⟨b + 3, ht⟩ a q ⟨3 * 2048 + a.val, Cert.Arith.row_lt 3 (by decide) a⟩ (show 3 * 2048 + a.val = (b + 3) % 4 * 2048 + a.val from by rw [Cert.Arith.blk_mod b 3 hb (by decide)]))

/-- THE ARRAY after the region: `G0` of the arrays the region found. -/
theorem final0 (c : Dev nD) : (dat0 V c).arrAt 3 cfg0.N = G0 V c :=
  (dat0 V c).arrAt_eq_of_cover 3 (G0 V c) (flushed_eq0 V c) (cover0)

end Cert.KernelIdeal.Val

end
-- ==== Proof.KI.Pieces1.lean ====
/-
  Kernel 1: what each case of the body leaves, as the body's own arithmetic of the blocks it loads.

  Every load and every store of the body goes through the whole staging buffer or the whole accumulator (the unit
  rectangle at zero offsets), so a load reads the buffer's contents and the last store leaves its payload. Where k = 0
  the accumulator is first cleared and the partial product added to the cleared block read back; elsewhere the partial
  product is added to what the accumulator held; where k = 3 the output block is the accumulator read back after that
  addition.
-/
import proofs.«138625_j37280316129403_2_alg».proof.Proof.KI.Frame1
import Idealize.ShloMosaic.Lib.Pipeline.Value

-- membership in a rectangle of these extents recurses once per coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The two zero offsets, however spelt. -/
theorem zeroOffsets1 : (![0, 0] : Fin 2 → Nat) = fun _ => 0 := funext fun a => by fin_cases a <;> rfl

/-- Where k = 0 the accumulator ends at the partial product added to the cleared block. -/
theorem sout1_A_eq (c : Dev nD) (i : grid1.Coords) (arg2 : Memref sig .tc .vmem S1024x2048 .f32) (harg2 : arg2.IsWhole) (arg3 : Memref sig .tc .vmem S2048x32 .bf16) (harg3 : arg3.IsWhole) (arg4 : Memref sig .tc .vmem S1024x32 .f32) (harg4 : arg4.IsWhole) (arg5 : Memref sig .tc .vmem S1024x32 .f32) (harg5 : arg5.IsWhole) (hc0 : cond1_0 i) (hc1 : ¬cond1_1 i)
    (x0 : Vec F S1024x2048 .f32) (x1 : Vec F S2048x32 .bf16) :
    sout1_A c i arg2 harg2 arg3 harg3 arg4 harg4 arg5 harg5 hc0 hc1 x0 x1 = k1_pay2 x0 x1 (k1_pay1 (F := F)) := by
  unfold sout1_A
  rw [View.read_writes_eq_canon _ _ _ (scover1_A c i arg2 harg2 arg3 harg3 arg4 harg4 arg5 harg5 hc0 hc1 x0 x1)]
  unfold kernelRun1_A
  dsimp only
  sl_unfold_words
  rw [View.canon_cons_unit_zero (S := S1024x32) zeroOffsets1, View.readCov_unit_zero (S := S1024x32) _ zeroOffsets1]
  simp only [View.readAt_eq_ld, harg2.read_unread, harg3.read_unread, View.ld_unit_zero (S := S1024x2048) zeroOffsets1,
    View.ld_unit_zero (S := S2048x32) zeroOffsets1]

/-- Where k = 1 or 2 the accumulator ends at the partial product added to what it held. -/
theorem sout1_B_eq (c : Dev nD) (i : grid1.Coords) (arg2 : Memref sig .tc .vmem S1024x2048 .f32) (harg2 : arg2.IsWhole) (arg3 : Memref sig .tc .vmem S2048x32 .bf16) (harg3 : arg3.IsWhole) (arg4 : Memref sig .tc .vmem S1024x32 .f32) (harg4 : arg4.IsWhole) (arg5 : Memref sig .tc .vmem S1024x32 .f32) (harg5 : arg5.IsWhole) (hc0 : ¬cond1_0 i) (hc1 : ¬cond1_1 i)
    (x0 : Vec F S1024x2048 .f32) (x1 : Vec F S2048x32 .bf16) (xs : Vec F S1024x32 .f32) :
    sout1_B c i arg2 harg2 arg3 harg3 arg4 harg4 arg5 harg5 hc0 hc1 x0 x1 xs = k1_pay2 x0 x1 xs := by
  unfold sout1_B
  rw [View.read_writes_eq_canon _ _ _ (scover1_B c i arg2 harg2 arg3 harg3 arg4 harg4 arg5 harg5 hc0 hc1 x0 x1 xs)]
  unfold kernelRun1_B
  dsimp only
  rw [View.canon_unit_zero (S := S1024x32) zeroOffsets1]
  simp only [View.readAt_eq_ld, harg2.read_unread, harg3.read_unread, harg5.read_unread,
    View.ld_unit_zero (S := S1024x2048) zeroOffsets1, View.ld_unit_zero (S := S2048x32) zeroOffsets1,
    View.ld_unit_zero (S := S1024x32) zeroOffsets1]

/-- Where k = 3 the accumulator ends at the partial product added to what it held, as where k = 1 or 2. -/
theorem sout1_C_eq (c : Dev nD) (i : grid1.Coords) (arg2 : Memref sig .tc .vmem S1024x2048 .f32) (harg2 : arg2.IsWhole) (arg3 : Memref sig .tc .vmem S2048x32 .bf16) (harg3 : arg3.IsWhole) (arg4 : Memref sig .tc .vmem S1024x32 .f32) (harg4 : arg4.IsWhole) (arg5 : Memref sig .tc .vmem S1024x32 .f32) (harg5 : arg5.IsWhole) (hc0 : ¬cond1_0 i) (hc1 : cond1_1 i)
    (x0 : Vec F S1024x2048 .f32) (x1 : Vec F S2048x32 .bf16) (xs : Vec F S1024x32 .f32) :
    sout1_C c i arg2 harg2 arg3 harg3 arg4 harg4 arg5 harg5 hc0 hc1 x0 x1 xs = k1_pay2 x0 x1 xs := by
  unfold sout1_C
  rw [View.read_writes_eq_canon _ _ _ (scover1_C c i arg2 harg2 arg3 harg3 arg4 harg4 arg5 harg5 hc0 hc1 x0 x1 xs)]
  unfold kernelRun1_C
  dsimp only
  sl_unfold_words
  rw [View.canon_unit_zero (S := S1024x32) zeroOffsets1]
  simp only [View.readAt_eq_ld, harg2.read_unread, harg3.read_unread, harg5.read_unread,
    View.ld_unit_zero (S := S1024x2048) zeroOffsets1, View.ld_unit_zero (S := S2048x32) zeroOffsets1,
    View.ld_unit_zero (S := S1024x32) zeroOffsets1]

/-- Where k = 3 the output block is the accumulator's final contents. -/
theorem out1_C_eq (c : Dev nD) (i : grid1.Coords) (arg2 : Memref sig .tc .vmem S1024x2048 .f32) (harg2 : arg2.IsWhole) (arg3 : Memref sig .tc .vmem S2048x32 .bf16) (harg3 : arg3.IsWhole) (arg4 : Memref sig .tc .vmem S1024x32 .f32) (harg4 : arg4.IsWhole) (arg5 : Memref sig .tc .vmem S1024x32 .f32) (harg5 : arg5.IsWhole) (hc0 : ¬cond1_0 i) (hc1 : cond1_1 i)
    (x0 : Vec F S1024x2048 .f32) (x1 : Vec F S2048x32 .bf16) (xs : Vec F S1024x32 .f32) :
    out1_C c i arg2 harg2 arg3 harg3 arg4 harg4 arg5 harg5 hc0 hc1 x0 x1 xs = k1_pay2 x0 x1 xs := by
  unfold out1_C
  rw [View.read_writes_eq_canon _ _ _ (cover1_C c i arg2 harg2 arg3 harg3 arg4 harg4 arg5 harg5 hc0 hc1 x0 x1 xs)]
  unfold kernelRun1_C
  dsimp only
  sl_unfold_words
  rw [View.canon_unit_zero (S := S1024x32) zeroOffsets1, View.readCov_unit_zero (S := S1024x32) _ zeroOffsets1]
  simp only [View.readAt_eq_ld, harg2.read_unread, harg3.read_unread, harg5.read_unread,
    View.ld_unit_zero (S := S1024x2048) zeroOffsets1, View.ld_unit_zero (S := S2048x32) zeroOffsets1,
    View.ld_unit_zero (S := S1024x32) zeroOffsets1]

end Cert.KernelIdeal.Fr

end
-- ==== Proof.KI.Val1a.lean ====
/-
  The second kernel's windows read at an index, and where its output blocks lie.

  Point t of the 8 × 4 grid has row-block coordinate t / 4 and reduction coordinate t % 4. Its basis block is rows
  (t / 4)·1024 …, columns (t % 4)·2048 … of the basis; its coefficient block rows (t % 4)·2048 … of the filtered
  coefficients; its output block rows (t / 4)·1024 … of the result. The output is written back only where t % 4 = 3, and
  those eight blocks tile the result array.
-/
import proofs.«138625_j37280316129403_2_alg».proof.Proof.KI.Frame1
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr

variable (V : (c : Dev nD) → (b : Ref sig .tc) → Buf (Elt Ideal) ((c : Thread nD τ).loc b))

/-- The printed index maps, decided over the grid. -/
theorem idx1 : ∀ t : Fin cfg1.N, win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0 :=
  (by decide +kernel : ∀ t : Fin grid1.N, _)

/-- The basis and coefficient blocks at point `t`, as arrays of extended reals over their literal shapes. -/
abbrev bU1 (c : Dev nD) (t : Fin cfg1.N) : Vec Ideal S1024x2048 .f32 := iblk1 V c 0 t
abbrev bS1 (c : Dev nD) (t : Fin cfg1.N) : Vec Ideal S2048x32 .bf16 := iblk1 V c 1 t

/-- The basis block at point `t`, entry (p, a): the basis at row (t / 4)·1024 + p, column (t % 4)·2048 + a. -/
theorem blk1_0 (c : Dev nD) (t : Fin cfg1.N) (p : Fin 1024) (a : Fin 2048) (R C : Fin 8192)
    (hR : R.val = (t.val / 4) * 1024 + p.val) (hC : C.val = (t.val % 4) * 2048 + a.val) :
    bU1 V c t (ix2 p a) = V c main_arg1 (ix2 R C) := by
  obtain ⟨e0, e1, -⟩ := idx1 t
  unfold bU1 iblk1
  rw [View.read_apply]
  show V c main_arg1 _ = V c main_arg1 _
  congr 1
  funext d; apply Fin.ext
  match d with
  | ⟨0, _⟩ => show win1_0.index t (0 : Fin 2) * 1024 + 1 * p.val = R.val; omega
  | ⟨1, _⟩ => show win1_0.index t (1 : Fin 2) * 2048 + 1 * a.val = C.val; omega

/-- The coefficient block at point `t`, entry (a, q): the filtered coefficients at row (t % 4)·2048 + a, column q. -/
theorem blk1_1 (c : Dev nD) (t : Fin cfg1.N) (a : Fin 2048) (q : Fin 32) (R : Fin 8192)
    (hR : R.val = (t.val % 4) * 2048 + a.val) :
    bS1 V c t (ix2 a q) = V c main_v1 (ix2 R q) := by
  obtain ⟨-, -, e0, e1, -⟩ := idx1 t
  unfold bS1 iblk1
  rw [View.read_apply]
  show V c main_v1 _ = V c main_v1 _
  congr 1
  funext d; apply Fin.ext
  match d with
  | ⟨0, _⟩ => show win1_1.index t (0 : Fin 2) * 2048 + 1 * a.val = R.val; omega
  | ⟨1, _⟩ => show win1_1.index t (1 : Fin 2) * 32 + 1 * q.val = q.val; omega

/-- The output block at point `t` read through its window: entry (p, q) is the array's at row (t / 4)·1024 + p. -/
theorem read_out1 (t : Fin cfg1.N) (G : S8192x32.Idx → Elt Ideal .f32) (p : Fin 1024) (q : Fin 32) (R : Fin 8192)
    (hR : R.val = (t.val / 4) * 1024 + p.val) :
    (((cfg1.win 2).blk t).view.read (Elt Ideal) G : Vec Ideal S1024x32 .f32) (ix2 p q) = G (ix2 R q) := by
  obtain ⟨-, -, -, -, e0, e1⟩ := idx1 t
  rw [View.read_apply]
  refine congrArg G ?_
  funext d; apply Fin.ext
  match d with
  | ⟨0, _⟩ => show win1_2.index t (0 : Fin 2) * 1024 + 1 * p.val = R.val; omega
  | ⟨1, _⟩ => show win1_2.index t (1 : Fin 2) * 32 + 1 * q.val = q.val; omega

/-- The basis and the filtered coefficients as the region finds them, as extended-real arrays. -/
abbrev arrU1 (c : Dev nD) : S8192x8192.Idx → EReal := V c main_arg1
abbrev arrS1 (c : Dev nD) : S8192x32.Idx → EReal := V c main_v1

/-- What the second kernel's output array ends holding, from the arrays its region finds: at (i, f), row i of the basis
    against column f of the filtered coefficients. -/
def G1 (c : Dev nD) : S8192x32.Idx → EReal :=
  fun y => ∑ k : Fin 8192, arrU1 V c (ix2 (y 0) k) * arrS1 V c (ix2 k (y 1))

/-- An index of the result array is in point `t`'s block iff each coordinate is in the block's range on its axis. -/
theorem mem_blk1 (t : Fin cfg1.N) (i : S8192x32.Idx) :
    i ∈ ((cfg1.win 2).blk t).view.set ↔ ∀ a : Fin 2, win1_2.index t a * S1024x32.size a ≤ (i a).val ∧ (i a).val < win1_2.index t a * S1024x32.size a + S1024x32.size a := by
  show i ∈ ((View.whole main_v2).slice (win1_2.rect t)).set ↔ _
  rw [View.set_slice_whole, Rect.mem_set_unit]
  exact Iff.rfl

/-- Every index of the result array lies in the block of a point that writes it back. -/
theorem cover1 (i : S8192x32.Idx) : ∃ t : Fin cfg1.N, (cfg1.win 2).flush t = true ∧ i ∈ ((cfg1.win 2).blk t).view.set := by
  have hi0 : (i 0).val < 8192 := (i 0).isLt
  have hi1 : (i 1).val < 32 := (i 1).isLt
  have hN : cfg1.N = 32 := N_1
  let t : Fin cfg1.N := ⟨4 * ((i 0).val / 1024) + 3, by omega⟩
  have ht : t.val = 4 * ((i 0).val / 1024) + 3 := rfl
  obtain ⟨-, -, -, -, e0, e1⟩ := idx1 t
  refine ⟨t, (flush1_2 t).mpr (by omega), ?_⟩
  rw [mem_blk1]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 32 ≤ (i 1).val ∧ (i 1).val < win1_2.index t (1 : Fin 2) * 32 + 32; omega

end Cert.KernelIdeal.Val

end
-- ==== Proof.KI.Val1.lean ====
/-
  The second kernel's accumulator, point by point.

  The accumulator after point n is the point's partial product added to the accumulator after point n - 1, or to zero
  where the point's reduction coordinate is 0. So at a point with reduction coordinate 3 it holds the four partial
  products since the last reset, added left to right from zero; and there the output's staging buffer holds that
  accumulator.
-/
import proofs.«138625_j37280316129403_2_alg».proof.Proof.KI.Pieces1
import proofs.«138625_j37280316129403_2_alg».proof.Proof.KI.Val1a
import proofs.«138625_j37280316129403_2_alg».proof.Proof.Pay
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr

variable (V : (c : Dev nD) → (b : Ref sig .tc) → Buf (Elt Ideal) ((c : Thread nD τ).loc b))

open Cert.KernelIdeal.Pay

/-- THE ACCUMULATOR after point `n`, in closed form. -/
def acc1 (c : Dev nD) : (n : ℕ) → n < cfg1.N → Vec Ideal S1024x32 .f32
  | 0, h => k1_pay2 (F := Ideal) (bU1 V c ⟨0, h⟩) (bS1 V c ⟨0, h⟩) (k1_pay1 (F := Ideal))
  | n + 1, h => k1_pay2 (F := Ideal) (bU1 V c ⟨n + 1, h⟩) (bS1 V c ⟨n + 1, h⟩)
      (if (n + 1) % 4 = 0 then k1_pay1 (F := Ideal) else acc1 c n (Nat.lt_of_succ_lt h))

/-- Where the reduction coordinate is 0 the accumulator restarts from zero. -/
theorem acc1_base (c : Dev nD) (b : ℕ) (hb : b % 4 = 0) (h : b < cfg1.N) :
    acc1 V c b h = k1_pay2 (F := Ideal) (bU1 V c ⟨b, h⟩) (bS1 V c ⟨b, h⟩) (k1_pay1 (F := Ideal)) := by
  cases b with
  | zero => rfl
  | succ n =>
    show k1_pay2 (F := Ideal) _ _ (if (n + 1) % 4 = 0 then _ else _) = _
    rw [if_pos hb]

/-- Elsewhere it continues from the point before. -/
theorem acc1_step (c : Dev nD) (n : ℕ) (hn : ¬(n + 1) % 4 = 0) (h : n + 1 < cfg1.N) :
    acc1 V c (n + 1) h = k1_pay2 (F := Ideal) (bU1 V c ⟨n + 1, h⟩) (bS1 V c ⟨n + 1, h⟩) (acc1 V c n (Nat.lt_of_succ_lt h)) := by
  show k1_pay2 (F := Ideal) _ _ (if (n + 1) % 4 = 0 then _ else _) = _
  rw [if_neg hn]

set_option maxHeartbeats 400000 in
/-- What the run leaves in the accumulator after point `n` is the closed form — by induction on the point. -/
theorem outsAt1_snd (c : Dev nD) : ∀ (n : ℕ) (h : n < cfg1.N), (outsAt1 V c n h).2 = acc1 V c n h
  | 0, h => by
    rw [outsAt1_A V c ⟨0, h⟩ rfl (by dsimp only; omega)]
    dsimp only
    rw [sout1_A_eq]
    rfl
  | n + 1, h => by
    by_cases h0 : (n + 1) % 4 = 0
    · rw [outsAt1_A V c ⟨n + 1, h⟩ h0 (by dsimp only; omega)]
      dsimp only
      rw [sout1_A_eq, acc1_base V c (n + 1) h0 h]
    · by_cases h1 : (n + 1) % 4 = 3
      · rw [outsAt1_C V c ⟨n + 1, h⟩ h0 h1]
        dsimp only
        rw [sout1_C_eq, acc1_step V c n h0 h]
        show k1_pay2 (F := Ideal) _ _ (outsAt1 V c n _).2 = k1_pay2 (F := Ideal) _ _ (acc1 V c n _)
        rw [outsAt1_snd c n]
      · rw [outsAt1_B V c ⟨n + 1, h⟩ h0 h1]
        dsimp only
        rw [sout1_B_eq, acc1_step V c n h0 h]
        show k1_pay2 (F := Ideal) _ _ (outsAt1 V c n _).2 = k1_pay2 (F := Ideal) _ _ (acc1 V c n _)
        rw [outsAt1_snd c n]

set_option maxHeartbeats 400000 in
/-- Where the reduction coordinate is 3 the output's staging buffer ends at the accumulator. -/
theorem outsAt1_fst (c : Dev nD) (t : Fin cfg1.N) (h3 : t.val % 4 = 3) :
    (outsAt1 V c t.val t.isLt).1 = acc1 V c t.val t.isLt := by
  have h0 : ¬t.val % 4 = 0 := by omega
  have hs := outsAt1_snd V c t.val t.isLt
  rw [outsAt1_C V c t h0 h3] at hs ⊢
  dsimp only at hs ⊢
  rw [sout1_C_eq] at hs
  rw [out1_C_eq, hs]

set_option maxHeartbeats 400000 in
/-- At a point `b + 3` with `b` a multiple of 4: the four partial products since the reset, added left to right from zero. -/
theorem acc1_four (c : Dev nD) (b : ℕ) (hb : b % 4 = 0) (h0 : b < cfg1.N) (h1 : b + 1 < cfg1.N) (h2 : b + 2 < cfg1.N) (h3 : b + 3 < cfg1.N)
    (p : Fin 1024) (q : Fin 32) :
    acc1 V c (b + 3) h3 (ix2 p q)
      = (((0 + ∑ a : Fin 2048, bU1 V c ⟨b, h0⟩ (ix2 p a) * bS1 V c ⟨b, h0⟩ (ix2 a q))
          + ∑ a : Fin 2048, bU1 V c ⟨b + 1, h1⟩ (ix2 p a) * bS1 V c ⟨b + 1, h1⟩ (ix2 a q))
          + ∑ a : Fin 2048, bU1 V c ⟨b + 2, h2⟩ (ix2 p a) * bS1 V c ⟨b + 2, h2⟩ (ix2 a q))
          + ∑ a : Fin 2048, bU1 V c ⟨b + 3, h3⟩ (ix2 p a) * bS1 V c ⟨b + 3, h3⟩ (ix2 a q) := by
  rw [acc1_step V c (b + 2) (by omega) h3, pay2_1, acc1_step V c (b + 1) (by omega) h2, pay2_1,
    acc1_step V c b (by omega) h1, pay2_1, acc1_base V c b hb h0, pay2_1, pay1_1]

end Cert.KernelIdeal.Val

end
-- ==== Proof.KI.Val1f.lean ====
/-
  What the second kernel leaves in its output array.

  At a point with reduction coordinate 3 the four partial products since the last reset are the four 2048-column blocks
  of one row of the basis against one column of the filtered coefficients, added left to right from zero: regrouped, the
  whole 8192-term sum. The output block is that, which is the block of the whole-array function `G1`; the eight such
  blocks tile the array.
-/
import proofs.«138625_j37280316129403_2_alg».proof.Proof.KI.Val1
import proofs.«138625_j37280316129403_2_alg».proof.Proof.Blocks
import proofs.«138625_j37280316129403_2_alg».proof.Proof.Arith
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr

variable (V : (c : Dev nD) → (b : Ref sig .tc) → Buf (Elt Ideal) ((c : Thread nD τ).loc b))

open Cert.KernelIdeal.Pay

set_option maxHeartbeats 800000 in
/-- WHAT A WRITING POINT WRITES BACK is its block of `G1` of the arrays as the region finds them. -/
theorem flushed_eq1 (c : Dev nD) (t : Fin cfg1.N) (hf : (cfg1.win 2).flush t = true) :
    (dat1 V c).flushed 2 t = ((cfg1.win 2).blk t).view.read (Elt Ideal) (G1 V c) := by
  have h3 : t.val % 4 = 3 := (flush1_2 t).mp hf
  have hN : cfg1.N = 32 := N_1
  show (cfg1.win 2).cut (grid1.coords t) ((dat1 V c).after 2 t) = _
  rw [after1_2, outsAt1_fst V c t h3]
  obtain ⟨tv, ht⟩ := t
  obtain ⟨b, rfl⟩ : ∃ b, tv = b + 3 := ⟨tv - 3, by dsimp only at h3; omega⟩
  have hb : b % 4 = 0 := by dsimp only at h3; omega
  have hb28 : b + 3 < 32 := hN ▸ ht
  have hb0 : b < cfg1.N := by omega
  have hb1 : b + 1 < cfg1.N := by omega
  have hb2 : b + 2 < cfg1.N := by omega
  funext y
  obtain ⟨p, q, rfl⟩ : ∃ (p : Fin 1024) (q : Fin 32), y = ix2 p q := ⟨y 0, y 1, eq_ix2 y⟩
  have hp : p.val < 1024 := p.isLt
  have hP : (b / 4) * 1024 + p.val < 8192 := Cert.Arith.col_lt b hb28 p
  refine Eq.trans ?_ (read_out1 ⟨b + 3, ht⟩ (G1 V c) p q ⟨(b / 4) * 1024 + p.val, hP⟩ (show (b / 4) * 1024 + p.val = (b + 3) / 4 * 1024 + p.val from by rw [Cert.Arith.blk_div b 3 hb (by decide)])).symm
  show acc1 V c (b + 3) ht (ix2 p q) = _
  rw [acc1_four V c b hb hb0 hb1 hb2 ht p q]
  show _ = ∑ k : Fin 8192, arrU1 V c (ix2 ⟨(b / 4) * 1024 + p.val, hP⟩ k) * arrS1 V c (ix2 k q)
  refine Eq.trans ?_ (Cert.Blocks.sum_four_blocks (fun k => arrU1 V c (ix2 ⟨(b / 4) * 1024 + p.val, hP⟩ k) * arrS1 V c (ix2 k q))).symm
  refine congrArg₂ (· + ·) (congrArg₂ (· + ·) (congrArg₂ (· + ·) (congrArg (0 + ·) ?_) ?_) ?_) ?_
  · refine Finset.sum_congr rfl fun a _ => ?_
    exact congrArg₂ (· * ·) (blk1_0 V c ⟨b, hb0⟩ p a ⟨(b / 4) * 1024 + p.val, hP⟩ ⟨0 * 2048 + a.val, Cert.Arith.row_lt 0 (by decide) a⟩ rfl (show 0 * 2048 + a.val = b % 4 * 2048 + a.val from by rw [hb])) (blk1_1 V c ⟨b, hb0⟩ a q ⟨0 * 2048 + a.val, Cert.Arith.row_lt 0 (by decide) a⟩ (show 0 * 2048 + a.val = b % 4 * 2048 + a.val from by rw [hb]))
  · refine Finset.sum_congr rfl fun a _ => ?_
    exact congrArg₂ (· * ·) (blk1_0 V c ⟨b + 1, hb1⟩ p a ⟨(b / 4) * 1024 + p.val, hP⟩ ⟨1 * 2048 + a.val, Cert.Arith.row_lt 1 (by decide) a⟩ (show (b / 4) * 1024 + p.val = (b + 1) / 4 * 1024 + p.val from by rw [Cert.Arith.blk_div b 1 hb (by decide)]) (show 1 * 2048 + a.val = (b + 1) % 4 * 2048 + a.val from by rw [Cert.Arith.blk_mod b 1 hb (by decide)])) (blk1_1 V c ⟨b + 1, hb1⟩ a q ⟨1 * 2048 + a.val, Cert.Arith.row_lt 1 (by decide) a⟩ (show 1 * 2048 + a.val = (b + 1) % 4 * 2048 + a.val from by rw [Cert.Arith.blk_mod b 1 hb (by decide)]))
  · refine Finset.sum_congr rfl fun a _ => ?_
    exact congrArg₂ (· * ·) (blk1_0 V c ⟨b + 2, hb2⟩ p a ⟨(b / 4) * 1024 + p.val, hP⟩ ⟨2 * 2048 + a.val, Cert.Arith.row_lt 2 (by decide) a⟩ (show (b / 4) * 1024 + p.val = (b + 2) / 4 * 1024 + p.val from by rw [Cert.Arith.blk_div b 2 hb (by decide)]) (show 2 * 2048 + a.val = (b + 2) % 4 * 2048 + a.val from by rw [Cert.Arith.blk_mod b 2 hb (by decide)])) (blk1_1 V c ⟨b + 2, hb2⟩ a q ⟨2 * 2048 + a.val, Cert.Arith.row_lt 2 (by decide) a⟩ (show 2 * 2048 + a.val = (b + 2) % 4 * 2048 + a.val from by rw [Cert.Arith.blk_mod b 2 hb (by decide)]))
  · refine Finset.sum_congr rfl fun a _ => ?_
    exact congrArg₂ (· * ·) (blk1_0 V c ⟨b + 3, ht⟩ p a ⟨(b / 4) * 1024 + p.val, hP⟩ ⟨3 * 2048 + a.val, Cert.Arith.row_lt 3 (by decide) a⟩ (show (b / 4) * 1024 + p.val = (b + 3) / 4 * 1024 + p.val from by rw [Cert.Arith.blk_div b 3 hb (by decide)]) (show 3 * 2048 + a.val = (b + 3) % 4 * 2048 + a.val from by rw [Cert.Arith.blk_mod b 3 hb (by decide)])) (blk1_1 V c ⟨b + 3, ht⟩ a q ⟨3 * 2048 + a.val, Cert.Arith.row_lt 3 (by decide) a⟩ (show 3 * 2048 + a.val = (b + 3) % 4 * 2048 + a.val from by rw [Cert.Arith.blk_mod b 3 hb (by decide)]))

/-- THE ARRAY after the region: `G1` of the arrays the region found. -/
theorem final1 (c : Dev nD) : (dat1 V c).arrAt 2 cfg1.N = G1 V c :=
  (dat1 V c).arrAt_eq_of_cover 2 (G1 V c) (flushed_eq1 V c) (cover1)

end Cert.KernelIdeal.Val

end
-- ==== Proof.Spec.lean ====
/-
  The function both programs compute, on the extended reals.

  For a signal x (8192 × 32), a basis U (8192 × 8192) and one spectral filter per feature w (32 × 8192):
  the spectral coefficient of feature f at frequency k is the inner product of column k of U with column f of x,
  scaled by the filter's weight w (f, k); the result at vertex i, feature f is the inner product of row i of U with the
  scaled coefficients of feature f. Both inner products are plain finite sums over the 8192 vertices or frequencies.
-/
import Idealize.ShloMosaic.Lib.ValueIdx
import Idealize.ShloMosaic.PureOps.Ideal.Laws

noncomputable section

namespace Cert.Spec

open Idealize.ShloMosaic Idealize.ShloMosaic.ValueIdx

/-- The signal's and the result's shape. -/
abbrev SX : Shape := ⟨2, ![8192, 32]⟩
/-- The basis's shape. -/
abbrev SU : Shape := ⟨2, ![8192, 8192]⟩
/-- The filters' shape: one row per feature. -/
abbrev SW : Shape := ⟨2, ![32, 8192]⟩

/-- The filtered spectral coefficient at frequency `y 0` of feature `y 1`: column `y 0` of the basis against column
    `y 1` of the signal, times the filter's weight. -/
def scaled (x : SX.Idx → EReal) (U : SU.Idx → EReal) (w : SW.Idx → EReal) : SX.Idx → EReal :=
  fun y => (∑ j : Fin 8192, U (ix2 j (y 0)) * x (ix2 j (y 1))) * w (ix2 (y 1) (y 0))

/-- The result at vertex `y 0`, feature `y 1`: row `y 0` of the basis against the filtered coefficients of the feature. -/
def out (x : SX.Idx → EReal) (U : SU.Idx → EReal) (w : SW.Idx → EReal) : SX.Idx → EReal :=
  fun y => ∑ k : Fin 8192, U (ix2 (y 0) k) * scaled x U w (ix2 k (y 1))

end Cert.Spec

end
-- ==== Proof.KI.Final.lean ====
/-
  The kernel program's result is the specification.

  Region 0 finds the basis and the signal as launched and the filters transposed by the host operation before it, and
  leaves in its output array, at (k, f), column k of the basis against column f of the signal times the filter's weight
  for feature f at frequency k: the filtered spectral coefficients. Region 1 finds the basis as launched and those
  coefficients, and leaves in the result array, at (i, f), row i of the basis against column f of the coefficients.
-/
import proofs.«138625_j37280316129403_2_alg».proof.Proof.KI.Main
import proofs.«138625_j37280316129403_2_alg».proof.Proof.KI.Val0f
import proofs.«138625_j37280316129403_2_alg».proof.Proof.KI.Val1f
import proofs.«138625_j37280316129403_2_alg».proof.Proof.Spec
import Idealize.ShloMosaic.Lib.ValueLayout
import Idealize.ShloMosaic.Lib.StableHlo.Run

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr

variable (m : (ℓ : Loc nD τ sig) → Buf (Elt Ideal) ℓ) (ρ : Dev nD → PrngReg)

/-- The three argument arrays as launched, as extended-real arrays. -/
abbrev mX (c : Dev nD) : S8192x32.Idx → EReal := m ((c.tc : Thread nD τ).loc main_arg0)
abbrev mU (c : Dev nD) : S8192x8192.Idx → EReal := m ((c.tc : Thread nD τ).loc main_arg1)
abbrev mW (c : Dev nD) : S32x8192.Idx → EReal := m ((c.tc : Thread nD τ).loc main_arg2)

/-! ## What the regions find -/

/-- Region 0 finds the signal as launched: the host operation before it writes only the transposed filters. -/
theorem V1_arg0 (c : Dev nD) : V1 m ρ c main_arg0 = m ((c.tc : Thread nD τ).loc main_arg0) :=
  (W1_of m ρ c main_arg0 (by decide)).trans rfl
/-- And the basis. -/
theorem V1_arg1 (c : Dev nD) : V1 m ρ c main_arg1 = m ((c.tc : Thread nD τ).loc main_arg1) :=
  (W1_of m ρ c main_arg1 (by decide)).trans rfl
/-- And the filters transposed. -/
theorem V1_v0 (c : Dev nD) : (V1 m ρ c main_v0 : S8192x32.Idx → Elt Ideal .f32)
    = transpose S8192x32 [1, 0] (m ((c.tc : Thread nD τ).loc main_arg2)) transposes_S32x8192_S8192x32_1_0 := by
  dsimp only [V1, W1, hostOps0]; after_results

/-- Region 1 finds the basis as launched: region 0 stages it as an input and leaves it unchanged. -/
theorem V2_arg1 (c : Dev nD) : V2 m ρ c main_arg1 = m ((c.tc : Thread nD τ).loc main_arg1) :=
  ((W2_arr m ρ c 0).trans (((dat0 (V1 m ρ) c).arrAt_in 0 rfl _).trans (A_eq0 (V1 m ρ) c 0))).trans (V1_arg1 m ρ c)
/-- And, as the coefficients, what region 0's write-backs left in its output array. -/
theorem V2_v1 (c : Dev nD) : V2 m ρ c main_v1 = (dat0 (V1 m ρ) c).arrAt 3 cfg0.N := W2_arr m ρ c 3

/-! ## The two sums -/

/-- The coefficients region 1 finds are the specification's filtered spectral coefficients of the launch arrays. -/
theorem scaled_eq (c : Dev nD) :
    arrS1 (V2 m ρ) c = Cert.Spec.scaled (m ((c.tc : Thread nD τ).loc main_arg0)) (m ((c.tc : Thread nD τ).loc main_arg1)) (m ((c.tc : Thread nD τ).loc main_arg2)) := by
  show V2 m ρ c main_v1 = _
  rw [V2_v1 m ρ c, final0 (V1 m ρ) c]
  funext y
  obtain ⟨k, f, rfl⟩ : ∃ (k : Fin 8192) (f : Fin 32), y = ix2 k f := ⟨y 0, y 1, eq_ix2 y⟩
  show (∑ j : Fin 8192, arrU0 (V1 m ρ) c (ix2 j k) * arrX0 (V1 m ρ) c (ix2 j f)) * arrW0 (V1 m ρ) c (ix2 k f)
    = (∑ j : Fin 8192, mU m c (ix2 j k) * mX m c (ix2 j f)) * mW m c (ix2 f k)
  rw [show arrU0 (V1 m ρ) c = m ((c.tc : Thread nD τ).loc main_arg1) from V1_arg1 m ρ c,
    show arrX0 (V1 m ρ) c = m ((c.tc : Thread nD τ).loc main_arg0) from V1_arg0 m ρ c,
    show arrW0 (V1 m ρ) c = _ from V1_v0 m ρ c, transpose_ix2_apply]

/-- THE RESULT: what region 1's write-backs leave in the result array is the specification of the launch arrays. -/
theorem result_eq (c : Dev nD) :
    (dat1 (V2 m ρ) c).arrAt 2 cfg1.N
      = Cert.Spec.out (m ((c.tc : Thread nD τ).loc main_arg0)) (m ((c.tc : Thread nD τ).loc main_arg1)) (m ((c.tc : Thread nD τ).loc main_arg2)) := by
  rw [final1 (V2 m ρ) c]
  funext y
  obtain ⟨i, f, rfl⟩ : ∃ (i : Fin 8192) (f : Fin 32), y = ix2 i f := ⟨y 0, y 1, eq_ix2 y⟩
  show (∑ k : Fin 8192, arrU1 (V2 m ρ) c (ix2 i k) * arrS1 (V2 m ρ) c (ix2 k f))
    = ∑ k : Fin 8192, mU m c (ix2 i k) * Cert.Spec.scaled (mX m c) (mU m c) (mW m c) (ix2 k f)
  rw [scaled_eq m ρ c, show arrU1 (V2 m ρ) c = m ((c.tc : Thread nD τ).loc main_arg1) from V2_arg1 m ρ c]

/-- From any memory with zero counters, every weakly fair execution of the kernel program terminates with its result at
    the specification of the three argument arrays, and the arguments unchanged. -/
theorem run_spec : θ_run defs (onTc (τ := τ) (main (F := Ideal))) ⟨m, fun _ => 0, ρ⟩ (fun r => ∀ c : Dev nD,
      r.2.mem ((c.tc : Thread nD τ).loc main_v2)
        = Cert.Spec.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (result_eq m ρ c), (h c).2⟩) (Cert.KernelIdeal.Fr.run_main (F := Ideal) m ρ)

end Cert.KernelIdeal.Val

end
-- ==== Proof.RefValue.lean ====
/-
  The reference program's result is the specification, on the extended reals.

  The reference transposes the basis, contracts it with the signal (the spectral coefficients), multiplies by the
  transposed filters, and contracts the basis with the product. Read at an index, each transpose swaps the two
  coordinates, each contraction is a plain sum over its one contracted coordinate, and the product is the product of
  the elements: index by index this is the specification's double sum.
-/
import proofs.«138625_j37280316129403_2_alg».proof.Proof.Gen.ReferenceIdeal.Read
import proofs.«138625_j37280316129403_2_alg».proof.Proof.Spec
import proofs.«138625_j37280316129403_2_alg».proof.Proof.LibDot

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.ValueIdx

/-! ## The operand indices of each stage, by coordinates -/

/-- The transposed basis at `(a, b)` reads the basis at `(b, a)`. -/
theorem idx_v0 (a b : Fin 8192) : idx_main_v0 (ix2 a b) = ix2 b a :=
  funext fun d => Fin.ext (by match d with | ⟨0, _⟩ => rfl | ⟨1, _⟩ => rfl)

/-- The transposed filters at `(k, f)` read the filters at `(f, k)`. -/
theorem idx_v2 (k : Fin 8192) (f : Fin 32) : idx_main_v2 (ix2 k f) = ix2 f k :=
  funext fun d => Fin.ext (by match d with | ⟨0, _⟩ => rfl | ⟨1, _⟩ => rfl)

/-- The first contraction at `(k, f)` reads its left operand at row `k`, column `j`. -/
theorem lidx_v1 (k : Fin 8192) (f : Fin 32) (j : Fin 8192) : lidx_main_v1 (ix2 k f) j = ix2 k j :=
  funext fun d => Fin.ext (by match d with | ⟨0, _⟩ => rfl | ⟨1, _⟩ => rfl)

/-- The first contraction at `(k, f)` reads its right operand at row `j`, column `f`. -/
theorem ridx_v1 (k : Fin 8192) (f : Fin 32) (j : Fin 8192) : ridx_main_v1 (ix2 k f) j = ix2 j f :=
  funext fun d => Fin.ext (by match d with | ⟨0, _⟩ => rfl | ⟨1, _⟩ => rfl)

/-- The second contraction at `(p, f)` reads its left operand at row `p`, column `k`. -/
theorem lidx_v4 (p : Fin 8192) (f : Fin 32) (k : Fin 8192) : lidx_main_v4 (ix2 p f) k = ix2 p k :=
  funext fun d => Fin.ext (by match d with | ⟨0, _⟩ => rfl | ⟨1, _⟩ => rfl)

/-- The second contraction at `(p, f)` reads its right operand at row `k`, column `f`. -/
theorem ridx_v4 (p : Fin 8192) (f : Fin 32) (k : Fin 8192) : ridx_main_v4 (ix2 p f) k = ix2 k f :=
  funext fun d => Fin.ext (by match d with | ⟨0, _⟩ => rfl | ⟨1, _⟩ => rfl)

/-! ## The stages at an index -/

/-- The filtered spectral coefficients: the product stage at `(k, f)` is the specification's `scaled` there. -/
theorem v3_apply (x : FVec Ideal S8192x32 .f32) (U : FVec Ideal S8192x8192 .f32) (w : FVec Ideal S32x8192 .f32)
    (k : Fin 8192) (f : Fin 32) :
    val_main_v3 (F := Ideal) x U w (ix2 k f) = Cert.Spec.scaled x U w (ix2 k f) := by
  rw [val_main_v3_apply, val_main_v1_apply, val_main_v2_apply, idx_v2]
  show _ = (∑ j : Fin 8192, U (ix2 j k) * x (ix2 j f)) * w (ix2 f k)
  refine congrArg (· * w (ix2 f k)) (Finset.sum_congr rfl fun j _ => ?_)
  rw [val_main_v0_apply, lidx_v1, ridx_v1, idx_v0]

/-- The reference's result term, as the run states it, is the specification. -/
theorem result_eq (x : FVec Ideal S8192x32 .f32) (U : FVec Ideal S8192x8192 .f32) (w : FVec Ideal S32x8192 .f32) :
    Host.dotGeneral dot_S8192x8192_S8192x32_S8192x32_1_0_0_1_n_n none U
      (mulf (Host.dotGeneral dot_S8192x8192_S8192x32_S8192x32_1_0_0_1_n_n none
          (transpose S8192x8192 [1, 0] U transposes_S8192x8192_S8192x8192_1_0) x)
        (transpose S8192x32 [1, 0] w transposes_S32x8192_S8192x32_1_0))
      = Cert.Spec.out x U w := by
  rw [val_main_v4_eq (F := Ideal) x U w]
  funext y
  obtain ⟨p, f, rfl⟩ : ∃ (p : Fin 8192) (f : Fin 32), y = ix2 p f := ⟨y 0, y 1, eq_ix2 y⟩
  rw [val_main_v4_apply]
  show _ = ∑ k : Fin 8192, U (ix2 p k) * Cert.Spec.scaled x U w (ix2 k f)
  refine Finset.sum_congr rfl fun k _ => ?_
  rw [lidx_v4, ridx_v4, v3_apply]

/-! ## The run -/

/-- From any memory with zero counters, every weakly fair execution of the reference terminates with its result at
    the specification of the three argument arrays, and the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v4)
          = Cert.Spec.out (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (result_eq _ _ _), (h c).2⟩)
    (Cert.ReferenceIdeal.Value.run (F := Ideal) m ρ)

end Cert.ReferenceIdeal.RefValue

end
-- ==== Proof.lean ====
/-
  The certificate of a two-stage spectral filter: out = U · ((Uᵀ · x) ∗ wᵀ), for a signal x (8192 × 32), a basis U
  (8192 × 8192) and one filter per feature w (32 × 8192).

  The kernel program computes it in two tiled stages, each a grid of 8 row blocks by 4 reduction blocks: the first
  accumulates Uᵀ · x one 2048-row block at a time and multiplies by the transposed filters at the last block; the second
  accumulates U · (that) one 2048-column block at a time. The reference computes the same two products whole. On the
  extended reals a change of float format is the identity and a finite sum may be regrouped, so both end at the same
  function of the three arrays (Proof/Spec.lean): no finiteness of the inputs is used.

  The frames: each kernel keeps its accumulator between grid points, so its region's invariant carries the accumulator at
  the contents the point before left; the two regions and the one host operation before them are composed in order, and
  no item writes an argument array. The same run, read at the result array, gives the value.
-/
import proofs.«138625_j37280316129403_2_alg».proof.Defs
import proofs.«138625_j37280316129403_2_alg».proof.Proof.Gen.Kernel
import proofs.«138625_j37280316129403_2_alg».proof.Proof.Gen.KernelIdeal
import proofs.«138625_j37280316129403_2_alg».proof.Proof.Gen.ReferenceIdeal
import proofs.«138625_j37280316129403_2_alg».proof.Proof.Gen.Pre_finite_inputs
import proofs.«138625_j37280316129403_2_alg».proof.Proof.KB.Main
import proofs.«138625_j37280316129403_2_alg».proof.Proof.KI.Final
import proofs.«138625_j37280316129403_2_alg».proof.Proof.RefValue
import Idealize.ShloMosaic.Adequacy
import Idealize.ShloMosaic.Init

noncomputable section

namespace Cert.Proof

open Idealize.ShloMosaic Idealize.ShloMosaic.TcCoe Idealize.SL.Sem

/-- The kernel program at the word level runs to the end and leaves its arguments unchanged. -/
theorem frame_k : Cert.frame_Kernel (hKernel := Cert.Kernel.Gen.facts) (hPre_finite_inputs := Cert.Pre_finite_inputs.Gen.facts) :=
  fun m ρ _ => Cert.Kernel.Fr.frame (F := Bits) m ρ

/-- The same program read on the extended reals. -/
theorem frame_ki : Cert.frame_KernelIdeal (hKernelIdeal := Cert.KernelIdeal.Gen.facts) (hPre_finite_inputs := Cert.Pre_finite_inputs.Gen.facts) :=
  fun m ρ _ => Cert.KernelIdeal.Fr.frame (F := Ideal) m ρ

/-- The reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs, from memories agreeing on the arguments, end with their results at the specification of those
    arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Val.run_spec m ρ, ?_⟩
  refine (θ_run Cert.ReferenceIdeal.defs _ _).mono (fun _ h c => ⟨(h c).1.trans ?_, (h c).2⟩)
    (Cert.ReferenceIdeal.RefValue.run_spec m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
